-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v162)) (v1 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v162) = v0 c
          ∧ r.2.mem ((c.tc : Thread Cert.KernelIdeal.nD Cert.KernelIdeal.τ).loc Cert.KernelIdeal.main_v94) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x131072 : Shape := ⟨2, ![2, 131072]⟩
abbrev S8192x8192 : Shape := ⟨2, ![8192, 8192]⟩
abbrev S8192x16 : Shape := ⟨2, ![8192, 16]⟩
abbrev S1 : Shape := ⟨1, ![1]⟩
abbrev S512x32 : Shape := ⟨2, ![512, 32]⟩
abbrev S32x16 : Shape := ⟨2, ![32, 16]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_
  bcast_S_S1 : S_.BroadcastsInDim S1 (![] : Fin 0 → Fin S1.rank)
  reducesTo_S1_S_d0 : S1.ReducesTo [0] S_
  bcast_S_S512x32 : S_.BroadcastsInDim S512x32 (![] : Fin 0 → Fin S512x32.rank)
  reducesTo_S512x32_S_d0_1 : S512x32.ReducesTo [0, 1] S_
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_arg6 : FVec F S32x16 .f32) (main_arg7 : FVec F S32x16 .f32) (main_v13 : IVec S_ 1) (main_v16 : IVec S512x32 1) : IVec S_ 1 :=
  let main_c_5 : IVec S_ 1 := constantI S_ 1 1#1
  let main_v17 : IVec S_ 1 := (fun x v => Host.reduce IntOp.andi x v reducesTo_S512x32_S_d0_1 h_S_) main_v16 main_c_5
  let main_v18 : IVec S_ 1 := andi main_v13 main_v17
  let main_v19 : FVec F S32x16 .f32 := Host.absf main_arg6
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S32x16 .f32 := Host.absf main_arg7
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  main_v28

def fn {F : FTy → Type} [FloatOps F] (main_arg0 : FVec F S8192x512 .f32) (main_arg1 : IVec S2x131072 32) (main_arg2 : IVec S8192x8192 32) (main_arg3 : FVec F S8192x16 .f32) (main_arg4 : FVec F S1 .f32) (main_arg5 : FVec F S512x32 .f32) (main_arg6 : FVec F S32x16 .f32) (main_arg7 : FVec F S32x16 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x16 .f32 := Host.absf main_arg3
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  let main_v9 : FVec F S1 .f32 := Host.absf main_arg4
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S512x32 .f32 := Host.absf main_arg5
  let main_cst_4 : FVec F S_ .f32 := constant S_ .f32 0x7F800000#32
  let main_v15 : FVec F S512x32 .f32 := broadcastInDim S512x32 ![] bcast_S_S512x32 main_cst_4
  let main_v16 : IVec S512x32 1 := cmpf .olt main_v14 main_v15
  fn_part1 (F := F) main_arg6 main_arg7 main_v13 main_v16
-- ==== Kernel.lean ====
abbrev S8192x512 : Shape := ⟨2, ![8192, 512]⟩
abbrev S2x131072 : Shape := ⟨2, ![2, 131072]⟩
abbrev S8192x8192 : Shape := ⟨2, ![8192, 8192]⟩
abbrev S8192x16 : Shape := ⟨2, ![8192, 16]⟩
abbrev S1 : Shape := ⟨1, ![1]⟩
abbrev S512x32 : Shape := ⟨2, ![512, 32]⟩
abbrev S32x16 : Shape := ⟨2, ![32, 16]⟩
abbrev S1x131072 : Shape := ⟨2, ![1, 131072]⟩
abbrev S131072 : Shape := ⟨1, ![131072]⟩
abbrev S8192x32 : Shape := ⟨2, ![8192, 32]⟩
abbrev S_ : Shape := ⟨0, ![]⟩
abbrev S8192 : Shape := ⟨1, ![8192]⟩
abbrev S131072x1 : Shape := ⟨2, ![131072, 1]⟩
abbrev S131072x32 : Shape := ⟨2, ![131072, 32]⟩
abbrev S8192x1 : Shape := ⟨2, ![8192, 1]⟩
abbrev S131072x16 : Shape := ⟨2, ![131072, 16]⟩
abbrev S1x128 : Shape := ⟨2, ![1, 128]⟩
abbrev S1024x16 : Shape := ⟨2, ![1024, 16]⟩
abbrev S512x16 : Shape := ⟨2, ![512, 16]⟩
abbrev S1024x512 : Shape := ⟨2, ![1024, 512]⟩
abbrev S1024 : Shape := ⟨1, ![1024]⟩
abbrev S1024x1 : Shape := ⟨2, ![1024, 1]⟩
abbrev S1x1 : Shape := ⟨2, ![1, 1]⟩

abbrev nBuf : Space → Nat
  | .hbm => 225
  | .vmem => 7
  | .smem => 0
  | _ => 0

abbrev hbmTy0_0 (i : Nat) : BufTy := match i % 128 with
  | 0 => ⟨S8192x512, .f32⟩
  | 1 => ⟨S2x131072, .i32⟩
  | 2 => ⟨S8192x8192, .i32⟩
  | 3 => ⟨S8192x16, .f32⟩
  | 4 => ⟨S1, .f32⟩
  | 5 => ⟨S512x32, .f32⟩
  | 6 => ⟨S32x16, .f32⟩
  | 7 => ⟨S32x16, .f32⟩
  | 8 => ⟨S1x131072, .i32⟩
  | 9 => ⟨S131072, .i32⟩
  | 10 => ⟨S1x131072, .i32⟩
  | 11 => ⟨S131072, .i32⟩
  | 12 => ⟨S8192x32, .f32⟩
  | 13 => ⟨S_, .f32⟩
  | 14 => ⟨S131072, .f32⟩
  | 15 => ⟨S_, .f32⟩
  | 16 => ⟨S8192, .f32⟩
  | 17 => ⟨S131072x1, .i32⟩
  | 18 => ⟨S8192, .f32⟩
  | 19 => ⟨S_, .f32⟩
  | 20 => ⟨S8192, .f32⟩
  | 21 => ⟨S8192, .f32⟩
  | 22 => ⟨S_, .f32⟩
  | 23 => ⟨S8192, .f32⟩
  | 24 => ⟨S8192, .i1⟩
  | 25 => ⟨S_, .f32⟩
  | 26 => ⟨S8192, .f32⟩
  | 27 => ⟨S8192, .f32⟩
  | 28 => ⟨S_, .f32⟩
  | 29 => ⟨S_, .f32⟩
  | 30 => ⟨S8192, .f32⟩
  | 31 => ⟨S8192, .f32⟩
  | 32 => ⟨S_, .i32⟩
  | 33 => ⟨S131072, .i32⟩
  | 34 => ⟨S131072, .i1⟩
  | 35 => ⟨S_, .i32⟩
  | 36 => ⟨S131072, .i32⟩
  | 37 => ⟨S131072, .i32⟩
  | 38 => ⟨S131072, .i32⟩
  | 39 => ⟨S131072x1, .i32⟩
  | 40 => ⟨S131072, .f32⟩
  | 41 => ⟨S_, .i32⟩
  | 42 => ⟨S131072, .i32⟩
  | 43 => ⟨S131072, .i1⟩
  | 44 => ⟨S_, .i32⟩
  | 45 => ⟨S131072, .i32⟩
  | 46 => ⟨S131072, .i32⟩
  | 47 => ⟨S131072, .i32⟩
  | 48 => ⟨S131072x1, .i32⟩
  | 49 => ⟨S131072, .f32⟩
  | 50 => ⟨S131072, .f32⟩
  | 51 => ⟨S_, .i32⟩
  | 52 => ⟨S131072, .i32⟩
  | 53 => ⟨S131072, .i1⟩
  | 54 => ⟨S_, .i32⟩
  | 55 => ⟨S131072, .i32⟩
  | 56 => ⟨S131072, .i32⟩
  | 57 => ⟨S131072, .i32⟩
  | 58 => ⟨S131072x1, .i32⟩
  | 59 => ⟨S131072x32, .f32⟩
  | 60 => ⟨S131072x1, .f32⟩
  | 61 => ⟨S131072x32, .f32⟩
  | 62 => ⟨S131072x32, .f32⟩
  | 63 => ⟨S_, .f32⟩
  | 64 => ⟨S8192x32, .f32⟩
  | 65 => ⟨S131072x1, .i32⟩
  | 66 => ⟨S8192x32, .f32⟩
  | 67 => ⟨S8192, .f32⟩
  | 68 => ⟨S8192x1, .f32⟩
  | 69 => ⟨S8192x32, .f32⟩
  | 70 => ⟨S8192x32, .f32⟩
  | 71 => ⟨S8192x32, .f32⟩
  | 72 => ⟨S_, .f32⟩
  | 73 => ⟨S8192x32, .f32⟩
  | 74 => ⟨S8192x32, .f32⟩
  | 75 => ⟨S8192x16, .f32⟩
  | 76 => ⟨S_, .f32⟩
  | 77 => ⟨S131072, .f32⟩
  | 78 => ⟨S_, .f32⟩
  | 79 => ⟨S8192, .f32⟩
  | 80 => ⟨S131072x1, .i32⟩
  | 81 => ⟨S8192, .f32⟩
  | 82 => ⟨S_, .f32⟩
  | 83 => ⟨S8192, .f32⟩
  | 84 => ⟨S8192, .f32⟩
  | 85 => ⟨S_, .f32⟩
  | 86 => ⟨S8192, .f32⟩
  | 87 => ⟨S8192, .i1⟩
  | 88 => ⟨S_, .f32⟩
  | 89 => ⟨S8192, .f32⟩
  | 90 => ⟨S8192, .f32⟩
  | 91 => ⟨S_, .f32⟩
  | 92 => ⟨S_, .f32⟩
  | 93 => ⟨S8192, .f32⟩
  | 94 => ⟨S8192, .f32⟩
  | 95 => ⟨S_, .i32⟩
  | 96 => ⟨S131072, .i32⟩
  | 97 => ⟨S131072, .i1⟩
  | 98 => ⟨S_, .i32⟩
  | 99 => ⟨S131072, .i32⟩
  | 100 => ⟨S131072, .i32⟩
  | 101 => ⟨S131072, .i32⟩
  | 102 => ⟨S131072x1, .i32⟩
  | 103 => ⟨S131072, .f32⟩
  | 104 => ⟨S_, .i32⟩
  | 105 => ⟨S131072, .i32⟩
  | 106 => ⟨S131072, .i1⟩
  | 107 => ⟨S_, .i32⟩
  | 108 => ⟨S131072, .i32⟩
  | 109 => ⟨S131072, .i32⟩
  | 110 => ⟨S131072, .i32⟩
  | 111 => ⟨S131072x1, .i32⟩
  | 112 => ⟨S131072, .f32⟩
  | 113 => ⟨S131072, .f32⟩
  | 114 => ⟨S_, .i32⟩
  | 115 => ⟨S131072, .i32⟩
  | 116 => ⟨S131072, .i1⟩
  | 117 => ⟨S_, .i32⟩
  | 118 => ⟨S131072, .i32⟩
  | 119 => ⟨S131072, .i32⟩
  | 120 => ⟨S131072, .i32⟩
  | 121 => ⟨S131072x1, .i32⟩
  | 122 => ⟨S131072x16, .f32⟩
  | 123 => ⟨S131072x1, .f32⟩
  | 124 => ⟨S131072x16, .f32⟩
  | 125 => ⟨S131072x16, .f32⟩
  | 126 => ⟨S_, .f32⟩
  | 127 => ⟨S8192x16, .f32⟩
  | _ => ⟨S8192x512, .f32⟩

abbrev hbmTy0_1 (i : Nat) : BufTy := match i % 128 with
  | 0 => ⟨S131072x1, .i32⟩
  | 1 => ⟨S8192x16, .f32⟩
  | 2 => ⟨S8192, .f32⟩
  | 3 => ⟨S8192x1, .f32⟩
  | 4 => ⟨S8192x16, .f32⟩
  | 5 => ⟨S8192x16, .f32⟩
  | 6 => ⟨S8192x16, .f32⟩
  | 7 => ⟨S8192x16, .f32⟩
  | 8 => ⟨S_, .f32⟩
  | 9 => ⟨S131072, .f32⟩
  | 10 => ⟨S_, .f32⟩
  | 11 => ⟨S8192, .f32⟩
  | 12 => ⟨S131072x1, .i32⟩
  | 13 => ⟨S8192, .f32⟩
  | 14 => ⟨S_, .f32⟩
  | 15 => ⟨S8192, .f32⟩
  | 16 => ⟨S8192, .f32⟩
  | 17 => ⟨S_, .f32⟩
  | 18 => ⟨S8192, .f32⟩
  | 19 => ⟨S8192, .i1⟩
  | 20 => ⟨S_, .f32⟩
  | 21 => ⟨S8192, .f32⟩
  | 22 => ⟨S8192, .f32⟩
  | 23 => ⟨S_, .f32⟩
  | 24 => ⟨S_, .f32⟩
  | 25 => ⟨S8192, .f32⟩
  | 26 => ⟨S8192, .f32⟩
  | 27 => ⟨S_, .i32⟩
  | 28 => ⟨S131072, .i32⟩
  | 29 => ⟨S131072, .i1⟩
  | 30 => ⟨S_, .i32⟩
  | 31 => ⟨S131072, .i32⟩
  | 32 => ⟨S131072, .i32⟩
  | 33 => ⟨S131072, .i32⟩
  | 34 => ⟨S131072x1, .i32⟩
  | 35 => ⟨S131072, .f32⟩
  | 36 => ⟨S_, .i32⟩
  | 37 => ⟨S131072, .i32⟩
  | 38 => ⟨S131072, .i1⟩
  | 39 => ⟨S_, .i32⟩
  | 40 => ⟨S131072, .i32⟩
  | 41 => ⟨S131072, .i32⟩
  | 42 => ⟨S131072, .i32⟩
  | 43 => ⟨S131072x1, .i32⟩
  | 44 => ⟨S131072, .f32⟩
  | 45 => ⟨S131072, .f32⟩
  | 46 => ⟨S_, .i32⟩
  | 47 => ⟨S131072, .i32⟩
  | 48 => ⟨S131072, .i1⟩
  | 49 => ⟨S_, .i32⟩
  | 50 => ⟨S131072, .i32⟩
  | 51 => ⟨S131072, .i32⟩
  | 52 => ⟨S131072, .i32⟩
  | 53 => ⟨S131072x1, .i32⟩
  | 54 => ⟨S131072x16, .f32⟩
  | 55 => ⟨S131072x1, .f32⟩
  | 56 => ⟨S131072x16, .f32⟩
  | 57 => ⟨S131072x16, .f32⟩
  | 58 => ⟨S_, .f32⟩
  | 59 => ⟨S8192x16, .f32⟩
  | 60 => ⟨S131072x1, .i32⟩
  | 61 => ⟨S8192x16, .f32⟩
  | 62 => ⟨S8192, .f32⟩
  | 63 => ⟨S8192x1, .f32⟩
  | 64 => ⟨S8192x16, .f32⟩
  | 65 => ⟨S8192x16, .f32⟩
  | 66 => ⟨S8192x16, .f32⟩
  | 67 => ⟨S8192x16, .f32⟩
  | 68 => ⟨S8192x16, .f32⟩
  | 69 => ⟨S8192x16, .f32⟩
  | 70 => ⟨S1x128, .f32⟩
  | 71 => ⟨S1x1, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S8192x16, .f32⟩
  | 79 => ⟨S8192x16, .f32⟩
  | 80 => ⟨S_, .f32⟩
  | 81 => ⟨S8192x16, .f32⟩
  | 82 => ⟨S8192x16, .f32⟩
  | 83 => ⟨S8192x16, .f32⟩
  | 84 => ⟨S8192x16, .f32⟩
  | 85 => ⟨S8192x16, .f32⟩
  | 86 => ⟨S8192x16, .f32⟩
  | 87 => ⟨S8192x16, .f32⟩
  | 88 => ⟨S_, .f32⟩
  | 89 => ⟨S8192, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S1024x16, .f32⟩
  | .local _ .vmem, ⟨1, _⟩ => ⟨S1024x16, .f32⟩
  | .local _ .vmem, ⟨2, _⟩ => ⟨S512x16, .f32⟩
  | .local _ .vmem, ⟨3, _⟩ => ⟨S512x16, .f32⟩
  | .local _ .vmem, ⟨4, _⟩ => ⟨S1024x512, .i32⟩
  | .local _ .vmem, ⟨5, _⟩ => ⟨S1024x512, .i32⟩
  | .local _ .vmem, ⟨6, _⟩ => ⟨S1x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_c_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_c_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_cst_11 : Ref sig .tc := ⟨.hbm, 76, rfl⟩
abbrev main_v51 : Ref sig .tc := ⟨.hbm, 77, rfl⟩
abbrev main_cst_12 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_13 : Ref sig .tc := ⟨.hbm, 82, rfl⟩
abbrev main_v55 : Ref sig .tc := ⟨.hbm, 83, rfl⟩
abbrev main_v56 : Ref sig .tc := ⟨.hbm, 84, rfl⟩
abbrev main_cst_14 : Ref sig .tc := ⟨.hbm, 85, rfl⟩
abbrev main_v57 : Ref sig .tc := ⟨.hbm, 86, rfl⟩
abbrev main_v58 : Ref sig .tc := ⟨.hbm, 87, rfl⟩
abbrev main_cst_15 : Ref sig .tc := ⟨.hbm, 88, rfl⟩
abbrev main_v59 : Ref sig .tc := ⟨.hbm, 89, rfl⟩
abbrev main_v60 : Ref sig .tc := ⟨.hbm, 90, rfl⟩
abbrev main_cst_16 : Ref sig .tc := ⟨.hbm, 91, rfl⟩
abbrev main_call2_v0 : Ref sig .tc := ⟨.hbm, 92, rfl⟩
abbrev main_call2_v1 : Ref sig .tc := ⟨.hbm, 93, rfl⟩
abbrev main_v61 : Ref sig .tc := ⟨.hbm, 94, rfl⟩
abbrev main_c_17 : Ref sig .tc := ⟨.hbm, 95, rfl⟩
abbrev main_v62 : Ref sig .tc := ⟨.hbm, 96, rfl⟩
abbrev main_v63 : Ref sig .tc := ⟨.hbm, 97, rfl⟩
abbrev main_c_18 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_c_19 : Ref sig .tc := ⟨.hbm, 104, rfl⟩
abbrev main_v69 : Ref sig .tc := ⟨.hbm, 105, rfl⟩
abbrev main_v70 : Ref sig .tc := ⟨.hbm, 106, rfl⟩
abbrev main_c_20 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_c_21 : Ref sig .tc := ⟨.hbm, 114, rfl⟩
abbrev main_v77 : Ref sig .tc := ⟨.hbm, 115, rfl⟩
abbrev main_v78 : Ref sig .tc := ⟨.hbm, 116, rfl⟩
abbrev main_c_22 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_23 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_24 : Ref sig .tc := ⟨.hbm, 136, rfl⟩
abbrev main_v96 : Ref sig .tc := ⟨.hbm, 137, rfl⟩
abbrev main_cst_25 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_26 : Ref sig .tc := ⟨.hbm, 142, rfl⟩
abbrev main_v100 : Ref sig .tc := ⟨.hbm, 143, rfl⟩
abbrev main_v101 : Ref sig .tc := ⟨.hbm, 144, rfl⟩
abbrev main_cst_27 : Ref sig .tc := ⟨.hbm, 145, rfl⟩
abbrev main_v102 : Ref sig .tc := ⟨.hbm, 146, rfl⟩
abbrev main_v103 : Ref sig .tc := ⟨.hbm, 147, rfl⟩
abbrev main_cst_28 : Ref sig .tc := ⟨.hbm, 148, rfl⟩
abbrev main_v104 : Ref sig .tc := ⟨.hbm, 149, rfl⟩
abbrev main_v105 : Ref sig .tc := ⟨.hbm, 150, rfl⟩
abbrev main_cst_29 : Ref sig .tc := ⟨.hbm, 151, rfl⟩
abbrev main_call3_v0 : Ref sig .tc := ⟨.hbm, 152, rfl⟩
abbrev main_call3_v1 : Ref sig .tc := ⟨.hbm, 153, rfl⟩
abbrev main_v106 : Ref sig .tc := ⟨.hbm, 154, rfl⟩
abbrev main_c_30 : Ref sig .tc := ⟨.hbm, 155, rfl⟩
abbrev main_v107 : Ref sig .tc := ⟨.hbm, 156, rfl⟩
abbrev main_v108 : Ref sig .tc := ⟨.hbm, 157, rfl⟩
abbrev main_c_31 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_c_32 : Ref sig .tc := ⟨.hbm, 164, rfl⟩
abbrev main_v114 : Ref sig .tc := ⟨.hbm, 165, rfl⟩
abbrev main_v115 : Ref sig .tc := ⟨.hbm, 166, rfl⟩
abbrev main_c_33 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_c_34 : Ref sig .tc := ⟨.hbm, 174, rfl⟩
abbrev main_v122 : Ref sig .tc := ⟨.hbm, 175, rfl⟩
abbrev main_v123 : Ref sig .tc := ⟨.hbm, 176, rfl⟩
abbrev main_c_35 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_cst_36 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_cst_37 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_cst_38 : Ref sig .tc := ⟨.hbm, 205, rfl⟩
abbrev main_v149 : Ref sig .tc := ⟨.hbm, 206, rfl⟩
abbrev main_v150 : Ref sig .tc := ⟨.hbm, 207, rfl⟩
abbrev main_cst_39 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_cst_40 : Ref sig .tc := ⟨.hbm, 216, rfl⟩
abbrev main_v158 : Ref sig .tc := ⟨.hbm, 217, rfl⟩
abbrev main_cst_41 : Ref sig .tc := ⟨.hbm, 218, rfl⟩
abbrev main_v159 : Ref sig .tc := ⟨.hbm, 219, rfl⟩
abbrev main_cst_42 : Ref sig .tc := ⟨.hbm, 220, rfl⟩
abbrev main_v160 : Ref sig .tc := ⟨.hbm, 221, rfl⟩
abbrev main_cst_43 : Ref sig .tc := ⟨.hbm, 222, rfl⟩
abbrev main_v161 : Ref sig .tc := ⟨.hbm, 223, rfl⟩
abbrev main_v162 : Ref sig .tc := ⟨.hbm, 224, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S_S8192 : S_.BroadcastsInDim S8192 (![] : Fin 0 → Fin S8192.rank)
  bcast_S131072_S131072x1_0 : S131072.BroadcastsInDim S131072x1 (![0] : Fin 1 → Fin S131072x1.rank)
  bcast_S131072x1_S131072x32_0_1 : S131072x1.BroadcastsInDim S131072x32 (![0, 1] : Fin 2 → Fin S131072x32.rank)
  bcast_S_S8192x32 : S_.BroadcastsInDim S8192x32 (![] : Fin 0 → Fin S8192x32.rank)
  bcast_S8192_S8192x1_0 : S8192.BroadcastsInDim S8192x1 (![0] : Fin 1 → Fin S8192x1.rank)
  bcast_S8192x1_S8192x32_0_1 : S8192x1.BroadcastsInDim S8192x32 (![0, 1] : Fin 2 → Fin S8192x32.rank)
  bcast_S131072x1_S131072x16_0_1 : S131072x1.BroadcastsInDim S131072x16 (![0, 1] : Fin 2 → Fin S131072x16.rank)
  bcast_S_S8192x16 : S_.BroadcastsInDim S8192x16 (![] : Fin 0 → Fin S8192x16.rank)
  bcast_S8192x1_S8192x16_0_1 : S8192x1.BroadcastsInDim S8192x16 (![0, 1] : Fin 2 → Fin S8192x16.rank)
  inb_S1x128_S1x128_0_0 : ∀ a, (![0, 0] : Fin 2 → Nat) a + S1x128.size a ≤ S1x128.size a
  h_S1x128 : 0 < S1x128.numel
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  reduces_S1024x1_S1 : S1024x1.Reduces [0] S1
  shapeCasts_S1_S1x1 : S1.ShapeCasts S1x1
  inpos_S1x1_p0_0 : ∀ a, (![0, 0] : Fin 2 → Nat) a < S1x1.size a
  shapeCasts_S1x128_S1x128 : S1x128.ShapeCasts S1x128
  slices_S1x128_S1x1_0_0 : S1x128.Slices ![0, 0] S1x1
  shapeCasts_S1x1_S_ : S1x1.ShapeCasts S_
  shapeCasts_S1_S_ : S1.ShapeCasts S_
  reducesTo_S8192x16_S8192_d1 : S8192x16.ReducesTo [1] S8192
  h_S_ : 0 < S_.numel
  reducesTo_S8192_S_d0 : S8192.ReducesTo [0] S_
  dot_S8192x512_S512x32_S8192x32_1_0_0_1_n_n_wf : DotDims.WF S8192x512 S512x32 S8192x32 [1] [0] [0] [1] [] []
  scatter_S8192_S131072x1_S131072_n_0_0_1_wf : ScatterDims.WF S8192 S131072x1 S131072 [] [0] [0] 1
  gather_S8192_S131072x1_S131072_n_0_n_n_0_1_1_wf : GatherDims.WF S8192 S131072x1 S131072 [] [0] [] [0] [] 1 ![1]
  gather_S8192x32_S131072x1_S131072x32_1_0_n_n_0_1_132_wf : GatherDims.WF S8192x32 S131072x1 S131072x32 [1] [0] [] [0] [] 1 ![1, 32]
  scatter_S8192x32_S131072x1_S131072x32_1_0_0_1_wf : ScatterDims.WF S8192x32 S131072x1 S131072x32 [1] [0] [0] 1
  dot_S8192x32_S32x16_S8192x16_1_0_0_1_n_n_wf : DotDims.WF S8192x32 S32x16 S8192x16 [1] [0] [0] [1] [] []
  gather_S8192x16_S131072x1_S131072x16_1_0_n_n_0_1_116_wf : GatherDims.WF S8192x16 S131072x1 S131072x16 [1] [0] [] [0] [] 1 ![1, 16]
  scatter_S8192x16_S131072x1_S131072x16_1_0_0_1_wf : ScatterDims.WF S8192x16 S131072x1 S131072x16 [1] [0] [0] 1
  dot_S1024x16_S512x16_S1024x512_1_1_0_0_n_n_wf : DotDims.WF S1024x16 S512x16 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S8192x16.size a
  hwx0_0 : ∀ i : grid0.Coords, EltTy.bits .f32 = 32 ∨ (Rect.block (s := S8192x16) S1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S8192x16.size a
  hwx0_1 : ∀ i : grid0.Coords, EltTy.bits .f32 = 32 ∨ (Rect.block (s := S8192x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x8192.size a
  hwx0_2 : ∀ i : grid0.Coords, EltTy.bits .i32 = 32 ∨ (Rect.block (s := S8192x8192) S1024x512.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)

variable [Facts₀]

def dot_S8192x512_S512x32_S8192x32_1_0_0_1_n_n : DotDims S8192x512 S512x32 S8192x32 where
  lhsContracting := [1]
  rhsContracting := [0]
  lhsNonContracting := [0]
  rhsNonContracting := [1]
  lhsBatch := []
  rhsBatch := []
  wf := dot_S8192x512_S512x32_S8192x32_1_0_0_1_n_n_wf
def scatter_S8192_S131072x1_S131072_n_0_0_1 : ScatterDims S8192 S131072x1 S131072 where
  updateWindowDims := []
  insertedWindowDims := [0]
  scatterDimsToOperandDims := [0]
  indexVectorDim := 1
  wf := scatter_S8192_S131072x1_S131072_n_0_0_1_wf
def gather_S8192_S131072x1_S131072_n_0_n_n_0_1_1 : GatherDims S8192 S131072x1 S131072 where
  offsetDims := []
  collapsedSliceDims := [0]
  operandBatchingDims := []
  startIndicesBatchingDims := []
  startIndexMap := [0]
  indexVectorDim := 1
  sliceSizes := ![1]
  wf := gather_S8192_S131072x1_S131072_n_0_n_n_0_1_1_wf
def gather_S8192x32_S131072x1_S131072x32_1_0_n_n_0_1_132 : GatherDims S8192x32 S131072x1 S131072x32 where
  offsetDims := [1]
  collapsedSliceDims := [0]
  operandBatchingDims := []
  startIndicesBatchingDims := []
  startIndexMap := [0]
  indexVectorDim := 1
  sliceSizes := ![1, 32]
  wf := gather_S8192x32_S131072x1_S131072x32_1_0_n_n_0_1_132_wf
def scatter_S8192x32_S131072x1_S131072x32_1_0_0_1 : ScatterDims S8192x32 S131072x1 S131072x32 where
  updateWindowDims := [1]
  insertedWindowDims := [0]
  scatterDimsToOperandDims := [0]
  indexVectorDim := 1
  wf := scatter_S8192x32_S131072x1_S131072x32_1_0_0_1_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def gather_S8192x16_S131072x1_S131072x16_1_0_n_n_0_1_116 : GatherDims S8192x16 S131072x1 S131072x16 where
  offsetDims := [1]
  collapsedSliceDims := [0]
  operandBatchingDims := []
  startIndicesBatchingDims := []
  startIndexMap := [0]
  indexVectorDim := 1
  sliceSizes := ![1, 16]
  wf := gather_S8192x16_S131072x1_S131072x16_1_0_n_n_0_1_116_wf
def scatter_S8192x16_S131072x1_S131072x16_1_0_0_1 : ScatterDims S8192x16 S131072x1 S131072x16 where
  updateWindowDims := [1]
  insertedWindowDims := [0]
  scatterDimsToOperandDims := [0]
  indexVectorDim := 1
  wf := scatter_S8192x16_S131072x1_S131072x16_1_0_0_1_wf
def dot_S1024x16_S512x16_S1024x512_1_1_0_0_n_n : DotDims S1024x16 S512x16 S1024x512 where
  lhsContracting := [1]
  rhsContracting := [1]
  lhsNonContracting := [0]
  rhsNonContracting := [0]
  lhsBatch := []
  rhsBatch := []
  wf := dot_S1024x16_S512x16_S1024x512_1_1_0_0_n_n_wf

abbrev win0_0 : Pipeline.Window sig grid0 :=
  Pipeline.Window.ofSpec (Memref.whole main_v142) S1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v142) S512x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v143) S1x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x512 : Shape := ⟨2, ![8192, 512]⟩
abbrev S2x131072 : Shape := ⟨2, ![2, 131072]⟩
abbrev S8192x8192 : Shape := ⟨2, ![8192, 8192]⟩
abbrev S8192x16 : Shape := ⟨2, ![8192, 16]⟩
abbrev S1 : Shape := ⟨1, ![1]⟩
abbrev S512x32 : Shape := ⟨2, ![512, 32]⟩
abbrev S32x16 : Shape := ⟨2, ![32, 16]⟩
abbrev S1x131072 : Shape := ⟨2, ![1, 131072]⟩
abbrev S131072 : Shape := ⟨1, ![131072]⟩
abbrev S8192x32 : Shape := ⟨2, ![8192, 32]⟩
abbrev S_ : Shape := ⟨0, ![]⟩
abbrev S8192 : Shape := ⟨1, ![8192]⟩
abbrev S131072x1 : Shape := ⟨2, ![131072, 1]⟩
abbrev S131072x32 : Shape := ⟨2, ![131072, 32]⟩
abbrev S8192x1 : Shape := ⟨2, ![8192, 1]⟩
abbrev S131072x16 : Shape := ⟨2, ![131072, 16]⟩
abbrev S16x8192 : Shape := ⟨2, ![16, 8192]⟩

abbrev nBuf : Space → Nat
  | .hbm => 252
  | .vmem => 0
  | .smem => 0
  | _ => 0

abbrev hbmTy0_0 (i : Nat) : BufTy := match i % 128 with
  | 0 => ⟨S8192x512, .f32⟩
  | 1 => ⟨S2x131072, .i32⟩
  | 2 => ⟨S8192x8192, .i32⟩
  | 3 => ⟨S8192x16, .f32⟩
  | 4 => ⟨S1, .f32⟩
  | 5 => ⟨S512x32, .f32⟩
  | 6 => ⟨S32x16, .f32⟩
  | 7 => ⟨S32x16, .f32⟩
  | 8 => ⟨S1x131072, .i32⟩
  | 9 => ⟨S131072, .i32⟩
  | 10 => ⟨S1x131072, .i32⟩
  | 11 => ⟨S131072, .i32⟩
  | 12 => ⟨S8192x32, .f32⟩
  | 13 => ⟨S_, .f32⟩
  | 14 => ⟨S131072, .f32⟩
  | 15 => ⟨S_, .f32⟩
  | 16 => ⟨S8192, .f32⟩
  | 17 => ⟨S131072x1, .i32⟩
  | 18 => ⟨S8192, .f32⟩
  | 19 => ⟨S_, .f32⟩
  | 20 => ⟨S8192, .f32⟩
  | 21 => ⟨S8192, .f32⟩
  | 22 => ⟨S_, .f32⟩
  | 23 => ⟨S8192, .f32⟩
  | 24 => ⟨S8192, .i1⟩
  | 25 => ⟨S_, .f32⟩
  | 26 => ⟨S8192, .f32⟩
  | 27 => ⟨S8192, .f32⟩
  | 28 => ⟨S_, .f32⟩
  | 29 => ⟨S_, .f32⟩
  | 30 => ⟨S8192, .f32⟩
  | 31 => ⟨S8192, .f32⟩
  | 32 => ⟨S_, .i32⟩
  | 33 => ⟨S131072, .i32⟩
  | 34 => ⟨S131072, .i1⟩
  | 35 => ⟨S_, .i32⟩
  | 36 => ⟨S131072, .i32⟩
  | 37 => ⟨S131072, .i32⟩
  | 38 => ⟨S131072, .i32⟩
  | 39 => ⟨S131072x1, .i32⟩
  | 40 => ⟨S131072, .f32⟩
  | 41 => ⟨S_, .i32⟩
  | 42 => ⟨S131072, .i32⟩
  | 43 => ⟨S131072, .i1⟩
  | 44 => ⟨S_, .i32⟩
  | 45 => ⟨S131072, .i32⟩
  | 46 => ⟨S131072, .i32⟩
  | 47 => ⟨S131072, .i32⟩
  | 48 => ⟨S131072x1, .i32⟩
  | 49 => ⟨S131072, .f32⟩
  | 50 => ⟨S131072, .f32⟩
  | 51 => ⟨S_, .i32⟩
  | 52 => ⟨S131072, .i32⟩
  | 53 => ⟨S131072, .i1⟩
  | 54 => ⟨S_, .i32⟩
  | 55 => ⟨S131072, .i32⟩
  | 56 => ⟨S131072, .i32⟩
  | 57 => ⟨S131072, .i32⟩
  | 58 => ⟨S131072x1, .i32⟩
  | 59 => ⟨S131072x32, .f32⟩
  | 60 => ⟨S131072x1, .f32⟩
  | 61 => ⟨S131072x32, .f32⟩
  | 62 => ⟨S131072x32, .f32⟩
  | 63 => ⟨S_, .f32⟩
  | 64 => ⟨S8192x32, .f32⟩
  | 65 => ⟨S131072x1, .i32⟩
  | 66 => ⟨S8192x32, .f32⟩
  | 67 => ⟨S8192, .f32⟩
  | 68 => ⟨S8192x1, .f32⟩
  | 69 => ⟨S8192x32, .f32⟩
  | 70 => ⟨S8192x32, .f32⟩
  | 71 => ⟨S8192x32, .f32⟩
  | 72 => ⟨S_, .f32⟩
  | 73 => ⟨S8192x32, .f32⟩
  | 74 => ⟨S8192x32, .f32⟩
  | 75 => ⟨S8192x16, .f32⟩
  | 76 => ⟨S_, .f32⟩
  | 77 => ⟨S131072, .f32⟩
  | 78 => ⟨S_, .f32⟩
  | 79 => ⟨S8192, .f32⟩
  | 80 => ⟨S131072x1, .i32⟩
  | 81 => ⟨S8192, .f32⟩
  | 82 => ⟨S_, .f32⟩
  | 83 => ⟨S8192, .f32⟩
  | 84 => ⟨S8192, .f32⟩
  | 85 => ⟨S_, .f32⟩
  | 86 => ⟨S8192, .f32⟩
  | 87 => ⟨S8192, .i1⟩
  | 88 => ⟨S_, .f32⟩
  | 89 => ⟨S8192, .f32⟩
  | 90 => ⟨S8192, .f32⟩
  | 91 => ⟨S_, .f32⟩
  | 92 => ⟨S_, .f32⟩
  | 93 => ⟨S8192, .f32⟩
  | 94 => ⟨S8192, .f32⟩
  | 95 => ⟨S_, .i32⟩
  | 96 => ⟨S131072, .i32⟩
  | 97 => ⟨S131072, .i1⟩
  | 98 => ⟨S_, .i32⟩
  | 99 => ⟨S131072, .i32⟩
  | 100 => ⟨S131072, .i32⟩
  | 101 => ⟨S131072, .i32⟩
  | 102 => ⟨S131072x1, .i32⟩
  | 103 => ⟨S131072, .f32⟩
  | 104 => ⟨S_, .i32⟩
  | 105 => ⟨S131072, .i32⟩
  | 106 => ⟨S131072, .i1⟩
  | 107 => ⟨S_, .i32⟩
  | 108 => ⟨S131072, .i32⟩
  | 109 => ⟨S131072, .i32⟩
  | 110 => ⟨S131072, .i32⟩
  | 111 => ⟨S131072x1, .i32⟩
  | 112 => ⟨S131072, .f32⟩
  | 113 => ⟨S131072, .f32⟩
  | 114 => ⟨S_, .i32⟩
  | 115 => ⟨S131072, .i32⟩
  | 116 => ⟨S131072, .i1⟩
  | 117 => ⟨S_, .i32⟩
  | 118 => ⟨S131072, .i32⟩
  | 119 => ⟨S131072, .i32⟩
  | 120 => ⟨S131072, .i32⟩
  | 121 => ⟨S131072x1, .i32⟩
  | 122 => ⟨S131072x16, .f32⟩
  | 123 => ⟨S131072x1, .f32⟩
  | 124 => ⟨S131072x16, .f32⟩
  | 125 => ⟨S131072x16, .f32⟩
  | 126 => ⟨S_, .f32⟩
  | 127 => ⟨S8192x16, .f32⟩
  | _ => ⟨S8192x512, .f32⟩

abbrev hbmTy0_1 (i : Nat) : BufTy := match i % 128 with
  | 0 => ⟨S131072x1, .i32⟩
  | 1 => ⟨S8192x16, .f32⟩
  | 2 => ⟨S8192, .f32⟩
  | 3 => ⟨S8192x1, .f32⟩
  | 4 => ⟨S8192x16, .f32⟩
  | 5 => ⟨S8192x16, .f32⟩
  | 6 => ⟨S8192x16, .f32⟩
  | 7 => ⟨S8192x16, .f32⟩
  | 8 => ⟨S_, .f32⟩
  | 9 => ⟨S131072, .f32⟩
  | 10 => ⟨S_, .f32⟩
  | 11 => ⟨S8192, .f32⟩
  | 12 => ⟨S131072x1, .i32⟩
  | 13 => ⟨S8192, .f32⟩
  | 14 => ⟨S_, .f32⟩
  | 15 => ⟨S8192, .f32⟩
  | 16 => ⟨S8192, .f32⟩
  | 17 => ⟨S_, .f32⟩
  | 18 => ⟨S8192, .f32⟩
  | 19 => ⟨S8192, .i1⟩
  | 20 => ⟨S_, .f32⟩
  | 21 => ⟨S8192, .f32⟩
  | 22 => ⟨S8192, .f32⟩
  | 23 => ⟨S_, .f32⟩
  | 24 => ⟨S_, .f32⟩
  | 25 => ⟨S8192, .f32⟩
  | 26 => ⟨S8192, .f32⟩
  | 27 => ⟨S_, .i32⟩
  | 28 => ⟨S131072, .i32⟩
  | 29 => ⟨S131072, .i1⟩
  | 30 => ⟨S_, .i32⟩
  | 31 => ⟨S131072, .i32⟩
  | 32 => ⟨S131072, .i32⟩
  | 33 => ⟨S131072, .i32⟩
  | 34 => ⟨S131072x1, .i32⟩
  | 35 => ⟨S131072, .f32⟩
  | 36 => ⟨S_, .i32⟩
  | 37 => ⟨S131072, .i32⟩
  | 38 => ⟨S131072, .i1⟩
  | 39 => ⟨S_, .i32⟩
  | 40 => ⟨S131072, .i32⟩
  | 41 => ⟨S131072, .i32⟩
  | 42 => ⟨S131072, .i32⟩
  | 43 => ⟨S131072x1, .i32⟩
  | 44 => ⟨S131072, .f32⟩
  | 45 => ⟨S131072, .f32⟩
  | 46 => ⟨S_, .i32⟩
  | 47 => ⟨S131072, .i32⟩
  | 48 => ⟨S131072, .i1⟩
  | 49 => ⟨S_, .i32⟩
  | 50 => ⟨S131072, .i32⟩
  | 51 => ⟨S131072, .i32⟩
  | 52 => ⟨S131072, .i32⟩
  | 53 => ⟨S131072x1, .i32⟩
  | 54 => ⟨S131072x16, .f32⟩
  | 55 => ⟨S131072x1, .f32⟩
  | 56 => ⟨S131072x16, .f32⟩
  | 57 => ⟨S131072x16, .f32⟩
  | 58 => ⟨S_, .f32⟩
  | 59 => ⟨S8192x16, .f32⟩
  | 60 => ⟨S131072x1, .i32⟩
  | 61 => ⟨S8192x16, .f32⟩
  | 62 => ⟨S8192, .f32⟩
  | 63 => ⟨S8192x1, .f32⟩
  | 64 => ⟨S8192x16, .f32⟩
  | 65 => ⟨S8192x16, .f32⟩
  | 66 => ⟨S8192x16, .f32⟩
  | 67 => ⟨S8192x16, .f32⟩
  | 68 => ⟨S8192x16, .f32⟩
  | 69 => ⟨S8192x16, .f32⟩
  | 70 => ⟨S16x8192, .f32⟩
  | 71 => ⟨S8192x8192, .f32⟩
  | 72 => ⟨S8192x8192, .f32⟩
  | 73 => ⟨S8192x8192, .f32⟩
  | 74 => ⟨S_, .f32⟩
  | 75 => ⟨S8192x8192, .f32⟩
  | 76 => ⟨S8192x8192, .f32⟩
  | 77 => ⟨S8192x8192, .f32⟩
  | 78 => ⟨S8192x8192, .f32⟩
  | 79 => ⟨S8192x8192, .i1⟩
  | 80 => ⟨S8192x8192, .f32⟩
  | 81 => ⟨S8192x8192, .f32⟩
  | 82 => ⟨S8192x8192, .f32⟩
  | 83 => ⟨S8192x8192, .f32⟩
  | 84 => ⟨S8192x8192, .f32⟩
  | 85 => ⟨S8192x8192, .f32⟩
  | 86 => ⟨S8192x8192, .f32⟩
  | 87 => ⟨S8192x8192, .f32⟩
  | 88 => ⟨S_, .f32⟩
  | 89 => ⟨S8192x8192, .f32⟩
  | 90 => ⟨S8192x8192, .f32⟩
  | 91 => ⟨S8192x8192, .f32⟩
  | 92 => ⟨S_, .f32⟩
  | 93 => ⟨S8192x8192, .f32⟩
  | 94 => ⟨S8192x8192, .f32⟩
  | 95 => ⟨S8192x8192, .f32⟩
  | 96 => ⟨S8192x8192, .f32⟩
  | 97 => ⟨S8192x8192, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S8192x16, .f32⟩
  | 106 => ⟨S8192x16, .f32⟩
  | 107 => ⟨S_, .f32⟩
  | 108 => ⟨S8192x16, .f32⟩
  | 109 => ⟨S8192x16, .f32⟩
  | 110 => ⟨S8192x16, .f32⟩
  | 111 => ⟨S8192x16, .f32⟩
  | 112 => ⟨S8192x16, .f32⟩
  | 113 => ⟨S8192x16, .f32⟩
  | 114 => ⟨S8192x16, .f32⟩
  | 115 => ⟨S_, .f32⟩
  | 116 => ⟨S8192, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_c_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_c_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_cst_11 : Ref sig .tc := ⟨.hbm, 76, rfl⟩
abbrev main_v51 : Ref sig .tc := ⟨.hbm, 77, rfl⟩
abbrev main_cst_12 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_13 : Ref sig .tc := ⟨.hbm, 82, rfl⟩
abbrev main_v55 : Ref sig .tc := ⟨.hbm, 83, rfl⟩
abbrev main_v56 : Ref sig .tc := ⟨.hbm, 84, rfl⟩
abbrev main_cst_14 : Ref sig .tc := ⟨.hbm, 85, rfl⟩
abbrev main_v57 : Ref sig .tc := ⟨.hbm, 86, rfl⟩
abbrev main_v58 : Ref sig .tc := ⟨.hbm, 87, rfl⟩
abbrev main_cst_15 : Ref sig .tc := ⟨.hbm, 88, rfl⟩
abbrev main_v59 : Ref sig .tc := ⟨.hbm, 89, rfl⟩
abbrev main_v60 : Ref sig .tc := ⟨.hbm, 90, rfl⟩
abbrev main_cst_16 : Ref sig .tc := ⟨.hbm, 91, rfl⟩
abbrev main_call2_v0 : Ref sig .tc := ⟨.hbm, 92, rfl⟩
abbrev main_call2_v1 : Ref sig .tc := ⟨.hbm, 93, rfl⟩
abbrev main_v61 : Ref sig .tc := ⟨.hbm, 94, rfl⟩
abbrev main_c_17 : Ref sig .tc := ⟨.hbm, 95, rfl⟩
abbrev main_v62 : Ref sig .tc := ⟨.hbm, 96, rfl⟩
abbrev main_v63 : Ref sig .tc := ⟨.hbm, 97, rfl⟩
abbrev main_c_18 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_c_19 : Ref sig .tc := ⟨.hbm, 104, rfl⟩
abbrev main_v69 : Ref sig .tc := ⟨.hbm, 105, rfl⟩
abbrev main_v70 : Ref sig .tc := ⟨.hbm, 106, rfl⟩
abbrev main_c_20 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_c_21 : Ref sig .tc := ⟨.hbm, 114, rfl⟩
abbrev main_v77 : Ref sig .tc := ⟨.hbm, 115, rfl⟩
abbrev main_v78 : Ref sig .tc := ⟨.hbm, 116, rfl⟩
abbrev main_c_22 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_23 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_24 : Ref sig .tc := ⟨.hbm, 136, rfl⟩
abbrev main_v96 : Ref sig .tc := ⟨.hbm, 137, rfl⟩
abbrev main_cst_25 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_26 : Ref sig .tc := ⟨.hbm, 142, rfl⟩
abbrev main_v100 : Ref sig .tc := ⟨.hbm, 143, rfl⟩
abbrev main_v101 : Ref sig .tc := ⟨.hbm, 144, rfl⟩
abbrev main_cst_27 : Ref sig .tc := ⟨.hbm, 145, rfl⟩
abbrev main_v102 : Ref sig .tc := ⟨.hbm, 146, rfl⟩
abbrev main_v103 : Ref sig .tc := ⟨.hbm, 147, rfl⟩
abbrev main_cst_28 : Ref sig .tc := ⟨.hbm, 148, rfl⟩
abbrev main_v104 : Ref sig .tc := ⟨.hbm, 149, rfl⟩
abbrev main_v105 : Ref sig .tc := ⟨.hbm, 150, rfl⟩
abbrev main_cst_29 : Ref sig .tc := ⟨.hbm, 151, rfl⟩
abbrev main_call3_v0 : Ref sig .tc := ⟨.hbm, 152, rfl⟩
abbrev main_call3_v1 : Ref sig .tc := ⟨.hbm, 153, rfl⟩
abbrev main_v106 : Ref sig .tc := ⟨.hbm, 154, rfl⟩
abbrev main_c_30 : Ref sig .tc := ⟨.hbm, 155, rfl⟩
abbrev main_v107 : Ref sig .tc := ⟨.hbm, 156, rfl⟩
abbrev main_v108 : Ref sig .tc := ⟨.hbm, 157, rfl⟩
abbrev main_c_31 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_c_32 : Ref sig .tc := ⟨.hbm, 164, rfl⟩
abbrev main_v114 : Ref sig .tc := ⟨.hbm, 165, rfl⟩
abbrev main_v115 : Ref sig .tc := ⟨.hbm, 166, rfl⟩
abbrev main_c_33 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_c_34 : Ref sig .tc := ⟨.hbm, 174, rfl⟩
abbrev main_v122 : Ref sig .tc := ⟨.hbm, 175, rfl⟩
abbrev main_v123 : Ref sig .tc := ⟨.hbm, 176, rfl⟩
abbrev main_c_35 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_cst_36 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_call4_cst : Ref sig .tc := ⟨.hbm, 202, rfl⟩
abbrev main_call4_v0 : Ref sig .tc := ⟨.hbm, 203, rfl⟩
abbrev main_call4_v1 : Ref sig .tc := ⟨.hbm, 204, rfl⟩
abbrev main_call4_v2 : Ref sig .tc := ⟨.hbm, 205, rfl⟩
abbrev main_call4_v3 : Ref sig .tc := ⟨.hbm, 206, rfl⟩
abbrev main_call4_v4 : Ref sig .tc := ⟨.hbm, 207, rfl⟩
abbrev main_call4_v5 : Ref sig .tc := ⟨.hbm, 208, rfl⟩
abbrev main_call4_v6 : Ref sig .tc := ⟨.hbm, 209, rfl⟩
abbrev main_call4_v7 : Ref sig .tc := ⟨.hbm, 210, rfl⟩
abbrev main_call4_v8 : Ref sig .tc := ⟨.hbm, 211, rfl⟩
abbrev main_call4_v9 : Ref sig .tc := ⟨.hbm, 212, rfl⟩
abbrev main_call4_v10 : Ref sig .tc := ⟨.hbm, 213, rfl⟩
abbrev main_call4_v11 : Ref sig .tc := ⟨.hbm, 214, rfl⟩
abbrev main_v147 : Ref sig .tc := ⟨.hbm, 215, rfl⟩
abbrev main_cst_37 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_cst_38 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_cst_39 : Ref sig .tc := ⟨.hbm, 226, rfl⟩
abbrev main_v156 : Ref sig .tc := ⟨.hbm, 227, rfl⟩
abbrev main_cst_40 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_cst_41 : Ref sig .tc := ⟨.hbm, 232, rfl⟩
abbrev main_v160 : Ref sig .tc := ⟨.hbm, 233, rfl⟩
abbrev main_v161 : Ref sig .tc := ⟨.hbm, 234, rfl⟩
abbrev main_cst_42 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_cst_43 : Ref sig .tc := ⟨.hbm, 243, rfl⟩
abbrev main_v169 : Ref sig .tc := ⟨.hbm, 244, rfl⟩
abbrev main_cst_44 : Ref sig .tc := ⟨.hbm, 245, rfl⟩
abbrev main_v170 : Ref sig .tc := ⟨.hbm, 246, rfl⟩
abbrev main_cst_45 : Ref sig .tc := ⟨.hbm, 247, rfl⟩
abbrev main_v171 : Ref sig .tc := ⟨.hbm, 248, rfl⟩
abbrev main_cst_46 : Ref sig .tc := ⟨.hbm, 249, rfl⟩
abbrev main_v172 : Ref sig .tc := ⟨.hbm, 250, rfl⟩
abbrev main_v173 : Ref sig .tc := ⟨.hbm, 251, rfl⟩

abbrev nD : Nat := 1
abbrev τ : Topo := Topo.v7x

variable {F : FTy → Type} [FloatOps F]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S_S8192 : S_.BroadcastsInDim S8192 (![] : Fin 0 → Fin S8192.rank)
  bcast_S131072_S131072x1_0 : S131072.BroadcastsInDim S131072x1 (![0] : Fin 1 → Fin S131072x1.rank)
  bcast_S131072x1_S131072x32_0_1 : S131072x1.BroadcastsInDim S131072x32 (![0, 1] : Fin 2 → Fin S131072x32.rank)
  bcast_S_S8192x32 : S_.BroadcastsInDim S8192x32 (![] : Fin 0 → Fin S8192x32.rank)
  bcast_S8192_S8192x1_0 : S8192.BroadcastsInDim S8192x1 (![0] : Fin 1 → Fin S8192x1.rank)
  bcast_S8192x1_S8192x32_0_1 : S8192x1.BroadcastsInDim S8192x32 (![0, 1] : Fin 2 → Fin S8192x32.rank)
  bcast_S131072x1_S131072x16_0_1 : S131072x1.BroadcastsInDim S131072x16 (![0, 1] : Fin 2 → Fin S131072x16.rank)
  bcast_S_S8192x16 : S_.BroadcastsInDim S8192x16 (![] : Fin 0 → Fin S8192x16.rank)
  bcast_S8192x1_S8192x16_0_1 : S8192x1.BroadcastsInDim S8192x16 (![0, 1] : Fin 2 → Fin S8192x16.rank)
  transposes_S8192x16_S16x8192_1_0 : S8192x16.Transposes [1, 0] S16x8192
  bcast_S_S8192x8192 : S_.BroadcastsInDim S8192x8192 (![] : Fin 0 → Fin S8192x8192.rank)
  reducesTo_S8192x8192_S_d0_1 : S8192x8192.ReducesTo [0, 1] S_
  h_S_ : 0 < S_.numel
  shapeCasts_S1_S_ : S1.ShapeCasts S_
  reducesTo_S8192x16_S8192_d1 : S8192x16.ReducesTo [1] S8192
  reducesTo_S8192_S_d0 : S8192.ReducesTo [0] S_
  dot_S8192x512_S512x32_S8192x32_1_0_0_1_n_n_wf : DotDims.WF S8192x512 S512x32 S8192x32 [1] [0] [0] [1] [] []
  scatter_S8192_S131072x1_S131072_n_0_0_1_wf : ScatterDims.WF S8192 S131072x1 S131072 [] [0] [0] 1
  gather_S8192_S131072x1_S131072_n_0_n_n_0_1_1_wf : GatherDims.WF S8192 S131072x1 S131072 [] [0] [] [0] [] 1 ![1]
  gather_S8192x32_S131072x1_S131072x32_1_0_n_n_0_1_132_wf : GatherDims.WF S8192x32 S131072x1 S131072x32 [1] [0] [] [0] [] 1 ![1, 32]
  scatter_S8192x32_S131072x1_S131072x32_1_0_0_1_wf : ScatterDims.WF S8192x32 S131072x1 S131072x32 [1] [0] [0] 1
  dot_S8192x32_S32x16_S8192x16_1_0_0_1_n_n_wf : DotDims.WF S8192x32 S32x16 S8192x16 [1] [0] [0] [1] [] []
  gather_S8192x16_S131072x1_S131072x16_1_0_n_n_0_1_116_wf : GatherDims.WF S8192x16 S131072x1 S131072x16 [1] [0] [] [0] [] 1 ![1, 16]
  scatter_S8192x16_S131072x1_S131072x16_1_0_0_1_wf : ScatterDims.WF S8192x16 S131072x1 S131072x16 [1] [0] [0] 1
  dot_S8192x16_S16x8192_S8192x8192_1_0_0_1_n_n_wf : DotDims.WF S8192x16 S16x8192 S8192x8192 [1] [0] [0] [1] [] []

variable [Facts₀]

def dot_S8192x512_S512x32_S8192x32_1_0_0_1_n_n : DotDims S8192x512 S512x32 S8192x32 where
  lhsContracting := [1]
  rhsContracting := [0]
  lhsNonContracting := [0]
  rhsNonContracting := [1]
  lhsBatch := []
  rhsBatch := []
  wf := dot_S8192x512_S512x32_S8192x32_1_0_0_1_n_n_wf
def scatter_S8192_S131072x1_S131072_n_0_0_1 : ScatterDims S8192 S131072x1 S131072 where
  updateWindowDims := []
  insertedWindowDims := [0]
  scatterDimsToOperandDims := [0]
  indexVectorDim := 1
  wf := scatter_S8192_S131072x1_S131072_n_0_0_1_wf
def gather_S8192_S131072x1_S131072_n_0_n_n_0_1_1 : GatherDims S8192 S131072x1 S131072 where
  offsetDims := []
  collapsedSliceDims := [0]
  operandBatchingDims := []
  startIndicesBatchingDims := []
  startIndexMap := [0]
  indexVectorDim := 1
  sliceSizes := ![1]
  wf := gather_S8192_S131072x1_S131072_n_0_n_n_0_1_1_wf
def gather_S8192x32_S131072x1_S131072x32_1_0_n_n_0_1_132 : GatherDims S8192x32 S131072x1 S131072x32 where
  offsetDims := [1]
  collapsedSliceDims := [0]
  operandBatchingDims := []
  startIndicesBatchingDims := []
  startIndexMap := [0]
  indexVectorDim := 1
  sliceSizes := ![1, 32]
  wf := gather_S8192x32_S131072x1_S131072x32_1_0_n_n_0_1_132_wf
def scatter_S8192x32_S131072x1_S131072x32_1_0_0_1 : ScatterDims S8192x32 S131072x1 S131072x32 where
  updateWindowDims := [1]
  insertedWindowDims := [0]
  scatterDimsToOperandDims := [0]
  indexVectorDim := 1
  wf := scatter_S8192x32_S131072x1_S131072x32_1_0_0_1_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def gather_S8192x16_S131072x1_S131072x16_1_0_n_n_0_1_116 : GatherDims S8192x16 S131072x1 S131072x16 where
  offsetDims := [1]
  collapsedSliceDims := [0]
  operandBatchingDims := []
  startIndicesBatchingDims := []
  startIndexMap := [0]
  indexVectorDim := 1
  sliceSizes := ![1, 16]
  wf := gather_S8192x16_S131072x1_S131072x16_1_0_n_n_0_1_116_wf
def scatter_S8192x16_S131072x1_S131072x16_1_0_0_1 : ScatterDims S8192x16 S131072x1 S131072x16 where
  updateWindowDims := [1]
  insertedWindowDims := [0]
  scatterDimsToOperandDims := [0]
  indexVectorDim := 1
  wf := scatter_S8192x16_S131072x1_S131072x16_1_0_0_1_wf
def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf

class Facts : Prop extends Facts₀ where

variable [Facts]
-- ==== Proof.K.Runs.lean ====
/-
  The kernel body run on whole staging buffers, in its two control cases.

  The body first tests whether the grid point is (0, 0); there it overwrites the output block (one row of 128 lanes)
  with zeros. Then, at every point, it loads a 1024-row block and a 512-row block of the embedding matrix and a
  1024 x 512 block of labels, computes one number from them (the block's loss total), and adds that number to every
  lane of the output block. So the cases are: A, the first point (the block is reset, then added to) and B, every
  later point (the block found there is added to). In each case the run returns the input buffers as they were and
  the output buffer with the body's stores written, last first.
-/
import proofs.«119214_j14955076125211_1_alg».proof.Proof.Gen.Kernel.Launch
import proofs.«119214_j14955076125211_1_alg».proof.Proof.Gen.Kernel.Skeleton
import proofs.«119214_j14955076125211_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch condition -/

/-- The body's test "both grid coordinates are zero", as the scalar chain computes it. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- Over the 8 x 16 grid, walked row by row, it holds at point 0 and nowhere else. -/
theorem isFirst_iff : ∀ t : Fin cfg0.N, isFirst (grid0.coords t) ↔ t.val = 0 :=
  (by decide +kernel : ∀ t : Fin grid0.N, isFirst (grid0.coords t) ↔ t.val = 0)

/-! ## The staging buffers the body is called with at a point -/

abbrev ms0 (t : Fin cfg0.N) : Memref sig .tc .vmem S1024x16 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x512 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)

/-- The output block's one staging buffer, through which its contents are stated. -/
abbrev VO : View sig .tc .vmem S1x128 .f32 := (Memref.whole cc0_stg3_0 : Memref sig .tc .vmem S1x128 .f32).view

/-! ## The two runs -/

set_option maxHeartbeats 2000000 in
/-- CASE A (the first point). The output buffer holds anything; the body resets it and adds the block's total. -/
noncomputable def runA (c : Dev nD) (i : grid0.Coords)
    (arg2 : Memref sig .tc .vmem S1024x16 .f32) (harg2 : arg2.IsWhole)
    (arg3 : Memref sig .tc .vmem S512x16 .f32) (harg3 : arg3.IsWhole)
    (arg4 : Memref sig .tc .vmem S1024x512 .i32) (harg4 : arg4.IsWhole)
    (arg5 : Memref sig .tc .vmem S1x128 .f32) (harg5 : arg5.IsWhole) (hc : isFirst i)
    (x0 : Vec F S1024x16 .f32) (x1 : Vec F S512x16 .f32) (x2 : Vec F S1024x512 .i32) :
    { L : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__bce_kernel i arg2 harg2 arg3 harg3 arg4 harg4 arg5 harg5) K } := by
  refine ⟨?_, fun E K => ?run⟩
  case run =>
    simp only [cc0__bce_kernel_eq_skeleton]; unfold cc0__bce_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 2000000 in
/-- CASE B (a later point). The output buffer holds the running contents xo; the body adds the block's total. -/
noncomputable def runB (c : Dev nD) (i : grid0.Coords)
    (arg2 : Memref sig .tc .vmem S1024x16 .f32) (harg2 : arg2.IsWhole)
    (arg3 : Memref sig .tc .vmem S512x16 .f32) (harg3 : arg3.IsWhole)
    (arg4 : Memref sig .tc .vmem S1024x512 .i32) (harg4 : arg4.IsWhole)
    (arg5 : Memref sig .tc .vmem S1x128 .f32) (harg5 : arg5.IsWhole) (hc : ¬isFirst i)
    (x0 : Vec F S1024x16 .f32) (x1 : Vec F S512x16 .f32) (x2 : Vec F S1024x512 .i32) (xo : Vec F S1x128 .f32) :
    { L : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__bce_kernel i arg2 harg2 arg3 harg3 arg4 harg4 arg5 harg5) K } := by
  refine ⟨?_, fun E K => ?run⟩
  case run =>
    simp only [cc0__bce_kernel_eq_skeleton]; unfold cc0__bce_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2
    obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Fr

end
-- ==== Proof.K.Body.lean ====
/-
  What the output block holds after each grid point, the pipeline's proof data, and the body's obligation.

  The grid's 128 points are walked in order. The output block (one row of 128 lanes) is resident: it is written back
  to its array after the last point only, so at every point but the first the body finds in it what it left at the
  point before. After point 0 it holds (zeros + total of block 0) in every lane; after point n+1 what it held after
  point n, plus the total of block n+1. The three inputs are only read: after the body each staging buffer still holds
  its block of the array.

  The embedding matrix is handed to the kernel twice (as the row operand and as the column operand of the product), so
  windows 0 and 1 stage blocks of ONE array: its buffer is dealt between them in halves (the left half share to window
  0, the right one to window 1).
-/
import proofs.«119214_j14955076125211_1_alg».proof.Proof.K.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- The host lines before the region, stretch by stretch. -/
abbrev linesBefore : List (List (HloOp τ sig (Elt F))) :=
  [hostOps0, hostOps0_1, hostOps0_2, hostOps0_3, hostOps0_4, hostOps0_5, hostOps0_6, hostOps0_7, hostOps0_8]

/-- Core c's buffers when the region is entered: the launch contents run through the lines before it. -/
abbrev V0 (c : Dev nD) : Valuation τ sig (Elt F) := StableHlo.after (List.flatten (linesBefore (F := F))) (fun b => m (c, b))
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What each case leaves in the output block -/

/-- Case A's stores (the reset, then the sum) each fill the block, so together they cover it. -/
theorem coverA (c : Dev nD) (i : grid0.Coords)
    (arg2 : Memref sig .tc .vmem S1024x16 .f32) (harg2 : arg2.IsWhole) (arg3 : Memref sig .tc .vmem S512x16 .f32) (harg3 : arg3.IsWhole)
    (arg4 : Memref sig .tc .vmem S1024x512 .i32) (harg4 : arg4.IsWhole) (arg5 : Memref sig .tc .vmem S1x128 .f32) (harg5 : arg5.IsWhole)
    (hc : isFirst i) (x0 : Vec F S1024x16 .f32) (x1 : Vec F S512x16 .f32) (x2 : Vec F S1024x512 .i32) (y : S1x128.Idx) :
    ∃ pc ∈ (runA c i arg2 harg2 arg3 harg3 arg4 harg4 arg5 harg5 hc x0 x1 x2).1, y ∈ pc.1.set :=
  View.cover_of_tiledL (runA c i arg2 harg2 arg3 harg3 arg4 harg4 arg5 harg5 hc x0 x1 x2).1 S1x128.size (by sl_kernel_rfl) y

/-- What case A leaves in the output block: its stores read back. -/
def outA (c : Dev nD) (i : grid0.Coords)
    (arg2 : Memref sig .tc .vmem S1024x16 .f32) (harg2 : arg2.IsWhole) (arg3 : Memref sig .tc .vmem S512x16 .f32) (harg3 : arg3.IsWhole)
    (arg4 : Memref sig .tc .vmem S1024x512 .i32) (harg4 : arg4.IsWhole) (arg5 : Memref sig .tc .vmem S1x128 .f32) (harg5 : arg5.IsWhole)
    (hc : isFirst i) (x0 : Vec F S1024x16 .f32) (x1 : Vec F S512x16 .f32) (x2 : Vec F S1024x512 .i32) : Vec F S1x128 .f32 :=
  VO.read (Elt F) (VO.writes (Elt F) VO.junk (runA c i arg2 harg2 arg3 harg3 arg4 harg4 arg5 harg5 hc x0 x1 x2).1)

/-- Case B's one store fills the block. -/
theorem coverB (c : Dev nD) (i : grid0.Coords)
    (arg2 : Memref sig .tc .vmem S1024x16 .f32) (harg2 : arg2.IsWhole) (arg3 : Memref sig .tc .vmem S512x16 .f32) (harg3 : arg3.IsWhole)
    (arg4 : Memref sig .tc .vmem S1024x512 .i32) (harg4 : arg4.IsWhole) (arg5 : Memref sig .tc .vmem S1x128 .f32) (harg5 : arg5.IsWhole)
    (hc : ¬isFirst i) (x0 : Vec F S1024x16 .f32) (x1 : Vec F S512x16 .f32) (x2 : Vec F S1024x512 .i32) (xo : Vec F S1x128 .f32) (y : S1x128.Idx) :
    ∃ pc ∈ (runB c i arg2 harg2 arg3 harg3 arg4 harg4 arg5 harg5 hc x0 x1 x2 xo).1, y ∈ pc.1.set :=
  View.cover_of_tiledL (runB c i arg2 harg2 arg3 harg3 arg4 harg4 arg5 harg5 hc x0 x1 x2 xo).1 S1x128.size (by sl_kernel_rfl) y

/-- What case B leaves in the output block. -/
def outB (c : Dev nD) (i : grid0.Coords)
    (arg2 : Memref sig .tc .vmem S1024x16 .f32) (harg2 : arg2.IsWhole) (arg3 : Memref sig .tc .vmem S512x16 .f32) (harg3 : arg3.IsWhole)
    (arg4 : Memref sig .tc .vmem S1024x512 .i32) (harg4 : arg4.IsWhole) (arg5 : Memref sig .tc .vmem S1x128 .f32) (harg5 : arg5.IsWhole)
    (hc : ¬isFirst i) (x0 : Vec F S1024x16 .f32) (x1 : Vec F S512x16 .f32) (x2 : Vec F S1024x512 .i32) (xo : Vec F S1x128 .f32) : Vec F S1x128 .f32 :=
  VO.read (Elt F) (VO.writes (Elt F) VO.junk (runB c i arg2 harg2 arg3 harg3 arg4 harg4 arg5 harg5 hc x0 x1 x2 xo).1)

/-! ## The running contents of the output block -/

/-- What the output block holds after the body at point n: case A at point 0; case B, over what point n - 1 left, later. -/
def accAt (c : Dev nD) : (n : ℕ) → n < cfg0.N → Vec F S1x128 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩)
      ((isFirst_iff ⟨0, hn⟩).mpr rfl) (iblk m c 0 ⟨0, hn⟩) (iblk m c 1 ⟨0, hn⟩) (iblk m c 2 ⟨0, hn⟩)
  | n + 1, hn => outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
      (fun h => Nat.succ_ne_zero n ((isFirst_iff ⟨n + 1, hn⟩).mp h)) (iblk m c 0 ⟨n + 1, hn⟩) (iblk m c 1 ⟨n + 1, hn⟩) (iblk m c 2 ⟨n + 1, hn⟩)
      (accAt c n (Nat.lt_of_succ_lt hn))

theorem accAt_first (c : Dev nD) (t : Fin cfg0.N) (h0 : t.val = 0) :
    accAt m c t.val t.isLt = outA c (grid0.coords t) (ms0 t) (hs0 t) (ms1 t) (hs1 t) (ms2 t) (hs2 t) (ms3 t) (hs3 t) ((isFirst_iff t).mpr h0)
      (iblk m c 0 t) (iblk m c 1 t) (iblk m c 2 t) := by
  obtain ⟨n, hn⟩ := t
  cases n with
  | zero => exact rfl
  | succ n => exact absurd h0 (Nat.succ_ne_zero n)

theorem accAt_later (c : Dev nD) (t : Fin cfg0.N) (h0 : t.val ≠ 0) :
    accAt m c t.val t.isLt = outB c (grid0.coords t) (ms0 t) (hs0 t) (ms1 t) (hs1 t) (ms2 t) (hs2 t) (ms3 t) (hs3 t) (fun h => h0 ((isFirst_iff t).mp h))
      (iblk m c 0 t) (iblk m c 1 t) (iblk m c 2 t) (accAt m c (t.val - 1) (Nat.lt_of_le_of_lt (Nat.sub_le _ _) t.isLt)) := by
  obtain ⟨n, hn⟩ := t
  cases n with
  | zero => exact absurd rfl h0
  | succ n => exact rfl

/-! ## The proof data -/

/-- The pipeline's proof data on core c: the arrays as the region finds them; after the body each input buffer at its
    block, the output buffer at the running contents; the invariant the core's scoped rest; nothing owed; the shared
    array's buffer in halves between windows 0 and 1. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAt m c t.val t.isLt
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = accAt m c t.val t.isLt := by dsimp only [dats]

/-- Each input's current staging buffer holds its block at every point, fetched there or not (unfetched, the block
    index has not moved since the point that fetched it). -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)

/-- At a later point the output's staging buffer holds what the body left at the point before: it is written back
    after the last point only. -/
theorem before3_later (c : Dev nD) (t : Fin cfg0.N) (h0 : t.val ≠ 0) (d) :
    (dats m 0 c).before 3 t d = accAt m c (t.val - 1) (Nat.lt_of_le_of_lt (Nat.sub_le _ _) t.isLt) := by
  have hN : t.val < 128 := lt_of_lt_of_eq t.isLt (show cfg0.N = 128 from N_0)
  rw [Dat.before_out_kept _ 3 rfl t h0 (Bool.eq_false_iff.mpr fun h => by have := (flush0_3 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the inputs' buffers hold their blocks; the point is the first or a later one; in the second
    case the output's buffer holds what the point before left; so the case's run applies. The invariant passes through
    unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  by_cases h0 : t.val = 0
  · rw [accAt_first m c t h0]
    unfold outA
    iintro ⟨HΦ, Ho, ⟨%d0, H0⟩, ⟨%d1, H1⟩, ⟨%d2, H2⟩, ⟨%d3, H3⟩⟩
    iapply ((runA c (grid0.coords t) (ms0 t) (hs0 t) (ms1 t) (hs1 t) (ms2 t) (hs2 t) (ms3 t) (hs3 t) ((isFirst_iff t).mpr h0)
      (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c (grid0.coords t) (ms0 t) (hs0 t) (ms1 t) (hs1 t) (ms2 t) (hs2 t) (ms3 t) (hs3 t) ((isFirst_iff t).mpr h0)
      (iblk m c 0 t) (iblk m c 1 t) (iblk m c 2 t))
  · rw [accAt_later m c t h0]
    simp only [before3_later m c t h0]
    unfold outB
    iintro ⟨HΦ, Ho, ⟨%d0, H0⟩, ⟨%d1, H1⟩, ⟨%d2, H2⟩, ⟨%d3, H3⟩⟩
    iapply ((runB c (grid0.coords t) (ms0 t) (hs0 t) (ms1 t) (hs1 t) (ms2 t) (hs2 t) (ms3 t) (hs3 t) (fun h => h0 ((isFirst_iff t).mp h))
      (iblk m c 0 t) (iblk m c 1 t) (iblk m c 2 t) (accAt m c (t.val - 1) (Nat.lt_of_le_of_lt (Nat.sub_le _ _) t.isLt))).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverB c (grid0.coords t) (ms0 t) (hs0 t) (ms1 t) (hs1 t) (ms2 t) (hs2 t) (ms3 t) (hs3 t) (fun h => h0 ((isFirst_iff t).mp h))
      (iblk m c 0 t) (iblk m c 1 t) (iblk m c 2 t) (accAt m c (t.val - 1) (Nat.lt_of_le_of_lt (Nat.sub_le _ _) t.isLt)))

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.LibSharedTail.lean ====
/-
  A frame run for a one-region pipeline program whose INPUT windows may stage blocks of ONE array and whose @main GOES ON
  after the region with straight lines of host operations.

  The launch for windows that share arrays asks, in place of the arrays' distinctness, for an entailment from the distinct
  buffers behind the arrays (each whole at the full share) to the proof data's arrays at the shares the data name. When
  host lines follow the region they run from the region's exit, and they need the buffers they touch whole at the full
  share. This file states that run once:

  * the lines run within a set S of device buffers of the certificate's choosing (every buffer a line touches is in S);
  * at the exit the proof data's arrays (at their final contents) and the buffers that bypassed the region make the
    buffers of S at some contents Wx and a remainder R the lines never see (an input array held in halves stays in R);
  * after the lines, S at the lines' composed result of Wx and the remainder make the arrays at their final contents
    again and the bypassing buffers at contents V';
  * the conclusion is the library's frame post read at V': every window's array at what the proof data compute after
    the last write-back, every bypassing buffer at V'.

  Nothing here mentions a particular kernel.
-/
import Idealize.ShloMosaic.Lib.Pipeline.FrameSuffix

noncomputable section

namespace Cert.Lib.SharedTail

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "𝔻" => Pipeline.defs (fun q => Cfg.toPCfg (Val := Val) (cfgs q)) defs₀
local notation "𝕍" => Variants.lift 𝒱₀

/-- The host lines after the region, run from the region's exit: the arrays at their final contents and the bypassing
    buffers make the set the lines run within and a remainder (hexit); the lines run within the set; what they leave
    and the remainder make the arrays and the bypassing buffers at the contents V' (hback). -/
theorem tail_lines (c : Dev nD)
    (V V' : (b : Ref sig .tc) → Buf Val ((c.tc : Thread nD τ).loc b))
    (opss : List (List (HloOp τ sig Val)))
    (S : Finset (DevRef τ sig))
    (hsub : ∀ ops ∈ opss, ∀ op ∈ ops, op.bufs ⊆ S) (hfresh : ∀ ops ∈ opss, ∀ op ∈ ops, op.fresh = ∅)
    (Wx : Valuation τ sig Val) (R : sProp 𝕄)
    (hexit : iprop((dats p c).arrays ((dats p c).arrAt · (cfgs p).N) ∗ unscopedRest (cfgs p).spec c V)
      ⊢ iprop((StableHlo.held (c.tc : Thread nD τ) S Wx : sProp 𝕄) ∗ R))
    (hback : iprop((StableHlo.held (c.tc : Thread nD τ) S (StableHlo.after opss.flatten Wx) : sProp 𝕄) ∗ R)
      ⊢ iprop((dats p c).arrays ((dats p c).arrAt · (cfgs p).N) ∗ unscopedRest (cfgs p).spec c V'))
    (Q' : PUnit → sProp 𝕄) :
    iprop((iprop((dats p c).arrays ((dats p c).arrAt · (cfgs p).N) ∗ unscopedRest (cfgs p).spec c V') -∗ Q' ⟨⟩)
        ∗ boundary (c.tc : Thread nD τ) ∗ (dats p c).arrays ((dats p c).arrAt · (cfgs p).N) ∗ unscopedRest (cfgs p).spec c V)
      ⊢ wp frame (wpE 𝔻 𝕍 (c.tc : Thread nD τ) none) Set.univ (chain (opss.map StableHlo.seq)) Q' := by
  have e : iprop((iprop((dats p c).arrays ((dats p c).arrAt · (cfgs p).N) ∗ unscopedRest (cfgs p).spec c V') -∗ Q' ⟨⟩)
        ∗ boundary (c.tc : Thread nD τ) ∗ (dats p c).arrays ((dats p c).arrAt · (cfgs p).N) ∗ unscopedRest (cfgs p).spec c V)
      ⊢ iprop((iprop((dats p c).arrays ((dats p c).arrAt · (cfgs p).N) ∗ unscopedRest (cfgs p).spec c V') -∗ Q' ⟨⟩)
        ∗ (boundary (c.tc : Thread nD τ) ∗ (StableHlo.held (c.tc : Thread nD τ) S Wx : sProp 𝕄)) ∗ R) := by
    iintro ⟨Hk, Hb, HAZ⟩
    ihave HX := hexit $$ HAZ
    icases HX with ⟨HS, HR⟩
    isplitl [Hk]; · iexact Hk
    isplitr [HR]
    · isplitl [Hb]; · iexact Hb
      iexact HS
    · iexact HR
  refine e.trans ?_
  rw [← List.append_nil (opss.map StableHlo.seq)]
  iintro ⟨Hk, Hb, HR⟩
  iapply (wp_seqs_then (fun q => Cfg.toPCfg (Val := Val) (cfgs q)) defs₀ 𝒱₀ c S [] opss hsub hfresh Wx) $$ Hb
  iintro Hb
  rw [chain_nil, wp_pure]
  imodintro
  iapply Hk
  icases Hb with ⟨-, HS⟩
  iapply hback
  isplitl [HS]; · iexact HS
  iexact HR

/-- THE FRAME RUN when input windows share arrays and host lines follow the region. The layout is given by its fields
    (as for the run without lines after the region); hsplit says how the distinct buffers behind the arrays make the
    proof data's arrays at entry; the invariant is entered from the scoped rest and returned to it (hin, hout); hmain
    reduces @main to the region continued by the lines opss; hexit / hback are the two regroupings around the lines.
    Concludes the library's frame post at V'. -/
theorem θ_run_frame_shared_tail
    (hcell : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V V' : (c : Dev nD) → (b : Ref sig .tc) → Buf Val ((c.tc : Thread nD τ).loc b))
    (opss : List (List (HloOp τ sig Val)))
    (hmain : HMainK (Ix := Unit) (Name := ℕ) (U := UR sig nD τ) (Lvl := ℕ) cfgs p defs₀ 𝒱₀ m main V (fun _ => chain (opss.map StableHlo.seq)))
    (hsplit : ∀ c, (arrBufs (cfgs p).spec c (V c) : sProp 𝕄) ⊢ (dats p c).arrays ((dats p c).arrAt · 0))
    (hin : ∀ c, (scopedRest (Ix := Unit) (Name := ℕ) (U := UR sig nD τ) (Lvl := ℕ) (Val := Val) (cfgs p).spec c : sProp 𝕄) ⊢ (dats p c).Φ 0)
    (hout : ∀ c, (dats p c).Φ (Fin.last (cfgs p).N) ⊢ (scopedRest (Ix := Unit) (Name := ℕ) (U := UR sig nD τ) (Lvl := ℕ) (Val := Val) (cfgs p).spec c : sProp 𝕄))
    (S : Finset (DevRef τ sig))
    (hsub : ∀ ops ∈ opss, ∀ op ∈ ops, op.bufs ⊆ S) (hfresh : ∀ ops ∈ opss, ∀ op ∈ ops, op.fresh = ∅)
    (Wx : Dev nD → Valuation τ sig Val) (R : Dev nD → sProp 𝕄)
    (hexit : ∀ c, iprop((dats p c).arrays ((dats p c).arrAt · (cfgs p).N) ∗ unscopedRest (cfgs p).spec c (V c))
      ⊢ iprop((StableHlo.held (c.tc : Thread nD τ) S (Wx c) : sProp 𝕄) ∗ R c))
    (hback : ∀ c, iprop((StableHlo.held (c.tc : Thread nD τ) S (StableHlo.after opss.flatten (Wx c)) : sProp 𝕄) ∗ R c)
      ⊢ iprop((dats p c).arrays ((dats p c).arrAt · (cfgs p).N) ∗ unscopedRest (cfgs p).spec c (V' c))) :
    θ_run 𝔻 (onTc main) (s₀ m g) (FramePost cfgs dats p V') :=
  θ_run_region_noSem_pf_tail (fun p => (cfgs p).toPCfg) (fun p => (cfgs p).toPCfg_adm) dats () hcell p hw (PreFacts.none _) emb₁ defs₀ 𝒱₀
    m g main (fun _ => chain (opss.map StableHlo.seq)) hbody hne harr hstage howed
    (initOf (cells cfgs hcell) (launchToks cfgs hcell)) (BI.Entails.refl _) V hmain hsplit (fun _ k => k.elim0)
    (fun _ => iprop(emp)) (fun _ => iprop(emp))
    (fun c => unscopedRest (Ix := Unit) (Name := ℕ) (U := UR sig nD τ) (Lvl := ℕ) (cfgs p).spec c (V c))
    (fun c => unscopedRest (Ix := Unit) (Name := ℕ) (U := UR sig nD τ) (Lvl := ℕ) (cfgs p).spec c (V' c))
    (fun c => by rw [unscopedRestP_none]; iintro H; isplitr; · iempintro
                 iexact H)
    (fun c => (show _ ⊢ (scopedRest (cfgs p).spec c : sProp 𝕄) from by iintro ⟨-, -, HR⟩; iexact HR).trans (hin c))
    (fun c => (hout c).trans (by iintro H; isplitr; · iempintro
                                 iexact H))
    (fun c Q' => tail_lines cfgs dats p defs₀ 𝒱₀ c (V c) (V' c) opss S hsub hfresh (Wx c) (R c) (hexit c) (hback c) Q')
    (fun c s => ∀ b ∈ restRefs sig (cfgs p).spec, s.mem ((c.tc : Thread nD τ).loc b) = V' c b)
    (fun c s' => by
      iintro ⟨-, HU, HSI⟩
      unfold unscopedRest
      imodintro
      iapply (pointsTo_read_all (restRefs sig (cfgs p).spec) (fun b => (c.tc : Thread nD τ).loc b) (V' c) s')
      isplitl [HU] <;> iassumption)
    (fun s h c => ⟨(h c).1, (h c).2.2⟩)

end Cert.Lib.SharedTail

end
-- ==== Proof.LibSharedFrame.lean ====
/-
  A frame run for a one-region pipeline program whose INPUT windows may stage blocks of ONE array.

  The library's frame run (Lib/Pipeline/Frame.lean) asks that the windows' arrays be pairwise distinct buffers, each
  held at the full share. When a kernel is handed one array through several input windows — two column halves of a
  matrix, say — that fails: the buffer behind the shared array is one, and its full share has to be dealt among the
  windows on it. The launch itself copes (Lib/Pipeline/Launch.lean, the launch for windows that share arrays, which asks
  only for the layout facts but the arrays' distinctness, and for an entailment from the distinct buffers behind the
  arrays, each whole at the full share, to the proof data's arrays at the shares the data name); this file restates
  that launch in the frame run's form:

  * the region invariant is the certificate's, entered from the core's scoped rest (the kernel's scratch, at any
    contents) and returned to it — a body that only loads and stores its staging buffers needs nothing else;
  * every unscoped buffer that is no window's array bypasses the region and is read back at the end;
  * the conclusion is the library's frame post: every window's array at what the proof data compute after the last
    write-back, every bypassing buffer as the region found it.

  Nothing here mentions a particular kernel.
-/
import Idealize.ShloMosaic.Lib.Pipeline.Frame

noncomputable section

namespace Cert.Lib.SharedFrame

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- One buffer's full share is its two halves, each at the same contents: how an array read through two input
    windows is dealt between them. -/
theorem pointsTo_halves (ℓ : Loc nD τ sig) (f : Buf Val ℓ) :
    (ℓ ↦{fullShare} f : sProp 𝕄) ⊢ iprop((ℓ ↦{fullShare.left} f) ∗ ℓ ↦{fullShare.right} f) :=
  (pointsTo_share (PosShare.mem_left_op_right fullShare)).1

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "𝔻" => Pipeline.defs (fun q => Cfg.toPCfg (Val := Val) (cfgs q)) defs₀

/-- THE FRAME RUN when input windows share arrays. The layout is given by its fields (`hcell`: the program's staging
    cells pairwise distinct; `hw`: the windows' arrays unscoped, the staging buffers scoped and distinct, the staging
    semaphores scoped; no block empty; arrays and staging memrefs whole buffers). `hsplit` says how the distinct
    buffers behind the arrays, each whole at the full share at the region-entry contents `V`, make the proof data's
    arrays at the shares the data name. The invariant is entered from the scoped rest and returned to it (`hin`,
    `hout`). Concludes the library's frame post. -/
theorem θ_run_frame_shared
    (hcell : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (Ix := Unit) (Name := ℕ) (U := UR sig nD τ) (Lvl := ℕ) (Val := Val) (cfgs p).spec c : sProp 𝕄) ⊢ (dats p c).Φ 0)
    (hout : ∀ c, (dats p c).Φ (Fin.last (cfgs p).N) ⊢ (scopedRest (Ix := Unit) (Name := ℕ) (U := UR sig nD τ) (Lvl := ℕ) (Val := Val) (cfgs p).spec c : sProp 𝕄)) :
    θ_run 𝔻 (onTc main) (s₀ m g) (FramePost cfgs dats p V) :=
  θ_run_region_noSem_shared cfgs dats () hcell p hw emb₁ defs₀ 𝒱₀ m g main hbody hne harr hstage howed
    (initOf (cells cfgs hcell) (launchToks cfgs hcell)) (BI.Entails.refl _) V hmain hsplit
    (fun _ => iprop(emp)) (fun _ => iprop(emp))
    (fun c => unscopedRest (Ix := Unit) (Name := ℕ) (U := UR sig nD τ) (Lvl := ℕ) (cfgs p).spec c (V c))
    (fun c => by iintro H; isplitr; · iempintro
                 iexact H)
    (fun c => (show iprop(emp ∗ scopedRest (cfgs p).spec c) ⊢ (scopedRest (cfgs p).spec c : sProp 𝕄) from by
        iintro ⟨-, H⟩; iexact H).trans (hin c))
    (fun c => (hout c).trans (by iintro H; isplitr; · iempintro
                                 iexact H))
    (fun c s => ∀ b ∈ restRefs sig (cfgs p).spec, s.mem ((c.tc : Thread nD τ).loc b) = V c b)
    (fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (fun s h => h)

end Cert.Lib.SharedFrame

end
-- ==== Proof.K.Run.lean ====
/-
  The run of @main: the host lines before the region, the region, the host lines after it.

  At the region's entry the buffer of the embedding matrix is dealt in halves to the two windows that stage its blocks;
  the label matrix and the output row are held whole. The lines after the region read the output row (they slice its
  first lane) and buffers that bypassed the region, and write fresh buffers only; so they run within the output row's
  buffer and the bypassing buffers, the three input windows' holdings set aside and handed back untouched.
  No host line writes an argument array, and the kernel writes only its output row: every argument ends as launched.
-/
import proofs.«119214_j14955076125211_1_alg».proof.Proof.K.Body
import proofs.«119214_j14955076125211_1_alg».proof.Proof.LibSharedTail
import proofs.«119214_j14955076125211_1_alg».proof.Proof.LibSharedFrame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the later lines, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (([hostOps1] : List (List (HloOp τ sig (Elt F)))).map StableHlo.seq)) :=
  Pipeline.hmain_around cfgs 0 defs₀ 𝒱₀ m main linesBefore [hostOps1]
    ⟨hostOps0_sub, hostOps0_1_sub, hostOps0_2_sub, hostOps0_3_sub, hostOps0_4_sub, hostOps0_5_sub, hostOps0_6_sub, hostOps0_7_sub, hostOps0_8_sub⟩
    ⟨hostOps0_fresh, hostOps0_1_fresh, hostOps0_2_fresh, hostOps0_3_fresh, hostOps0_4_fresh, hostOps0_5_fresh, hostOps0_6_fresh, hostOps0_7_fresh, hostOps0_8_fresh⟩ main_chain

/-! ## The arrays at the region's entry -/

/-- The proof data's arrays, each at its reference and share. -/
theorem arrays_at (c : Dev nD) (Fv : (w : Fin cfg0.W) → Buf (Elt F) ((cfg0.win w).arr.view.loc (c.tc : Thread nD τ))) :
    (dats m 0 c).arrays Fv = bigSep Finset.univ fun w => (((c.tc : Thread nD τ).loc (Pipeline.arrRef spec0 w)) ↦{(dats m 0 c).share w} Fv w : sProp 𝕄) := by
  unfold Dat.arrays
  exact bigSep_congr fun w _ => by rw [(arr_whole0 w).set_eq_univ]

/-- The three distinct buffers behind the four windows' arrays, whole, make the proof data's arrays: the shared one
    is split in its two halves. -/
theorem hsplit (c : Dev nD) : (Pipeline.arrBufs spec0 c (V m c) : sProp 𝕄) ⊢ (dats m 0 c).arrays ((dats m 0 c).arrAt · 0) := by
  have himg : Finset.univ.image (Pipeline.arrRef spec0) = {main_v142, main_arg2, main_v143} := by decide
  have hB : (Pipeline.arrBufs spec0 c (V m c) : sProp 𝕄)
      = iprop((((c.tc : Thread nD τ).loc main_v142) ↦{fullShare} V m c main_v142)
          ∗ (((c.tc : Thread nD τ).loc main_arg2) ↦{fullShare} V m c main_arg2)
          ∗ (((c.tc : Thread nD τ).loc main_v143) ↦{fullShare} V m c main_v143)) := by
    unfold Pipeline.arrBufs
    rw [himg, bigSep_insert (by decide), bigSep_insert (by decide), bigSep_singleton]
    rfl
  rw [arrays_at, bigSep_W0, hB]
  iintro ⟨Hz, Hy, Ho⟩
  ihave Hzz := (Cert.Lib.SharedFrame.pointsTo_halves _ _) $$ Hz
  icases Hzz with ⟨Hl, Hr⟩
  isplitl [Hl]; · iexact Hl
  isplitl [Hr]; · iexact Hr
  isplitl [Hy]; · iexact Hy
  iexact Ho

/-! ## The lines after the region -/

/-- The buffers the later lines run within: the output row's and every buffer that bypassed the region. -/
abbrev tailSet : Finset (DevRef τ sig) :=
  (insert main_v143 (Pipeline.restRefs sig spec0)).map ⟨Proc.devRef (sig := sig) .tc, Proc.devRef_injective _⟩

theorem out_not_rest : main_v143 ∉ Pipeline.restRefs sig spec0 :=
  fun h => (Finset.mem_sdiff.mp h).2 (Finset.mem_image.mpr ⟨3, Finset.mem_univ _, rfl⟩)

/-- No later line touches the embedding matrix or the label matrix. -/
theorem tail_avoid : (hostOps1 : List (HloOp τ sig (Elt F))).Forall fun op =>
    Proc.devRef .tc main_v142 ∉ op.bufs ∧ Proc.devRef .tc main_arg2 ∉ op.bufs := by
  simp only [List.Forall, StableHlo.unary_bufs, StableHlo.binary_bufs, StableHlo.nullary_bufs, StableHlo.reshape_bufs, StableHlo.ternary_bufs,
    Finset.mem_insert, Finset.mem_singleton, not_or]
  repeat' apply And.intro
  all_goals exact StableHlo.devRef_ne_of_ne (by decide)

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  intro b hb
  have hu : b ∈ Pipeline.ucRefs τ sig := Pipeline.sub_ucRefs op ((List.forall_iff_forall_mem.mp hostOps1_sub) op hop) hb
  obtain ⟨h1, h2⟩ := (List.forall_iff_forall_mem.mp tail_avoid) op hop
  simp only [Pipeline.ucRefs, StableHlo.tcRefs, Finset.mem_map, Finset.mem_filter, Finset.mem_univ, true_and, Function.Embedding.coeFn_mk] at hu
  obtain ⟨⟨r, rfl⟩, hr⟩ := hu
  refine Finset.mem_map.mpr ⟨r, ?_, rfl⟩
  by_cases h3 : r = main_v143
  · exact h3 ▸ Finset.mem_insert_self _ _
  · refine Finset.mem_insert_of_mem (Finset.mem_sdiff.mpr ⟨Finset.mem_filter.mpr ⟨Finset.mem_univ _, hr⟩, fun hi => ?_⟩)
    obtain ⟨w, -, e⟩ := Finset.mem_image.mp hi
    fin_cases w
    · subst e; exact h1 hb
    · subst e; exact h1 hb
    · subst e; exact h2 hb
    · exact h3 e.symm

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- No later line writes the output row. -/
theorem tail_keeps_out : ∀ op ∈ List.flatten ([hostOps1] : List (List (HloOp τ sig (Elt F)))), Proc.devRef .tc main_v143 ∉ op.writes :=
  List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- The buffers at the region's exit: as at its entry, the output row at what the last write-back left. -/
def Wx (c : Dev nD) : Valuation τ sig (Elt F) :=
  Function.update (V0 m c) (Proc.devRef .tc main_v143) ((dats m 0 c).arrAt 3 cfg0.N)

/-- The buffers after the later lines. -/
def Wend (c : Dev nD) : Valuation τ sig (Elt F) := StableHlo.after (List.flatten [hostOps1]) (Wx m c)
abbrev V' (c : Dev nD) (b : Ref sig .tc) : Buf (Elt F) ((c : Thread nD τ).loc b) := Wend m c (Proc.devRef .tc b)

theorem Wx_out (c : Dev nD) : Wx m c (Proc.devRef .tc main_v143) = (dats m 0 c).arrAt 3 cfg0.N := by
  unfold Wx; exact Function.update_self ..

theorem Wx_of_ne (c : Dev nD) (r : Ref sig .tc) (h : r ≠ main_v143) : Wx m c (Proc.devRef .tc r) = V0 m c (Proc.devRef .tc r) := by
  unfold Wx; exact Function.update_of_ne (StableHlo.devRef_ne_of_ne h) ..

theorem Wend_out (c : Dev nD) : Wend m c (Proc.devRef .tc main_v143) = (dats m 0 c).arrAt 3 cfg0.N := by
  unfold Wend
  rw [StableHlo.after_of_forall_not_mem _ _ tail_keeps_out, Wx_out]

/-- The set the later lines run within, held at W: the output row and the bypassing buffers. -/
theorem held_tail (c : Dev nD) (W : Valuation τ sig (Elt F)) :
    (StableHlo.held (c.tc : Thread nD τ) tailSet W : sProp 𝕄)
      = iprop((((c.tc : Thread nD τ).loc main_v143) ↦{fullShare} W (Proc.devRef .tc main_v143))
          ∗ Pipeline.unscopedRest spec0 c (fun b => W (Proc.devRef .tc b))) := by
  unfold StableHlo.held tailSet Pipeline.unscopedRest
  rw [bigSep_map, bigSep_insert out_not_rest]
  rfl

/-- What the later lines never see: the three input windows' holdings. -/
def inputsHeld (c : Dev nD) : sProp 𝕄 :=
  iprop((((c.tc : Thread nD τ).loc (Pipeline.arrRef spec0 0)) ↦{(dats m 0 c).share 0} (dats m 0 c).arrAt 0 cfg0.N)
    ∗ (((c.tc : Thread nD τ).loc (Pipeline.arrRef spec0 1)) ↦{(dats m 0 c).share 1} (dats m 0 c).arrAt 1 cfg0.N)
    ∗ (((c.tc : Thread nD τ).loc (Pipeline.arrRef spec0 2)) ↦{(dats m 0 c).share 2} (dats m 0 c).arrAt 2 cfg0.N))

theorem rest_Wx (c : Dev nD) :
    (Pipeline.unscopedRest spec0 c (fun b => Wx m c (Proc.devRef .tc b)) : sProp 𝕄) = Pipeline.unscopedRest spec0 c (V m c) := by
  unfold Pipeline.unscopedRest
  exact bigSep_congr fun b hb => by
    beta_reduce
    rw [Wx_of_ne m c b fun e => out_not_rest (e ▸ hb)]

theorem hexit (c : Dev nD) :
    iprop((dats m 0 c).arrays ((dats m 0 c).arrAt · cfg0.N) ∗ Pipeline.unscopedRest spec0 c (V m c))
      ⊢ iprop((StableHlo.held (c.tc : Thread nD τ) tailSet (Wx m c) : sProp 𝕄) ∗ inputsHeld m c) := by
  rw [arrays_at, bigSep_W0, held_tail, rest_Wx, Wx_out]
  unfold inputsHeld
  iintro ⟨⟨H0, H1, H2, H3⟩, HR⟩
  isplitl [H3 HR]
  · isplitl [H3]; · iexact H3
    iexact HR
  · isplitl [H0]; · iexact H0
    isplitl [H1]; · iexact H1
    iexact H2

theorem hback (c : Dev nD) :
    iprop((StableHlo.held (c.tc : Thread nD τ) tailSet (StableHlo.after (List.flatten [hostOps1]) (Wx m c)) : sProp 𝕄) ∗ inputsHeld m c)
      ⊢ iprop((dats m 0 c).arrays ((dats m 0 c).arrAt · cfg0.N) ∗ Pipeline.unscopedRest spec0 c (V' m c)) := by
  rw [arrays_at, bigSep_W0, held_tail, show StableHlo.after (List.flatten [hostOps1]) (Wx m c) = Wend m c from rfl, Wend_out]
  unfold inputsHeld
  iintro ⟨⟨H3, HR⟩, H0, H1, H2⟩
  isplitr [HR]
  · isplitl [H0]; · iexact H0
    isplitl [H1]; · iexact H1
    isplitl [H2]; · iexact H2
    iexact H3
  · iexact HR

/-! ## The run -/

set_option backward.isDefEq.respectTransparency.types false in
/-- Every weakly fair execution of @main terminates, with every array of the pipeline at what the proof data compute
    and every other unscoped buffer as the later lines leave it. -/
theorem run_main : θ_run defs (onTc (τ := τ) (main (F := F))) (s₀ m ρ) (Pipeline.FramePost cfgs (dats m) 0 (V' m)) :=
  Cert.Lib.SharedTail.θ_run_frame_shared_tail cfgs (dats m) (0 : Fin 1) defs₀ Variants.none cellOf_inj winFacts₀0 block_pos0 arr_whole0 stage_whole0
    m ρ main (fun c => (body_obligation m c).loose) (fun _ _ => rfl) (V m) (V' m) [hostOps1] (hmain m Variants.none)
    (hsplit m) (fun c => .rfl) (fun c => .rfl) tailSet tail_sub tail_fresh (Wx m) (inputsHeld m) (hexit m) (hback m)

end Cert.Kernel.Fr

end
-- ==== Proof.K.Frame.lean ====
/-
  The frame: every argument array ends as launched.

  Each host line writes one fresh buffer of its own, never an argument; the kernel's region writes back only its output
  row. So the label matrix (the one argument the kernel stages) ends at its entry contents, which are the launch
  contents; every other argument bypasses the region and the lines after it leave it alone.
-/
import proofs.«119214_j14955076125211_1_alg».proof.Proof.K.Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## No host line writes an argument -/

theorem pre_keeps_arg0 : ∀ op ∈ List.flatten (linesBefore (F := F)), Proc.devRef .tc main_arg0 ∉ op.writes :=
  List.forall_iff_forall_mem.mp (by
    simp only [linesBefore, hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_arg0 : ∀ op ∈ List.flatten ([hostOps1] : List (List (HloOp τ sig (Elt F)))), Proc.devRef .tc main_arg0 ∉ op.writes :=
  List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem pre_keeps_arg1 : ∀ op ∈ List.flatten (linesBefore (F := F)), Proc.devRef .tc main_arg1 ∉ op.writes :=
  List.forall_iff_forall_mem.mp (by
    simp only [linesBefore, hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_arg1 : ∀ op ∈ List.flatten ([hostOps1] : List (List (HloOp τ sig (Elt F)))), Proc.devRef .tc main_arg1 ∉ op.writes :=
  List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem pre_keeps_arg2 : ∀ op ∈ List.flatten (linesBefore (F := F)), Proc.devRef .tc main_arg2 ∉ op.writes :=
  List.forall_iff_forall_mem.mp (by
    simp only [linesBefore, hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_arg2 : ∀ op ∈ List.flatten ([hostOps1] : List (List (HloOp τ sig (Elt F)))), Proc.devRef .tc main_arg2 ∉ op.writes :=
  List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem pre_keeps_arg3 : ∀ op ∈ List.flatten (linesBefore (F := F)), Proc.devRef .tc main_arg3 ∉ op.writes :=
  List.forall_iff_forall_mem.mp (by
    simp only [linesBefore, hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_arg3 : ∀ op ∈ List.flatten ([hostOps1] : List (List (HloOp τ sig (Elt F)))), Proc.devRef .tc main_arg3 ∉ op.writes :=
  List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem pre_keeps_arg4 : ∀ op ∈ List.flatten (linesBefore (F := F)), Proc.devRef .tc main_arg4 ∉ op.writes :=
  List.forall_iff_forall_mem.mp (by
    simp only [linesBefore, hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_arg4 : ∀ op ∈ List.flatten ([hostOps1] : List (List (HloOp τ sig (Elt F)))), Proc.devRef .tc main_arg4 ∉ op.writes :=
  List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem pre_keeps_arg5 : ∀ op ∈ List.flatten (linesBefore (F := F)), Proc.devRef .tc main_arg5 ∉ op.writes :=
  List.forall_iff_forall_mem.mp (by
    simp only [linesBefore, hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_arg5 : ∀ op ∈ List.flatten ([hostOps1] : List (List (HloOp τ sig (Elt F)))), Proc.devRef .tc main_arg5 ∉ op.writes :=
  List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem pre_keeps_arg6 : ∀ op ∈ List.flatten (linesBefore (F := F)), Proc.devRef .tc main_arg6 ∉ op.writes :=
  List.forall_iff_forall_mem.mp (by
    simp only [linesBefore, hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_arg6 : ∀ op ∈ List.flatten ([hostOps1] : List (List (HloOp τ sig (Elt F)))), Proc.devRef .tc main_arg6 ∉ op.writes :=
  List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem pre_keeps_arg7 : ∀ op ∈ List.flatten (linesBefore (F := F)), Proc.devRef .tc main_arg7 ∉ op.writes :=
  List.forall_iff_forall_mem.mp (by
    simp only [linesBefore, hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_arg7 : ∀ op ∈ List.flatten ([hostOps1] : List (List (HloOp τ sig (Elt F)))), Proc.devRef .tc main_arg7 ∉ op.writes :=
  List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- A buffer no earlier line writes is found by the region as launched. -/
theorem V_kept (c : Dev nD) (r : Ref sig .tc)
    (hpre : ∀ op ∈ List.flatten (linesBefore (F := F)), Proc.devRef .tc r ∉ op.writes) :
    V m c r = m ((c : Thread nD τ).loc r) :=
  StableHlo.after_of_forall_not_mem _ _ hpre

/-- A buffer no line writes, other than the output row, ends as launched. -/
theorem V'_kept (c : Dev nD) (r : Ref sig .tc) (hne : r ≠ main_v143)
    (hpre : ∀ op ∈ List.flatten (linesBefore (F := F)), Proc.devRef .tc r ∉ op.writes)
    (htail : ∀ op ∈ List.flatten ([hostOps1] : List (List (HloOp τ sig (Elt F)))), Proc.devRef .tc r ∉ op.writes) :
    V' m c r = m ((c : Thread nD τ).loc r) := by
  show Wend m c (Proc.devRef .tc r) = _
  unfold Wend
  rw [StableHlo.after_of_forall_not_mem _ _ htail, Wx_of_ne m c r hne]
  exact StableHlo.after_of_forall_not_mem _ _ hpre

/-- THE FRAME: @main runs to the end, nothing faults, and the eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
    ((h c).2 main_arg0 (Pipeline.mem_restRefs_of main_arg0 rfl (by decide))).trans (V'_kept m c main_arg0 (by decide) pre_keeps_arg0 tail_keeps_arg0),
    ((h c).2 main_arg1 (Pipeline.mem_restRefs_of main_arg1 rfl (by decide))).trans (V'_kept m c main_arg1 (by decide) pre_keeps_arg1 tail_keeps_arg1),
    ((h c).1 2).trans (((dats m 0 c).arrAt_in 2 rfl _).trans ((A_eq m c 2).trans (V_kept m c main_arg2 pre_keeps_arg2))),
    ((h c).2 main_arg3 (Pipeline.mem_restRefs_of main_arg3 rfl (by decide))).trans (V'_kept m c main_arg3 (by decide) pre_keeps_arg3 tail_keeps_arg3),
    ((h c).2 main_arg4 (Pipeline.mem_restRefs_of main_arg4 rfl (by decide))).trans (V'_kept m c main_arg4 (by decide) pre_keeps_arg4 tail_keeps_arg4),
    ((h c).2 main_arg5 (Pipeline.mem_restRefs_of main_arg5 rfl (by decide))).trans (V'_kept m c main_arg5 (by decide) pre_keeps_arg5 tail_keeps_arg5),
    ((h c).2 main_arg6 (Pipeline.mem_restRefs_of main_arg6 rfl (by decide))).trans (V'_kept m c main_arg6 (by decide) pre_keeps_arg6 tail_keeps_arg6),
    ((h c).2 main_arg7 (Pipeline.mem_restRefs_of main_arg7 rfl (by decide))).trans (V'_kept m c main_arg7 (by decide) pre_keeps_arg7 tail_keeps_arg7)⟩)
    (run_main m ρ)

end Cert.Kernel.Fr

end
-- ==== Proof.KI.Runs.lean ====
/-
  The kernel body run on whole staging buffers, in its two control cases.

  The body first tests whether the grid point is (0, 0); there it overwrites the output block (one row of 128 lanes)
  with zeros. Then, at every point, it loads a 1024-row block and a 512-row block of the embedding matrix and a
  1024 x 512 block of labels, computes one number from them (the block's loss total), and adds that number to every
  lane of the output block. So the cases are: A, the first point (the block is reset, then added to) and B, every
  later point (the block found there is added to). In each case the run returns the input buffers as they were and
  the output buffer with the body's stores written, last first.
-/
import proofs.«119214_j14955076125211_1_alg».proof.Proof.Gen.KernelIdeal.Launch
import proofs.«119214_j14955076125211_1_alg».proof.Proof.Gen.KernelIdeal.Skeleton
import proofs.«119214_j14955076125211_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch condition -/

/-- The body's test "both grid coordinates are zero", as the scalar chain computes it. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- Over the 8 x 16 grid, walked row by row, it holds at point 0 and nowhere else. -/
theorem isFirst_iff : ∀ t : Fin cfg0.N, isFirst (grid0.coords t) ↔ t.val = 0 :=
  (by decide +kernel : ∀ t : Fin grid0.N, isFirst (grid0.coords t) ↔ t.val = 0)

/-! ## The staging buffers the body is called with at a point -/

abbrev ms0 (t : Fin cfg0.N) : Memref sig .tc .vmem S1024x16 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x512 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)

/-- The output block's one staging buffer, through which its contents are stated. -/
abbrev VO : View sig .tc .vmem S1x128 .f32 := (Memref.whole cc0_stg3_0 : Memref sig .tc .vmem S1x128 .f32).view

/-! ## The two runs -/

set_option maxHeartbeats 2000000 in
/-- CASE A (the first point). The output buffer holds anything; the body resets it and adds the block's total. -/
noncomputable def runA (c : Dev nD) (i : grid0.Coords)
    (arg2 : Memref sig .tc .vmem S1024x16 .f32) (harg2 : arg2.IsWhole)
    (arg3 : Memref sig .tc .vmem S512x16 .f32) (harg3 : arg3.IsWhole)
    (arg4 : Memref sig .tc .vmem S1024x512 .i32) (harg4 : arg4.IsWhole)
    (arg5 : Memref sig .tc .vmem S1x128 .f32) (harg5 : arg5.IsWhole) (hc : isFirst i)
    (x0 : Vec F S1024x16 .f32) (x1 : Vec F S512x16 .f32) (x2 : Vec F S1024x512 .i32) :
    { L : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__bce_kernel i arg2 harg2 arg3 harg3 arg4 harg4 arg5 harg5) K } := by
  refine ⟨?_, fun E K => ?run⟩
  case run =>
    simp only [cc0__bce_kernel_eq_skeleton]; unfold cc0__bce_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 2000000 in
/-- CASE B (a later point). The output buffer holds the running contents xo; the body adds the block's total. -/
noncomputable def runB (c : Dev nD) (i : grid0.Coords)
    (arg2 : Memref sig .tc .vmem S1024x16 .f32) (harg2 : arg2.IsWhole)
    (arg3 : Memref sig .tc .vmem S512x16 .f32) (harg3 : arg3.IsWhole)
    (arg4 : Memref sig .tc .vmem S1024x512 .i32) (harg4 : arg4.IsWhole)
    (arg5 : Memref sig .tc .vmem S1x128 .f32) (harg5 : arg5.IsWhole) (hc : ¬isFirst i)
    (x0 : Vec F S1024x16 .f32) (x1 : Vec F S512x16 .f32) (x2 : Vec F S1024x512 .i32) (xo : Vec F S1x128 .f32) :
    { L : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__bce_kernel i arg2 harg2 arg3 harg3 arg4 harg4 arg5 harg5) K } := by
  refine ⟨?_, fun E K => ?run⟩
  case run =>
    simp only [cc0__bce_kernel_eq_skeleton]; unfold cc0__bce_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2
    obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Fr

end
-- ==== Proof.KI.Body.lean ====
/-
  What the output block holds after each grid point, the pipeline's proof data, and the body's obligation.

  The grid's 128 points are walked in order. The output block (one row of 128 lanes) is resident: it is written back
  to its array after the last point only, so at every point but the first the body finds in it what it left at the
  point before. After point 0 it holds (zeros + total of block 0) in every lane; after point n+1 what it held after
  point n, plus the total of block n+1. The three inputs are only read: after the body each staging buffer still holds
  its block of the array.

  The embedding matrix is handed to the kernel twice (as the row operand and as the column operand of the product), so
  windows 0 and 1 stage blocks of ONE array: its buffer is dealt between them in halves (the left half share to window
  0, the right one to window 1).
-/
import proofs.«119214_j14955076125211_1_alg».proof.Proof.KI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- The host lines before the region, stretch by stretch. -/
abbrev linesBefore : List (List (HloOp τ sig (Elt F))) :=
  [hostOps0, hostOps0_1, hostOps0_2, hostOps0_3, hostOps0_4, hostOps0_5, hostOps0_6, hostOps0_7, hostOps0_8]

/-- Core c's buffers when the region is entered: the launch contents run through the lines before it. -/
abbrev V0 (c : Dev nD) : Valuation τ sig (Elt F) := StableHlo.after (List.flatten (linesBefore (F := F))) (fun b => m (c, b))
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What each case leaves in the output block -/

/-- Case A's stores (the reset, then the sum) each fill the block, so together they cover it. -/
theorem coverA (c : Dev nD) (i : grid0.Coords)
    (arg2 : Memref sig .tc .vmem S1024x16 .f32) (harg2 : arg2.IsWhole) (arg3 : Memref sig .tc .vmem S512x16 .f32) (harg3 : arg3.IsWhole)
    (arg4 : Memref sig .tc .vmem S1024x512 .i32) (harg4 : arg4.IsWhole) (arg5 : Memref sig .tc .vmem S1x128 .f32) (harg5 : arg5.IsWhole)
    (hc : isFirst i) (x0 : Vec F S1024x16 .f32) (x1 : Vec F S512x16 .f32) (x2 : Vec F S1024x512 .i32) (y : S1x128.Idx) :
    ∃ pc ∈ (runA c i arg2 harg2 arg3 harg3 arg4 harg4 arg5 harg5 hc x0 x1 x2).1, y ∈ pc.1.set :=
  View.cover_of_tiledL (runA c i arg2 harg2 arg3 harg3 arg4 harg4 arg5 harg5 hc x0 x1 x2).1 S1x128.size (by sl_kernel_rfl) y

/-- What case A leaves in the output block: its stores read back. -/
def outA (c : Dev nD) (i : grid0.Coords)
    (arg2 : Memref sig .tc .vmem S1024x16 .f32) (harg2 : arg2.IsWhole) (arg3 : Memref sig .tc .vmem S512x16 .f32) (harg3 : arg3.IsWhole)
    (arg4 : Memref sig .tc .vmem S1024x512 .i32) (harg4 : arg4.IsWhole) (arg5 : Memref sig .tc .vmem S1x128 .f32) (harg5 : arg5.IsWhole)
    (hc : isFirst i) (x0 : Vec F S1024x16 .f32) (x1 : Vec F S512x16 .f32) (x2 : Vec F S1024x512 .i32) : Vec F S1x128 .f32 :=
  VO.read (Elt F) (VO.writes (Elt F) VO.junk (runA c i arg2 harg2 arg3 harg3 arg4 harg4 arg5 harg5 hc x0 x1 x2).1)

/-- Case B's one store fills the block. -/
theorem coverB (c : Dev nD) (i : grid0.Coords)
    (arg2 : Memref sig .tc .vmem S1024x16 .f32) (harg2 : arg2.IsWhole) (arg3 : Memref sig .tc .vmem S512x16 .f32) (harg3 : arg3.IsWhole)
    (arg4 : Memref sig .tc .vmem S1024x512 .i32) (harg4 : arg4.IsWhole) (arg5 : Memref sig .tc .vmem S1x128 .f32) (harg5 : arg5.IsWhole)
    (hc : ¬isFirst i) (x0 : Vec F S1024x16 .f32) (x1 : Vec F S512x16 .f32) (x2 : Vec F S1024x512 .i32) (xo : Vec F S1x128 .f32) (y : S1x128.Idx) :
    ∃ pc ∈ (runB c i arg2 harg2 arg3 harg3 arg4 harg4 arg5 harg5 hc x0 x1 x2 xo).1, y ∈ pc.1.set :=
  View.cover_of_tiledL (runB c i arg2 harg2 arg3 harg3 arg4 harg4 arg5 harg5 hc x0 x1 x2 xo).1 S1x128.size (by sl_kernel_rfl) y

/-- What case B leaves in the output block. -/
def outB (c : Dev nD) (i : grid0.Coords)
    (arg2 : Memref sig .tc .vmem S1024x16 .f32) (harg2 : arg2.IsWhole) (arg3 : Memref sig .tc .vmem S512x16 .f32) (harg3 : arg3.IsWhole)
    (arg4 : Memref sig .tc .vmem S1024x512 .i32) (harg4 : arg4.IsWhole) (arg5 : Memref sig .tc .vmem S1x128 .f32) (harg5 : arg5.IsWhole)
    (hc : ¬isFirst i) (x0 : Vec F S1024x16 .f32) (x1 : Vec F S512x16 .f32) (x2 : Vec F S1024x512 .i32) (xo : Vec F S1x128 .f32) : Vec F S1x128 .f32 :=
  VO.read (Elt F) (VO.writes (Elt F) VO.junk (runB c i arg2 harg2 arg3 harg3 arg4 harg4 arg5 harg5 hc x0 x1 x2 xo).1)

/-! ## The running contents of the output block -/

/-- What the output block holds after the body at point n: case A at point 0; case B, over what point n - 1 left, later. -/
def accAt (c : Dev nD) : (n : ℕ) → n < cfg0.N → Vec F S1x128 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩)
      ((isFirst_iff ⟨0, hn⟩).mpr rfl) (iblk m c 0 ⟨0, hn⟩) (iblk m c 1 ⟨0, hn⟩) (iblk m c 2 ⟨0, hn⟩)
  | n + 1, hn => outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
      (fun h => Nat.succ_ne_zero n ((isFirst_iff ⟨n + 1, hn⟩).mp h)) (iblk m c 0 ⟨n + 1, hn⟩) (iblk m c 1 ⟨n + 1, hn⟩) (iblk m c 2 ⟨n + 1, hn⟩)
      (accAt c n (Nat.lt_of_succ_lt hn))

theorem accAt_first (c : Dev nD) (t : Fin cfg0.N) (h0 : t.val = 0) :
    accAt m c t.val t.isLt = outA c (grid0.coords t) (ms0 t) (hs0 t) (ms1 t) (hs1 t) (ms2 t) (hs2 t) (ms3 t) (hs3 t) ((isFirst_iff t).mpr h0)
      (iblk m c 0 t) (iblk m c 1 t) (iblk m c 2 t) := by
  obtain ⟨n, hn⟩ := t
  cases n with
  | zero => exact rfl
  | succ n => exact absurd h0 (Nat.succ_ne_zero n)

theorem accAt_later (c : Dev nD) (t : Fin cfg0.N) (h0 : t.val ≠ 0) :
    accAt m c t.val t.isLt = outB c (grid0.coords t) (ms0 t) (hs0 t) (ms1 t) (hs1 t) (ms2 t) (hs2 t) (ms3 t) (hs3 t) (fun h => h0 ((isFirst_iff t).mp h))
      (iblk m c 0 t) (iblk m c 1 t) (iblk m c 2 t) (accAt m c (t.val - 1) (Nat.lt_of_le_of_lt (Nat.sub_le _ _) t.isLt)) := by
  obtain ⟨n, hn⟩ := t
  cases n with
  | zero => exact absurd rfl h0
  | succ n => exact rfl

/-! ## The proof data -/

/-- The pipeline's proof data on core c: the arrays as the region finds them; after the body each input buffer at its
    block, the output buffer at the running contents; the invariant the core's scoped rest; nothing owed; the shared
    array's buffer in halves between windows 0 and 1. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAt m c t.val t.isLt
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = accAt m c t.val t.isLt := by dsimp only [dats]

/-- Each input's current staging buffer holds its block at every point, fetched there or not (unfetched, the block
    index has not moved since the point that fetched it). -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)

/-- At a later point the output's staging buffer holds what the body left at the point before: it is written back
    after the last point only. -/
theorem before3_later (c : Dev nD) (t : Fin cfg0.N) (h0 : t.val ≠ 0) (d) :
    (dats m 0 c).before 3 t d = accAt m c (t.val - 1) (Nat.lt_of_le_of_lt (Nat.sub_le _ _) t.isLt) := by
  have hN : t.val < 128 := lt_of_lt_of_eq t.isLt (show cfg0.N = 128 from N_0)
  rw [Dat.before_out_kept _ 3 rfl t h0 (Bool.eq_false_iff.mpr fun h => by have := (flush0_3 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the inputs' buffers hold their blocks; the point is the first or a later one; in the second
    case the output's buffer holds what the point before left; so the case's run applies. The invariant passes through
    unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  by_cases h0 : t.val = 0
  · rw [accAt_first m c t h0]
    unfold outA
    iintro ⟨HΦ, Ho, ⟨%d0, H0⟩, ⟨%d1, H1⟩, ⟨%d2, H2⟩, ⟨%d3, H3⟩⟩
    iapply ((runA c (grid0.coords t) (ms0 t) (hs0 t) (ms1 t) (hs1 t) (ms2 t) (hs2 t) (ms3 t) (hs3 t) ((isFirst_iff t).mpr h0)
      (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c (grid0.coords t) (ms0 t) (hs0 t) (ms1 t) (hs1 t) (ms2 t) (hs2 t) (ms3 t) (hs3 t) ((isFirst_iff t).mpr h0)
      (iblk m c 0 t) (iblk m c 1 t) (iblk m c 2 t))
  · rw [accAt_later m c t h0]
    simp only [before3_later m c t h0]
    unfold outB
    iintro ⟨HΦ, Ho, ⟨%d0, H0⟩, ⟨%d1, H1⟩, ⟨%d2, H2⟩, ⟨%d3, H3⟩⟩
    iapply ((runB c (grid0.coords t) (ms0 t) (hs0 t) (ms1 t) (hs1 t) (ms2 t) (hs2 t) (ms3 t) (hs3 t) (fun h => h0 ((isFirst_iff t).mp h))
      (iblk m c 0 t) (iblk m c 1 t) (iblk m c 2 t) (accAt m c (t.val - 1) (Nat.lt_of_le_of_lt (Nat.sub_le _ _) t.isLt))).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverB c (grid0.coords t) (ms0 t) (hs0 t) (ms1 t) (hs1 t) (ms2 t) (hs2 t) (ms3 t) (hs3 t) (fun h => h0 ((isFirst_iff t).mp h))
      (iblk m c 0 t) (iblk m c 1 t) (iblk m c 2 t) (accAt m c (t.val - 1) (Nat.lt_of_le_of_lt (Nat.sub_le _ _) t.isLt)))

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.KI.Run.lean ====
/-
  The run of @main: the host lines before the region, the region, the host lines after it.

  At the region's entry the buffer of the embedding matrix is dealt in halves to the two windows that stage its blocks;
  the label matrix and the output row are held whole. The lines after the region read the output row (they slice its
  first lane) and buffers that bypassed the region, and write fresh buffers only; so they run within the output row's
  buffer and the bypassing buffers, the three input windows' holdings set aside and handed back untouched.
  No host line writes an argument array, and the kernel writes only its output row: every argument ends as launched.
-/
import proofs.«119214_j14955076125211_1_alg».proof.Proof.KI.Body
import proofs.«119214_j14955076125211_1_alg».proof.Proof.LibSharedTail
import proofs.«119214_j14955076125211_1_alg».proof.Proof.LibSharedFrame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the later lines, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (([hostOps1] : List (List (HloOp τ sig (Elt F)))).map StableHlo.seq)) :=
  Pipeline.hmain_around cfgs 0 defs₀ 𝒱₀ m main linesBefore [hostOps1]
    ⟨hostOps0_sub, hostOps0_1_sub, hostOps0_2_sub, hostOps0_3_sub, hostOps0_4_sub, hostOps0_5_sub, hostOps0_6_sub, hostOps0_7_sub, hostOps0_8_sub⟩
    ⟨hostOps0_fresh, hostOps0_1_fresh, hostOps0_2_fresh, hostOps0_3_fresh, hostOps0_4_fresh, hostOps0_5_fresh, hostOps0_6_fresh, hostOps0_7_fresh, hostOps0_8_fresh⟩ main_chain

/-! ## The arrays at the region's entry -/

/-- The proof data's arrays, each at its reference and share. -/
theorem arrays_at (c : Dev nD) (Fv : (w : Fin cfg0.W) → Buf (Elt F) ((cfg0.win w).arr.view.loc (c.tc : Thread nD τ))) :
    (dats m 0 c).arrays Fv = bigSep Finset.univ fun w => (((c.tc : Thread nD τ).loc (Pipeline.arrRef spec0 w)) ↦{(dats m 0 c).share w} Fv w : sProp 𝕄) := by
  unfold Dat.arrays
  exact bigSep_congr fun w _ => by rw [(arr_whole0 w).set_eq_univ]

/-- The three distinct buffers behind the four windows' arrays, whole, make the proof data's arrays: the shared one
    is split in its two halves. -/
theorem hsplit (c : Dev nD) : (Pipeline.arrBufs spec0 c (V m c) : sProp 𝕄) ⊢ (dats m 0 c).arrays ((dats m 0 c).arrAt · 0) := by
  have himg : Finset.univ.image (Pipeline.arrRef spec0) = {main_v142, main_arg2, main_v143} := by decide
  have hB : (Pipeline.arrBufs spec0 c (V m c) : sProp 𝕄)
      = iprop((((c.tc : Thread nD τ).loc main_v142) ↦{fullShare} V m c main_v142)
          ∗ (((c.tc : Thread nD τ).loc main_arg2) ↦{fullShare} V m c main_arg2)
          ∗ (((c.tc : Thread nD τ).loc main_v143) ↦{fullShare} V m c main_v143)) := by
    unfold Pipeline.arrBufs
    rw [himg, bigSep_insert (by decide), bigSep_insert (by decide), bigSep_singleton]
    rfl
  rw [arrays_at, bigSep_W0, hB]
  iintro ⟨Hz, Hy, Ho⟩
  ihave Hzz := (Cert.Lib.SharedFrame.pointsTo_halves _ _) $$ Hz
  icases Hzz with ⟨Hl, Hr⟩
  isplitl [Hl]; · iexact Hl
  isplitl [Hr]; · iexact Hr
  isplitl [Hy]; · iexact Hy
  iexact Ho

/-! ## The lines after the region -/

/-- The buffers the later lines run within: the output row's and every buffer that bypassed the region. -/
abbrev tailSet : Finset (DevRef τ sig) :=
  (insert main_v143 (Pipeline.restRefs sig spec0)).map ⟨Proc.devRef (sig := sig) .tc, Proc.devRef_injective _⟩

theorem out_not_rest : main_v143 ∉ Pipeline.restRefs sig spec0 :=
  fun h => (Finset.mem_sdiff.mp h).2 (Finset.mem_image.mpr ⟨3, Finset.mem_univ _, rfl⟩)

/-- No later line touches the embedding matrix or the label matrix. -/
theorem tail_avoid : (hostOps1 : List (HloOp τ sig (Elt F))).Forall fun op =>
    Proc.devRef .tc main_v142 ∉ op.bufs ∧ Proc.devRef .tc main_arg2 ∉ op.bufs := by
  simp only [List.Forall, StableHlo.unary_bufs, StableHlo.binary_bufs, StableHlo.nullary_bufs, StableHlo.reshape_bufs, StableHlo.ternary_bufs,
    Finset.mem_insert, Finset.mem_singleton, not_or]
  repeat' apply And.intro
  all_goals exact StableHlo.devRef_ne_of_ne (by decide)

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  intro b hb
  have hu : b ∈ Pipeline.ucRefs τ sig := Pipeline.sub_ucRefs op ((List.forall_iff_forall_mem.mp hostOps1_sub) op hop) hb
  obtain ⟨h1, h2⟩ := (List.forall_iff_forall_mem.mp tail_avoid) op hop
  simp only [Pipeline.ucRefs, StableHlo.tcRefs, Finset.mem_map, Finset.mem_filter, Finset.mem_univ, true_and, Function.Embedding.coeFn_mk] at hu
  obtain ⟨⟨r, rfl⟩, hr⟩ := hu
  refine Finset.mem_map.mpr ⟨r, ?_, rfl⟩
  by_cases h3 : r = main_v143
  · exact h3 ▸ Finset.mem_insert_self _ _
  · refine Finset.mem_insert_of_mem (Finset.mem_sdiff.mpr ⟨Finset.mem_filter.mpr ⟨Finset.mem_univ _, hr⟩, fun hi => ?_⟩)
    obtain ⟨w, -, e⟩ := Finset.mem_image.mp hi
    fin_cases w
    · subst e; exact h1 hb
    · subst e; exact h1 hb
    · subst e; exact h2 hb
    · exact h3 e.symm

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- No later line writes the output row. -/
theorem tail_keeps_out : ∀ op ∈ List.flatten ([hostOps1] : List (List (HloOp τ sig (Elt F)))), Proc.devRef .tc main_v143 ∉ op.writes :=
  List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- The buffers at the region's exit: as at its entry, the output row at what the last write-back left. -/
def Wx (c : Dev nD) : Valuation τ sig (Elt F) :=
  Function.update (V0 m c) (Proc.devRef .tc main_v143) ((dats m 0 c).arrAt 3 cfg0.N)

/-- The buffers after the later lines. -/
def Wend (c : Dev nD) : Valuation τ sig (Elt F) := StableHlo.after (List.flatten [hostOps1]) (Wx m c)
abbrev V' (c : Dev nD) (b : Ref sig .tc) : Buf (Elt F) ((c : Thread nD τ).loc b) := Wend m c (Proc.devRef .tc b)

theorem Wx_out (c : Dev nD) : Wx m c (Proc.devRef .tc main_v143) = (dats m 0 c).arrAt 3 cfg0.N := by
  unfold Wx; exact Function.update_self ..

theorem Wx_of_ne (c : Dev nD) (r : Ref sig .tc) (h : r ≠ main_v143) : Wx m c (Proc.devRef .tc r) = V0 m c (Proc.devRef .tc r) := by
  unfold Wx; exact Function.update_of_ne (StableHlo.devRef_ne_of_ne h) ..

theorem Wend_out (c : Dev nD) : Wend m c (Proc.devRef .tc main_v143) = (dats m 0 c).arrAt 3 cfg0.N := by
  unfold Wend
  rw [StableHlo.after_of_forall_not_mem _ _ tail_keeps_out, Wx_out]

/-- The set the later lines run within, held at W: the output row and the bypassing buffers. -/
theorem held_tail (c : Dev nD) (W : Valuation τ sig (Elt F)) :
    (StableHlo.held (c.tc : Thread nD τ) tailSet W : sProp 𝕄)
      = iprop((((c.tc : Thread nD τ).loc main_v143) ↦{fullShare} W (Proc.devRef .tc main_v143))
          ∗ Pipeline.unscopedRest spec0 c (fun b => W (Proc.devRef .tc b))) := by
  unfold StableHlo.held tailSet Pipeline.unscopedRest
  rw [bigSep_map, bigSep_insert out_not_rest]
  rfl

/-- What the later lines never see: the three input windows' holdings. -/
def inputsHeld (c : Dev nD) : sProp 𝕄 :=
  iprop((((c.tc : Thread nD τ).loc (Pipeline.arrRef spec0 0)) ↦{(dats m 0 c).share 0} (dats m 0 c).arrAt 0 cfg0.N)
    ∗ (((c.tc : Thread nD τ).loc (Pipeline.arrRef spec0 1)) ↦{(dats m 0 c).share 1} (dats m 0 c).arrAt 1 cfg0.N)
    ∗ (((c.tc : Thread nD τ).loc (Pipeline.arrRef spec0 2)) ↦{(dats m 0 c).share 2} (dats m 0 c).arrAt 2 cfg0.N))

theorem rest_Wx (c : Dev nD) :
    (Pipeline.unscopedRest spec0 c (fun b => Wx m c (Proc.devRef .tc b)) : sProp 𝕄) = Pipeline.unscopedRest spec0 c (V m c) := by
  unfold Pipeline.unscopedRest
  exact bigSep_congr fun b hb => by
    beta_reduce
    rw [Wx_of_ne m c b fun e => out_not_rest (e ▸ hb)]

theorem hexit (c : Dev nD) :
    iprop((dats m 0 c).arrays ((dats m 0 c).arrAt · cfg0.N) ∗ Pipeline.unscopedRest spec0 c (V m c))
      ⊢ iprop((StableHlo.held (c.tc : Thread nD τ) tailSet (Wx m c) : sProp 𝕄) ∗ inputsHeld m c) := by
  rw [arrays_at, bigSep_W0, held_tail, rest_Wx, Wx_out]
  unfold inputsHeld
  iintro ⟨⟨H0, H1, H2, H3⟩, HR⟩
  isplitl [H3 HR]
  · isplitl [H3]; · iexact H3
    iexact HR
  · isplitl [H0]; · iexact H0
    isplitl [H1]; · iexact H1
    iexact H2

theorem hback (c : Dev nD) :
    iprop((StableHlo.held (c.tc : Thread nD τ) tailSet (StableHlo.after (List.flatten [hostOps1]) (Wx m c)) : sProp 𝕄) ∗ inputsHeld m c)
      ⊢ iprop((dats m 0 c).arrays ((dats m 0 c).arrAt · cfg0.N) ∗ Pipeline.unscopedRest spec0 c (V' m c)) := by
  rw [arrays_at, bigSep_W0, held_tail, show StableHlo.after (List.flatten [hostOps1]) (Wx m c) = Wend m c from rfl, Wend_out]
  unfold inputsHeld
  iintro ⟨⟨H3, HR⟩, H0, H1, H2⟩
  isplitr [HR]
  · isplitl [H0]; · iexact H0
    isplitl [H1]; · iexact H1
    isplitl [H2]; · iexact H2
    iexact H3
  · iexact HR

/-! ## The run -/

set_option backward.isDefEq.respectTransparency.types false in
/-- Every weakly fair execution of @main terminates, with every array of the pipeline at what the proof data compute
    and every other unscoped buffer as the later lines leave it. -/
theorem run_main : θ_run defs (onTc (τ := τ) (main (F := F))) (s₀ m ρ) (Pipeline.FramePost cfgs (dats m) 0 (V' m)) :=
  Cert.Lib.SharedTail.θ_run_frame_shared_tail cfgs (dats m) (0 : Fin 1) defs₀ Variants.none cellOf_inj winFacts₀0 block_pos0 arr_whole0 stage_whole0
    m ρ main (fun c => (body_obligation m c).loose) (fun _ _ => rfl) (V m) (V' m) [hostOps1] (hmain m Variants.none)
    (hsplit m) (fun c => .rfl) (fun c => .rfl) tailSet tail_sub tail_fresh (Wx m) (inputsHeld m) (hexit m) (hback m)

end Cert.KernelIdeal.Fr

end
-- ==== Proof.KI.Frame.lean ====
/-
  The frame: every argument array ends as launched.

  Each host line writes one fresh buffer of its own, never an argument; the kernel's region writes back only its output
  row. So the label matrix (the one argument the kernel stages) ends at its entry contents, which are the launch
  contents; every other argument bypasses the region and the lines after it leave it alone.
-/
import proofs.«119214_j14955076125211_1_alg».proof.Proof.KI.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## No host line writes an argument -/

theorem pre_keeps_arg0 : ∀ op ∈ List.flatten (linesBefore (F := F)), Proc.devRef .tc main_arg0 ∉ op.writes :=
  List.forall_iff_forall_mem.mp (by
    simp only [linesBefore, hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_arg0 : ∀ op ∈ List.flatten ([hostOps1] : List (List (HloOp τ sig (Elt F)))), Proc.devRef .tc main_arg0 ∉ op.writes :=
  List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem pre_keeps_arg1 : ∀ op ∈ List.flatten (linesBefore (F := F)), Proc.devRef .tc main_arg1 ∉ op.writes :=
  List.forall_iff_forall_mem.mp (by
    simp only [linesBefore, hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_arg1 : ∀ op ∈ List.flatten ([hostOps1] : List (List (HloOp τ sig (Elt F)))), Proc.devRef .tc main_arg1 ∉ op.writes :=
  List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem pre_keeps_arg2 : ∀ op ∈ List.flatten (linesBefore (F := F)), Proc.devRef .tc main_arg2 ∉ op.writes :=
  List.forall_iff_forall_mem.mp (by
    simp only [linesBefore, hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_arg2 : ∀ op ∈ List.flatten ([hostOps1] : List (List (HloOp τ sig (Elt F)))), Proc.devRef .tc main_arg2 ∉ op.writes :=
  List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem pre_keeps_arg3 : ∀ op ∈ List.flatten (linesBefore (F := F)), Proc.devRef .tc main_arg3 ∉ op.writes :=
  List.forall_iff_forall_mem.mp (by
    simp only [linesBefore, hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_arg3 : ∀ op ∈ List.flatten ([hostOps1] : List (List (HloOp τ sig (Elt F)))), Proc.devRef .tc main_arg3 ∉ op.writes :=
  List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem pre_keeps_arg4 : ∀ op ∈ List.flatten (linesBefore (F := F)), Proc.devRef .tc main_arg4 ∉ op.writes :=
  List.forall_iff_forall_mem.mp (by
    simp only [linesBefore, hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_arg4 : ∀ op ∈ List.flatten ([hostOps1] : List (List (HloOp τ sig (Elt F)))), Proc.devRef .tc main_arg4 ∉ op.writes :=
  List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem pre_keeps_arg5 : ∀ op ∈ List.flatten (linesBefore (F := F)), Proc.devRef .tc main_arg5 ∉ op.writes :=
  List.forall_iff_forall_mem.mp (by
    simp only [linesBefore, hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_arg5 : ∀ op ∈ List.flatten ([hostOps1] : List (List (HloOp τ sig (Elt F)))), Proc.devRef .tc main_arg5 ∉ op.writes :=
  List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem pre_keeps_arg6 : ∀ op ∈ List.flatten (linesBefore (F := F)), Proc.devRef .tc main_arg6 ∉ op.writes :=
  List.forall_iff_forall_mem.mp (by
    simp only [linesBefore, hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_arg6 : ∀ op ∈ List.flatten ([hostOps1] : List (List (HloOp τ sig (Elt F)))), Proc.devRef .tc main_arg6 ∉ op.writes :=
  List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem pre_keeps_arg7 : ∀ op ∈ List.flatten (linesBefore (F := F)), Proc.devRef .tc main_arg7 ∉ op.writes :=
  List.forall_iff_forall_mem.mp (by
    simp only [linesBefore, hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_arg7 : ∀ op ∈ List.flatten ([hostOps1] : List (List (HloOp τ sig (Elt F)))), Proc.devRef .tc main_arg7 ∉ op.writes :=
  List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- A buffer no earlier line writes is found by the region as launched. -/
theorem V_kept (c : Dev nD) (r : Ref sig .tc)
    (hpre : ∀ op ∈ List.flatten (linesBefore (F := F)), Proc.devRef .tc r ∉ op.writes) :
    V m c r = m ((c : Thread nD τ).loc r) :=
  StableHlo.after_of_forall_not_mem _ _ hpre

/-- A buffer no line writes, other than the output row, ends as launched. -/
theorem V'_kept (c : Dev nD) (r : Ref sig .tc) (hne : r ≠ main_v143)
    (hpre : ∀ op ∈ List.flatten (linesBefore (F := F)), Proc.devRef .tc r ∉ op.writes)
    (htail : ∀ op ∈ List.flatten ([hostOps1] : List (List (HloOp τ sig (Elt F)))), Proc.devRef .tc r ∉ op.writes) :
    V' m c r = m ((c : Thread nD τ).loc r) := by
  show Wend m c (Proc.devRef .tc r) = _
  unfold Wend
  rw [StableHlo.after_of_forall_not_mem _ _ htail, Wx_of_ne m c r hne]
  exact StableHlo.after_of_forall_not_mem _ _ hpre

/-- THE FRAME: @main runs to the end, nothing faults, and the eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
    ((h c).2 main_arg0 (Pipeline.mem_restRefs_of main_arg0 rfl (by decide))).trans (V'_kept m c main_arg0 (by decide) pre_keeps_arg0 tail_keeps_arg0),
    ((h c).2 main_arg1 (Pipeline.mem_restRefs_of main_arg1 rfl (by decide))).trans (V'_kept m c main_arg1 (by decide) pre_keeps_arg1 tail_keeps_arg1),
    ((h c).1 2).trans (((dats m 0 c).arrAt_in 2 rfl _).trans ((A_eq m c 2).trans (V_kept m c main_arg2 pre_keeps_arg2))),
    ((h c).2 main_arg3 (Pipeline.mem_restRefs_of main_arg3 rfl (by decide))).trans (V'_kept m c main_arg3 (by decide) pre_keeps_arg3 tail_keeps_arg3),
    ((h c).2 main_arg4 (Pipeline.mem_restRefs_of main_arg4 rfl (by decide))).trans (V'_kept m c main_arg4 (by decide) pre_keeps_arg4 tail_keeps_arg4),
    ((h c).2 main_arg5 (Pipeline.mem_restRefs_of main_arg5 rfl (by decide))).trans (V'_kept m c main_arg5 (by decide) pre_keeps_arg5 tail_keeps_arg5),
    ((h c).2 main_arg6 (Pipeline.mem_restRefs_of main_arg6 rfl (by decide))).trans (V'_kept m c main_arg6 (by decide) pre_keeps_arg6 tail_keeps_arg6),
    ((h c).2 main_arg7 (Pipeline.mem_restRefs_of main_arg7 rfl (by decide))).trans (V'_kept m c main_arg7 (by decide) pre_keeps_arg7 tail_keeps_arg7)⟩)
    (run_main m ρ)

end Cert.KernelIdeal.Fr

end
-- ==== Proof.Ref.Line.lean ====
/-
  The reference program's @main as a straight line of host operations, in three stretches, and its run.

  The first stretch (the two graph convolutions, the sampled embedding) ends at the embedding matrix; the second (the
  inner-product decode, the label conversion, the stable softplus, the weighted loss terms, their sum over the whole
  matrix) ends at that sum; the third (the mean, the scaling by the norm, the divergence term, their sum) ends at
  the scalar result. A function the program calls (a select against a broadcast scalar, a rectifier, the softplus) is
  listed at its call site over the call's own buffers. Every weakly fair execution runs the line to its end, and each
  buffer then holds what the line's operations compute from the launch contents.
-/
import proofs.«119214_j14955076125211_1_alg».proof.Proof.Gen.ReferenceIdeal
import Idealize.ShloMosaic.Lib.StableHlo.Run

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- Up to the embedding matrix (190 operations). -/
abbrev opsA : List (HloOp τ sig (Elt F)) :=
  [ StableHlo.unary main_arg1 main_v0 ((extractStridedSlice S1x131072 ![0, 0] · slices_S2x131072_S1x131072_0_0) : (⟨S2x131072, .i32⟩ : BufTy).Contents (Elt F) → (⟨S1x131072, .i32⟩ : BufTy).Contents (Elt F)),
    StableHlo.reshape main_v0 main_v1 rfl shapeCasts_S1x131072_S131072,
    StableHlo.unary main_arg1 main_v2 ((extractStridedSlice S1x131072 ![1, 0] · slices_S2x131072_S1x131072_1_0) : (⟨S2x131072, .i32⟩ : BufTy).Contents (Elt F) → (⟨S1x131072, .i32⟩ : BufTy).Contents (Elt F)),
    StableHlo.reshape main_v2 main_v3 rfl shapeCasts_S1x131072_S131072,
    StableHlo.binary main_arg0 main_arg5 main_v4 ((fun l r => Host.dotGeneral dot_S8192x512_S512x32_S8192x32_1_0_0_1_n_n none l r) : (⟨S8192x512, .f32⟩ : BufTy).Contents (Elt F) → (⟨S512x32, .f32⟩ : BufTy).Contents (Elt F) → (⟨S8192x32, .f32⟩ : BufTy).Contents (Elt F)),
    StableHlo.nullary main_cst (constant S_ .f32 0x3F800000#32),
    StableHlo.unary main_cst main_v5 (broadcastInDim S131072 ![] bcast_S_S131072 : (⟨S_, .f32⟩ : BufTy).Contents (Elt F) → (⟨S131072, .f32⟩ : BufTy).Contents (Elt F)),
    StableHlo.nullary main_cst_0 (constant S_ .f32 0x00000000#32),
    StableHlo.unary main_cst_0 main_v6 (broadcastInDim S8192 ![] bcast_S_S8192 : (⟨S_, .f32⟩ : BufTy).Contents (Elt F) → (⟨S8192, .f32⟩ : BufTy).Contents (Elt F)),
    StableHlo.unary main_v3 main_v7 (broadcastInDim S131072x1 ![0] bcast_S131072_S131072x1_0 : (⟨S131072, .i32⟩ : BufTy).Contents (Elt F) → (⟨S131072x1, .i32⟩ : BufTy).Contents (Elt F)),
    StableHlo.ternary main_v6 main_v7 main_v5 main_v8 ((fun x i u => Host.scatterAdd scatter_S8192_S131072x1_S131072_n_0_0_1 x i u) : (⟨S8192, .f32⟩ : BufTy).Contents (Elt F) → (⟨S131072x1, .i32⟩ : BufTy).Contents (Elt F) → (⟨S131072, .f32⟩ : BufTy).Contents (Elt F) → (⟨S8192, .f32⟩ : BufTy).Contents (Elt F)),
    StableHlo.nullary main_cst_1 (constant S_ .f32 0x3F800000#32),
    StableHlo.unary main_cst_1 main_v9 (broadcastInDim S8192 ![] bcast_S_S8192 : (⟨S_, .f32⟩ : BufTy).Contents (Elt F) → (⟨S8192, .f32⟩ : BufTy).Contents (Elt F)),
    StableHlo.binary main_v8 main_v9 main_v10 (addf : (⟨S8192, .f32⟩ : BufTy).Contents (Elt F) → (⟨S8192, .f32⟩ : BufTy).Contents (Elt F) → (⟨S8192, .f32⟩ : BufTy).Contents (Elt F)),
    StableHlo.nullary main_cst_2 (constant S_ .f32 0x00000000#32),
    StableHlo.unary main_cst_2 main_v11 (broadcastInDim S8192 ![] bcast_S_S8192 : (⟨S_, .f32⟩ : BufTy).Contents (Elt F) → (⟨S8192, .f32⟩ : BufTy).Contents (Elt F)),
    StableHlo.binary main_v10 main_v11 main_v12 (cmpf .ogt : (⟨S8192, .f32⟩ : BufTy).Contents (Elt F) → (⟨S8192, .f32⟩ : BufTy).Contents (Elt F) → (⟨S8192, .i1⟩ : BufTy).Contents (Elt F)),
    StableHlo.nullary main_cst_3 (constant S_ .f32 0xBF000000#32),
    StableHlo.unary main_cst_3 main_v13 (broadcastInDim S8192 ![] bcast_S_S8192 : (⟨S_, .f32⟩ : BufTy).Contents (Elt F) → (⟨S8192, .f32⟩ : BufTy).Contents (Elt F)),
    StableHlo.binary main_v10 main_v13 main_v14 (Host.powf : (⟨S8192, .f32⟩ : BufTy).Contents (Elt F) → (⟨S8192, .f32⟩ : BufTy).Contents (Elt F) → (⟨S8192, .f32⟩ : BufTy).Contents (Elt F)),
    StableHlo.nullary main_cst_4 (constant S_ .f32 0x00000000#32),
    StableHlo.TRef.unary (.of main_cst_4 : StableHlo.TRef sig ⟨S_, .f32⟩) main_call0.v0 id,
    StableHlo.TRef.unary main_call0.v0 main_call0.v1 (broadcastInDim S8192 ![] bcast_S_S8192),
    StableHlo.TRef.ternary (.of main_v12 : StableHlo.TRef sig ⟨S8192, .i1⟩) (.of main_v14 : StableHlo.TRef sig ⟨S8192, .f32⟩) main_call0.v1 main_call0.v2 select,
    StableHlo.nullary main_c (constantI S_ 32 0#32),
    StableHlo.unary main_c main_v16 (broadcastInDim S131072 ![] bcast_S_S131072 : (⟨S_, .i32⟩ : BufTy).Contents (Elt F) → (⟨S131072, .i32⟩ : BufTy).Contents (Elt F)),
    StableHlo.binary main_v1 main_v16 main_v17 (cmpi .slt : (⟨S131072, .i32⟩ : BufTy).Contents (Elt F) → (⟨S131072, .i32⟩ : BufTy).Contents (Elt F) → (⟨S131072, .i1⟩ : BufTy).Contents (Elt F)),
    StableHlo.nullary main_c_5 (constantI S_ 32 8192#32),
    StableHlo.unary main_c_5 main_v18 (broadcastInDim S131072 ![] bcast_S_S131072 : (⟨S_, .i32⟩ : BufTy).Contents (Elt F) → (⟨S131072, .i32⟩ : BufTy).Contents (Elt F)),
    StableHlo.binary main_v1 main_v18 main_v19 (addi : (⟨S131072, .i32⟩ : BufTy).Contents (Elt F) → (⟨S131072, .i32⟩ : BufTy).Contents (Elt F) → (⟨S131072, .i32⟩ : BufTy).Contents (Elt F)),
    StableHlo.ternary main_v17 main_v19 main_v1 main_v20 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v20 main_v21 (broadcastInDim S131072x1 ![0] bcast_S131072_S131072x1_0 : (⟨S131072, .i32⟩ : BufTy).Contents (Elt F) → (⟨S131072x1, .i32⟩ : BufTy).Contents (Elt F)),
    StableHlo.binary main_v15 main_v21 main_v22 ((fun x i => Host.gather gather_S8192_S131072x1_S131072_n_0_n_n_0_1_1 x i) : (⟨S8192, .f32⟩ : BufTy).Contents (Elt F) → (⟨S131072x1, .i32⟩ : BufTy).Contents (Elt F) → (⟨S131072, .f32⟩ : BufTy).Contents (Elt F)),
    StableHlo.nullary main_c_6 (constantI S_ 32 0#32),
    StableHlo.unary main_c_6 main_v23 (broadcastInDim S131072 ![] bcast_S_S131072 : (⟨S_, .i32⟩ : BufTy).Contents (Elt F) → (⟨S131072, .i32⟩ : BufTy).Contents (Elt F)),
    StableHlo.binary main_v3 main_v23 main_v24 (cmpi .slt : (⟨S131072, .i32⟩ : BufTy).Contents (Elt F) → (⟨S131072, .i32⟩ : BufTy).Contents (Elt F) → (⟨S131072, .i1⟩ : BufTy).Contents (Elt F)),
    StableHlo.nullary main_c_7 (constantI S_ 32 8192#32),
    StableHlo.unary main_c_7 main_v25 (broadcastInDim S131072 ![] bcast_S_S131072 : (⟨S_, .i32⟩ : BufTy).Contents (Elt F) → (⟨S131072, .i32⟩ : BufTy).Contents (Elt F)),
    StableHlo.binary main_v3 main_v25 main_v26 (addi : (⟨S131072, .i32⟩ : BufTy).Contents (Elt F) → (⟨S131072, .i32⟩ : BufTy).Contents (Elt F) → (⟨S131072, .i32⟩ : BufTy).Contents (Elt F)),
    StableHlo.ternary main_v24 main_v26 main_v3 main_v27 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v27 main_v28 (broadcastInDim S131072x1 ![0] bcast_S131072_S131072x1_0 : (⟨S131072, .i32⟩ : BufTy).Contents (Elt F) → (⟨S131072x1, .i32⟩ : BufTy).Contents (Elt F)),
    StableHlo.binary main_v15 main_v28 main_v29 ((fun x i => Host.gather gather_S8192_S131072x1_S131072_n_0_n_n_0_1_1 x i) : (⟨S8192, .f32⟩ : BufTy).Contents (Elt F) → (⟨S131072x1, .i32⟩ : BufTy).Contents (Elt F) → (⟨S131072, .f32⟩ : BufTy).Contents (Elt F)),
    StableHlo.binary main_v22 main_v29 main_v30 (mulf : (⟨S131072, .f32⟩ : BufTy).Contents (Elt F) → (⟨S131072, .f32⟩ : BufTy).Contents (Elt F) → (⟨S131072, .f32⟩ : BufTy).Contents (Elt F)),
    StableHlo.nullary main_c_8 (constantI S_ 32 0#32),
    StableHlo.unary main_c_8 main_v31 (broadcastInDim S131072 ![] bcast_S_S131072 : (⟨S_, .i32⟩ : BufTy).Contents (Elt F) → (⟨S131072, .i32⟩ : BufTy).Contents (Elt F)),
    StableHlo.binary main_v1 main_v31 main_v32 (cmpi .slt : (⟨S131072, .i32⟩ : BufTy).Contents (Elt F) → (⟨S131072, .i32⟩ : BufTy).Contents (Elt F) → (⟨S131072, .i1⟩ : BufTy).Contents (Elt F)),
    StableHlo.nullary main_c_9 (constantI S_ 32 8192#32),
    StableHlo.unary main_c_9 main_v33 (broadcastInDim S131072 ![] bcast_S_S131072 : (⟨S_, .i32⟩ : BufTy).Contents (Elt F) → (⟨S131072, .i32⟩ : BufTy).Contents (Elt F)),
    StableHlo.binary main_v1 main_v33 main_v34 (addi : (⟨S131072, .i32⟩ : BufTy).Contents (Elt F) → (⟨S131072, .i32⟩ : BufTy).Contents (Elt F) → (⟨S131072, .i32⟩ : BufTy).Contents (Elt F)),
    StableHlo.ternary main_v32 main_v34 main_v1 main_v35 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v35 main_v36 (broadcastInDim S131072x1 ![0] bcast_S131072_S131072x1_0 : (⟨S131072, .i32⟩ : BufTy).Contents (Elt F) → (⟨S131072x1, .i32⟩ : BufTy).Contents (Elt F)),
    StableHlo.binary main_v4 main_v36 main_v37 ((fun x i => Host.gather gather_S8192x32_S131072x1_S131072x32_1_0_n_n_0_1_132 x i) : (⟨S8192x32, .f32⟩ : BufTy).Contents (Elt F) → (⟨S131072x1, .i32⟩ : BufTy).Contents (Elt F) → (⟨S131072x32, .f32⟩ : BufTy).Contents (Elt F)),
    StableHlo.unary main_v30 main_v38 (broadcastInDim S131072x1 ![0] bcast_S131072_S131072x1_0 : (⟨S131072, .f32⟩ : BufTy).Contents (Elt F) → (⟨S131072x1, .f32⟩ : BufTy).Contents (Elt F)),
    StableHlo.unary main_v38 main_v39 (broadcastInDim S131072x32 ![0, 1] bcast_S131072x1_S131072x32_0_1 : (⟨S131072x1, .f32⟩ : BufTy).Contents (Elt F) → (⟨S131072x32, .f32⟩ : BufTy).Contents (Elt F)),
    StableHlo.binary main_v37 main_v39 main_v40 (mulf : (⟨S131072x32, .f32⟩ : BufTy).Contents (Elt F) → (⟨S131072x32, .f32⟩ : BufTy).Contents (Elt F) → (⟨S131072x32, .f32⟩ : BufTy).Contents (Elt F)),
    StableHlo.nullary main_cst_10 (constant S_ .f32 0x00000000#32),
    StableHlo.unary main_cst_10 main_v41 (broadcastInDim S8192x32 ![] bcast_S_S8192x32 : (⟨S_, .f32⟩ : BufTy).Contents (Elt F) → (⟨S8192x32, .f32⟩ : BufTy).Contents (Elt F)),
    StableHlo.unary main_v3 main_v42 (broadcastInDim S131072x1 ![0] bcast_S131072_S131072x1_0 : (⟨S131072, .i32⟩ : BufTy).Contents (Elt F) → (⟨S131072x1, .i32⟩ : BufTy).Contents (Elt F)),
    StableHlo.ternary main_v41 main_v42 main_v40 main_v43 ((fun x i u => Host.scatterAdd scatter_S8192x32_S131072x1_S131072x32_1_0_0_1 x i u) : (⟨S8192x32, .f32⟩ : BufTy).Contents (Elt F) → (⟨S131072x1, .i32⟩ : BufTy).Contents (Elt F) → (⟨S131072x32, .f32⟩ : BufTy).Contents (Elt F) → (⟨S8192x32, .f32⟩ : BufTy).Contents (Elt F)),
    StableHlo.binary main_v15 main_v15 main_v44 (mulf : (⟨S8192, .f32⟩ : BufTy).Contents (Elt F) → (⟨S8192, .f32⟩ : BufTy).Contents (Elt F) → (⟨S8192, .f32⟩ : BufTy).Contents (Elt F)),
    StableHlo.unary main_v44 main_v45 (broadcastInDim S8192x1 ![0] bcast_S8192_S8192x1_0 : (⟨S8192, .f32⟩ : BufTy).Contents (Elt F) → (⟨S8192x1, .f32⟩ : BufTy).Contents (Elt F)),
    StableHlo.unary main_v45 main_v46 (broadcastInDim S8192x32 ![0, 1] bcast_S8192x1_S8192x32_0_1 : (⟨S8192x1, .f32⟩ : BufTy).Contents (Elt F) → (⟨S8192x32, .f32⟩ : BufTy).Contents (Elt F)),
    StableHlo.binary main_v4 main_v46 main_v47 (mulf : (⟨S8192x32, .f32⟩ : BufTy).Contents (Elt F) → (⟨S8192x32, .f32⟩ : BufTy).Contents (Elt F) → (⟨S8192x32, .f32⟩ : BufTy).Contents (Elt F)),
    StableHlo.binary main_v43 main_v47 main_v48 (addf : (⟨S8192x32, .f32⟩ : BufTy).Contents (Elt F) → (⟨S8192x32, .f32⟩ : BufTy).Contents (Elt F) → (⟨S8192x32, .f32⟩ : BufTy).Contents (Elt F)),
    StableHlo.TRef.nullary main_call1.cst (constant S_ .f32 0x00000000#32),
    StableHlo.TRef.unary main_call1.cst main_call1.v0 (broadcastInDim S8192x32 ![] bcast_S_S8192x32),
    StableHlo.TRef.binary (.of main_v48 : StableHlo.TRef sig ⟨S8192x32, .f32⟩) main_call1.v0 main_call1.v1 maximumf,
    StableHlo.binary main_v49 main_arg6 main_v50 ((fun l r => Host.dotGeneral dot_S8192x32_S32x16_S8192x16_1_0_0_1_n_n none l r) : (⟨S8192x32, .f32⟩ : BufTy).Contents (Elt F) → (⟨S32x16, .f32⟩ : BufTy).Contents (Elt F) → (⟨S8192x16, .f32⟩ : BufTy).Contents (Elt F)),
    StableHlo.nullary main_cst_11 (constant S_ .f32 0x3F800000#32),
    StableHlo.unary main_cst_11 main_v51 (broadcastInDim S131072 ![] bcast_S_S131072 : (⟨S_, .f32⟩ : BufTy).Contents (Elt F) → (⟨S131072, .f32⟩ : BufTy).Contents (Elt F)),
    StableHlo.nullary main_cst_12 (constant S_ .f32 0x00000000#32),
    StableHlo.unary main_cst_12 main_v52 (broadcastInDim S8192 ![] bcast_S_S8192 : (⟨S_, .f32⟩ : BufTy).Contents (Elt F) → (⟨S8192, .f32⟩ : BufTy).Contents (Elt F)),
    StableHlo.unary main_v3 main_v53 (broadcastInDim S131072x1 ![0] bcast_S131072_S131072x1_0 : (⟨S131072, .i32⟩ : BufTy).Contents (Elt F) → (⟨S131072x1, .i32⟩ : BufTy).Contents (Elt F)),
    StableHlo.ternary main_v52 main_v53 main_v51 main_v54 ((fun x i u => Host.scatterAdd scatter_S8192_S131072x1_S131072_n_0_0_1 x i u) : (⟨S8192, .f32⟩ : BufTy).Contents (Elt F) → (⟨S131072x1, .i32⟩ : BufTy).Contents (Elt F) → (⟨S131072, .f32⟩ : BufTy).Contents (Elt F) → (⟨S8192, .f32⟩ : BufTy).Contents (Elt F)),
    StableHlo.nullary main_cst_13 (constant S_ .f32 0x3F800000#32),
    StableHlo.unary main_cst_13 main_v55 (broadcastInDim S8192 ![] bcast_S_S8192 : (⟨S_, .f32⟩ : BufTy).Contents (Elt F) → (⟨S8192, .f32⟩ : BufTy).Contents (Elt F)),
    StableHlo.binary main_v54 main_v55 main_v56 (addf : (⟨S8192, .f32⟩ : BufTy).Contents (Elt F) → (⟨S8192, .f32⟩ : BufTy).Contents (Elt F) → (⟨S8192, .f32⟩ : BufTy).Contents (Elt F)),
    StableHlo.nullary main_cst_14 (constant S_ .f32 0x00000000#32),
    StableHlo.unary main_cst_14 main_v57 (broadcastInDim S8192 ![] bcast_S_S8192 : (⟨S_, .f32⟩ : BufTy).Contents (Elt F) → (⟨S8192, .f32⟩ : BufTy).Contents (Elt F)),
    StableHlo.binary main_v56 main_v57 main_v58 (cmpf .ogt : (⟨S8192, .f32⟩ : BufTy).Contents (Elt F) → (⟨S8192, .f32⟩ : BufTy).Contents (Elt F) → (⟨S8192, .i1⟩ : BufTy).Contents (Elt F)),
    StableHlo.nullary main_cst_15 (constant S_ .f32 0xBF000000#32),
    StableHlo.unary main_cst_15 main_v59 (broadcastInDim S8192 ![] bcast_S_S8192 : (⟨S_, .f32⟩ : BufTy).Contents (Elt F) → (⟨S8192, .f32⟩ : BufTy).Contents (Elt F)),
    StableHlo.binary main_v56 main_v59 main_v60 (Host.powf : (⟨S8192, .f32⟩ : BufTy).Contents (Elt F) → (⟨S8192, .f32⟩ : BufTy).Contents (Elt F) → (⟨S8192, .f32⟩ : BufTy).Contents (Elt F)),
    StableHlo.nullary main_cst_16 (constant S_ .f32 0x00000000#32),
    StableHlo.TRef.unary (.of main_cst_16 : StableHlo.TRef sig ⟨S_, .f32⟩) main_call2.v0 id,
    StableHlo.TRef.unary main_call2.v0 main_call2.v1 (broadcastInDim S8192 ![] bcast_S_S8192),
    StableHlo.TRef.ternary (.of main_v58 : StableHlo.TRef sig ⟨S8192, .i1⟩) (.of main_v60 : StableHlo.TRef sig ⟨S8192, .f32⟩) main_call2.v1 main_call2.v2 select,
    StableHlo.nullary main_c_17 (constantI S_ 32 0#32),
    StableHlo.unary main_c_17 main_v62 (broadcastInDim S131072 ![] bcast_S_S131072 : (⟨S_, .i32⟩ : BufTy).Contents (Elt F) → (⟨S131072, .i32⟩ : BufTy).Contents (Elt F)),
    StableHlo.binary main_v1 main_v62 main_v63 (cmpi .slt : (⟨S131072, .i32⟩ : BufTy).Contents (Elt F) → (⟨S131072, .i32⟩ : BufTy).Contents (Elt F) → (⟨S131072, .i1⟩ : BufTy).Contents (Elt F)),
    StableHlo.nullary main_c_18 (constantI S_ 32 8192#32),
    StableHlo.unary main_c_18 main_v64 (broadcastInDim S131072 ![] bcast_S_S131072 : (⟨S_, .i32⟩ : BufTy).Contents (Elt F) → (⟨S131072, .i32⟩ : BufTy).Contents (Elt F)),
    StableHlo.binary main_v1 main_v64 main_v65 (addi : (⟨S131072, .i32⟩ : BufTy).Contents (Elt F) → (⟨S131072, .i32⟩ : BufTy).Contents (Elt F) → (⟨S131072, .i32⟩ : BufTy).Contents (Elt F)),
    StableHlo.ternary main_v63 main_v65 main_v1 main_v66 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v66 main_v67 (broadcastInDim S131072x1 ![0] bcast_S131072_S131072x1_0 : (⟨S131072, .i32⟩ : BufTy).Contents (Elt F) → (⟨S131072x1, .i32⟩ : BufTy).Contents (Elt F)),
    StableHlo.binary main_v61 main_v67 main_v68 ((fun x i => Host.gather gather_S8192_S131072x1_S131072_n_0_n_n_0_1_1 x i) : (⟨S8192, .f32⟩ : BufTy).Contents (Elt F) → (⟨S131072x1, .i32⟩ : BufTy).Contents (Elt F) → (⟨S131072, .f32⟩ : BufTy).Contents (Elt F)),
    StableHlo.nullary main_c_19 (constantI S_ 32 0#32),
    StableHlo.unary main_c_19 main_v69 (broadcastInDim S131072 ![] bcast_S_S131072 : (⟨S_, .i32⟩ : BufTy).Contents (Elt F) → (⟨S131072, .i32⟩ : BufTy).Contents (Elt F)),
    StableHlo.binary main_v3 main_v69 main_v70 (cmpi .slt : (⟨S131072, .i32⟩ : BufTy).Contents (Elt F) → (⟨S131072, .i32⟩ : BufTy).Contents (Elt F) → (⟨S131072, .i1⟩ : BufTy).Contents (Elt F)),
    StableHlo.nullary main_c_20 (constantI S_ 32 8192#32),
    StableHlo.unary main_c_20 main_v71 (broadcastInDim S131072 ![] bcast_S_S131072 : (⟨S_, .i32⟩ : BufTy).Contents (Elt F) → (⟨S131072, .i32⟩ : BufTy).Contents (Elt F)),
    StableHlo.binary main_v3 main_v71 main_v72 (addi : (⟨S131072, .i32⟩ : BufTy).Contents (Elt F) → (⟨S131072, .i32⟩ : BufTy).Contents (Elt F) → (⟨S131072, .i32⟩ : BufTy).Contents (Elt F)),
    StableHlo.ternary main_v70 main_v72 main_v3 main_v73 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v73 main_v74 (broadcastInDim S131072x1 ![0] bcast_S131072_S131072x1_0 : (⟨S131072, .i32⟩ : BufTy).Contents (Elt F) → (⟨S131072x1, .i32⟩ : BufTy).Contents (Elt F)),
    StableHlo.binary main_v61 main_v74 main_v75 ((fun x i => Host.gather gather_S8192_S131072x1_S131072_n_0_n_n_0_1_1 x i) : (⟨S8192, .f32⟩ : BufTy).Contents (Elt F) → (⟨S131072x1, .i32⟩ : BufTy).Contents (Elt F) → (⟨S131072, .f32⟩ : BufTy).Contents (Elt F)),
    StableHlo.binary main_v68 main_v75 main_v76 (mulf : (⟨S131072, .f32⟩ : BufTy).Contents (Elt F) → (⟨S131072, .f32⟩ : BufTy).Contents (Elt F) → (⟨S131072, .f32⟩ : BufTy).Contents (Elt F)),
    StableHlo.nullary main_c_21 (constantI S_ 32 0#32),
    StableHlo.unary main_c_21 main_v77 (broadcastInDim S131072 ![] bcast_S_S131072 : (⟨S_, .i32⟩ : BufTy).Contents (Elt F) → (⟨S131072, .i32⟩ : BufTy).Contents (Elt F)),
    StableHlo.binary main_v1 main_v77 main_v78 (cmpi .slt : (⟨S131072, .i32⟩ : BufTy).Contents (Elt F) → (⟨S131072, .i32⟩ : BufTy).Contents (Elt F) → (⟨S131072, .i1⟩ : BufTy).Contents (Elt F)),
    StableHlo.nullary main_c_22 (constantI S_ 32 8192#32),
    StableHlo.unary main_c_22 main_v79 (broadcastInDim S131072 ![] bcast_S_S131072 : (⟨S_, .i32⟩ : BufTy).Contents (Elt F) → (⟨S131072, .i32⟩ : BufTy).Contents (Elt F)),
    StableHlo.binary main_v1 main_v79 main_v80 (addi : (⟨S131072, .i32⟩ : BufTy).Contents (Elt F) → (⟨S131072, .i32⟩ : BufTy).Contents (Elt F) → (⟨S131072, .i32⟩ : BufTy).Contents (Elt F)),
    StableHlo.ternary main_v78 main_v80 main_v1 main_v81 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v81 main_v82 (broadcastInDim S131072x1 ![0] bcast_S131072_S131072x1_0 : (⟨S131072, .i32⟩ : BufTy).Contents (Elt F) → (⟨S131072x1, .i32⟩ : BufTy).Contents (Elt F)),
    StableHlo.binary main_v50 main_v82 main_v83 ((fun x i => Host.gather gather_S8192x16_S131072x1_S131072x16_1_0_n_n_0_1_116 x i) : (⟨S8192x16, .f32⟩ : BufTy).Contents (Elt F) → (⟨S131072x1, .i32⟩ : BufTy).Contents (Elt F) → (⟨S131072x16, .f32⟩ : BufTy).Contents (Elt F)),
    StableHlo.unary main_v76 main_v84 (broadcastInDim S131072x1 ![0] bcast_S131072_S131072x1_0 : (⟨S131072, .f32⟩ : BufTy).Contents (Elt F) → (⟨S131072x1, .f32⟩ : BufTy).Contents (Elt F)),
    StableHlo.unary main_v84 main_v85 (broadcastInDim S131072x16 ![0, 1] bcast_S131072x1_S131072x16_0_1 : (⟨S131072x1, .f32⟩ : BufTy).Contents (Elt F) → (⟨S131072x16, .f32⟩ : BufTy).Contents (Elt F)),
    StableHlo.binary main_v83 main_v85 main_v86 (mulf : (⟨S131072x16, .f32⟩ : BufTy).Contents (Elt F) → (⟨S131072x16, .f32⟩ : BufTy).Contents (Elt F) → (⟨S131072x16, .f32⟩ : BufTy).Contents (Elt F)),
    StableHlo.nullary main_cst_23 (constant S_ .f32 0x00000000#32),
    StableHlo.unary main_cst_23 main_v87 (broadcastInDim S8192x16 ![] bcast_S_S8192x16 : (⟨S_, .f32⟩ : BufTy).Contents (Elt F) → (⟨S8192x16, .f32⟩ : BufTy).Contents (Elt F)),
    StableHlo.unary main_v3 main_v88 (broadcastInDim S131072x1 ![0] bcast_S131072_S131072x1_0 : (⟨S131072, .i32⟩ : BufTy).Contents (Elt F) → (⟨S131072x1, .i32⟩ : BufTy).Contents (Elt F)),
    StableHlo.ternary main_v87 main_v88 main_v86 main_v89 ((fun x i u => Host.scatterAdd scatter_S8192x16_S131072x1_S131072x16_1_0_0_1 x i u) : (⟨S8192x16, .f32⟩ : BufTy).Contents (Elt F) → (⟨S131072x1, .i32⟩ : BufTy).Contents (Elt F) → (⟨S131072x16, .f32⟩ : BufTy).Contents (Elt F) → (⟨S8192x16, .f32⟩ : BufTy).Contents (Elt F)),
    StableHlo.binary main_v61 main_v61 main_v90 (mulf : (⟨S8192, .f32⟩ : BufTy).Contents (Elt F) → (⟨S8192, .f32⟩ : BufTy).Contents (Elt F) → (⟨S8192, .f32⟩ : BufTy).Contents (Elt F)),
    StableHlo.unary main_v90 main_v91 (broadcastInDim S8192x1 ![0] bcast_S8192_S8192x1_0 : (⟨S8192, .f32⟩ : BufTy).Contents (Elt F) → (⟨S8192x1, .f32⟩ : BufTy).Contents (Elt F)),
    StableHlo.unary main_v91 main_v92 (broadcastInDim S8192x16 ![0, 1] bcast_S8192x1_S8192x16_0_1 : (⟨S8192x1, .f32⟩ : BufTy).Contents (Elt F) → (⟨S8192x16, .f32⟩ : BufTy).Contents (Elt F)),
    StableHlo.binary main_v50 main_v92 main_v93 (mulf : (⟨S8192x16, .f32⟩ : BufTy).Contents (Elt F) → (⟨S8192x16, .f32⟩ : BufTy).Contents (Elt F) → (⟨S8192x16, .f32⟩ : BufTy).Contents (Elt F)),
    StableHlo.binary main_v89 main_v93 main_v94 (addf : (⟨S8192x16, .f32⟩ : BufTy).Contents (Elt F) → (⟨S8192x16, .f32⟩ : BufTy).Contents (Elt F) → (⟨S8192x16, .f32⟩ : BufTy).Contents (Elt F)),
    StableHlo.binary main_v49 main_arg7 main_v95 ((fun l r => Host.dotGeneral dot_S8192x32_S32x16_S8192x16_1_0_0_1_n_n none l r) : (⟨S8192x32, .f32⟩ : BufTy).Contents (Elt F) → (⟨S32x16, .f32⟩ : BufTy).Contents (Elt F) → (⟨S8192x16, .f32⟩ : BufTy).Contents (Elt F)),
    StableHlo.nullary main_cst_24 (constant S_ .f32 0x3F800000#32),
    StableHlo.unary main_cst_24 main_v96 (broadcastInDim S131072 ![] bcast_S_S131072 : (⟨S_, .f32⟩ : BufTy).Contents (Elt F) → (⟨S131072, .f32⟩ : BufTy).Contents (Elt F)),
    StableHlo.nullary main_cst_25 (constant S_ .f32 0x00000000#32),
    StableHlo.unary main_cst_25 main_v97 (broadcastInDim S8192 ![] bcast_S_S8192 : (⟨S_, .f32⟩ : BufTy).Contents (Elt F) → (⟨S8192, .f32⟩ : BufTy).Contents (Elt F)),
    StableHlo.unary main_v3 main_v98 (broadcastInDim S131072x1 ![0] bcast_S131072_S131072x1_0 : (⟨S131072, .i32⟩ : BufTy).Contents (Elt F) → (⟨S131072x1, .i32⟩ : BufTy).Contents (Elt F)),
    StableHlo.ternary main_v97 main_v98 main_v96 main_v99 ((fun x i u => Host.scatterAdd scatter_S8192_S131072x1_S131072_n_0_0_1 x i u) : (⟨S8192, .f32⟩ : BufTy).Contents (Elt F) → (⟨S131072x1, .i32⟩ : BufTy).Contents (Elt F) → (⟨S131072, .f32⟩ : BufTy).Contents (Elt F) → (⟨S8192, .f32⟩ : BufTy).Contents (Elt F)),
    StableHlo.nullary main_cst_26 (constant S_ .f32 0x3F800000#32),
    StableHlo.unary main_cst_26 main_v100 (broadcastInDim S8192 ![] bcast_S_S8192 : (⟨S_, .f32⟩ : BufTy).Contents (Elt F) → (⟨S8192, .f32⟩ : BufTy).Contents (Elt F)),
    StableHlo.binary main_v99 main_v100 main_v101 (addf : (⟨S8192, .f32⟩ : BufTy).Contents (Elt F) → (⟨S8192, .f32⟩ : BufTy).Contents (Elt F) → (⟨S8192, .f32⟩ : BufTy).Contents (Elt F)),
    StableHlo.nullary main_cst_27 (constant S_ .f32 0x00000000#32),
    StableHlo.unary main_cst_27 main_v102 (broadcastInDim S8192 ![] bcast_S_S8192 : (⟨S_, .f32⟩ : BufTy).Contents (Elt F) → (⟨S8192, .f32⟩ : BufTy).Contents (Elt F)),
    StableHlo.binary main_v101 main_v102 main_v103 (cmpf .ogt : (⟨S8192, .f32⟩ : BufTy).Contents (Elt F) → (⟨S8192, .f32⟩ : BufTy).Contents (Elt F) → (⟨S8192, .i1⟩ : BufTy).Contents (Elt F)),
    StableHlo.nullary main_cst_28 (constant S_ .f32 0xBF000000#32),
    StableHlo.unary main_cst_28 main_v104 (broadcastInDim S8192 ![] bcast_S_S8192 : (⟨S_, .f32⟩ : BufTy).Contents (Elt F) → (⟨S8192, .f32⟩ : BufTy).Contents (Elt F)),
    StableHlo.binary main_v101 main_v104 main_v105 (Host.powf : (⟨S8192, .f32⟩ : BufTy).Contents (Elt F) → (⟨S8192, .f32⟩ : BufTy).Contents (Elt F) → (⟨S8192, .f32⟩ : BufTy).Contents (Elt F)),
    StableHlo.nullary main_cst_29 (constant S_ .f32 0x00000000#32),
    StableHlo.TRef.unary (.of main_cst_29 : StableHlo.TRef sig ⟨S_, .f32⟩) main_call3.v0 id,
    StableHlo.TRef.unary main_call3.v0 main_call3.v1 (broadcastInDim S8192 ![] bcast_S_S8192),
    StableHlo.TRef.ternary (.of main_v103 : StableHlo.TRef sig ⟨S8192, .i1⟩) (.of main_v105 : StableHlo.TRef sig ⟨S8192, .f32⟩) main_call3.v1 main_call3.v2 select,
    StableHlo.nullary main_c_30 (constantI S_ 32 0#32),
    StableHlo.unary main_c_30 main_v107 (broadcastInDim S131072 ![] bcast_S_S131072 : (⟨S_, .i32⟩ : BufTy).Contents (Elt F) → (⟨S131072, .i32⟩ : BufTy).Contents (Elt F)),
    StableHlo.binary main_v1 main_v107 main_v108 (cmpi .slt : (⟨S131072, .i32⟩ : BufTy).Contents (Elt F) → (⟨S131072, .i32⟩ : BufTy).Contents (Elt F) → (⟨S131072, .i1⟩ : BufTy).Contents (Elt F)),
    StableHlo.nullary main_c_31 (constantI S_ 32 8192#32),
    StableHlo.unary main_c_31 main_v109 (broadcastInDim S131072 ![] bcast_S_S131072 : (⟨S_, .i32⟩ : BufTy).Contents (Elt F) → (⟨S131072, .i32⟩ : BufTy).Contents (Elt F)),
    StableHlo.binary main_v1 main_v109 main_v110 (addi : (⟨S131072, .i32⟩ : BufTy).Contents (Elt F) → (⟨S131072, .i32⟩ : BufTy).Contents (Elt F) → (⟨S131072, .i32⟩ : BufTy).Contents (Elt F)),
    StableHlo.ternary main_v108 main_v110 main_v1 main_v111 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v111 main_v112 (broadcastInDim S131072x1 ![0] bcast_S131072_S131072x1_0 : (⟨S131072, .i32⟩ : BufTy).Contents (Elt F) → (⟨S131072x1, .i32⟩ : BufTy).Contents (Elt F)),
    StableHlo.binary main_v106 main_v112 main_v113 ((fun x i => Host.gather gather_S8192_S131072x1_S131072_n_0_n_n_0_1_1 x i) : (⟨S8192, .f32⟩ : BufTy).Contents (Elt F) → (⟨S131072x1, .i32⟩ : BufTy).Contents (Elt F) → (⟨S131072, .f32⟩ : BufTy).Contents (Elt F)),
    StableHlo.nullary main_c_32 (constantI S_ 32 0#32),
    StableHlo.unary main_c_32 main_v114 (broadcastInDim S131072 ![] bcast_S_S131072 : (⟨S_, .i32⟩ : BufTy).Contents (Elt F) → (⟨S131072, .i32⟩ : BufTy).Contents (Elt F)),
    StableHlo.binary main_v3 main_v114 main_v115 (cmpi .slt : (⟨S131072, .i32⟩ : BufTy).Contents (Elt F) → (⟨S131072, .i32⟩ : BufTy).Contents (Elt F) → (⟨S131072, .i1⟩ : BufTy).Contents (Elt F)),
    StableHlo.nullary main_c_33 (constantI S_ 32 8192#32),
    StableHlo.unary main_c_33 main_v116 (broadcastInDim S131072 ![] bcast_S_S131072 : (⟨S_, .i32⟩ : BufTy).Contents (Elt F) → (⟨S131072, .i32⟩ : BufTy).Contents (Elt F)),
    StableHlo.binary main_v3 main_v116 main_v117 (addi : (⟨S131072, .i32⟩ : BufTy).Contents (Elt F) → (⟨S131072, .i32⟩ : BufTy).Contents (Elt F) → (⟨S131072, .i32⟩ : BufTy).Contents (Elt F)),
    StableHlo.ternary main_v115 main_v117 main_v3 main_v118 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v118 main_v119 (broadcastInDim S131072x1 ![0] bcast_S131072_S131072x1_0 : (⟨S131072, .i32⟩ : BufTy).Contents (Elt F) → (⟨S131072x1, .i32⟩ : BufTy).Contents (Elt F)),
    StableHlo.binary main_v106 main_v119 main_v120 ((fun x i => Host.gather gather_S8192_S131072x1_S131072_n_0_n_n_0_1_1 x i) : (⟨S8192, .f32⟩ : BufTy).Contents (Elt F) → (⟨S131072x1, .i32⟩ : BufTy).Contents (Elt F) → (⟨S131072, .f32⟩ : BufTy).Contents (Elt F)),
    StableHlo.binary main_v113 main_v120 main_v121 (mulf : (⟨S131072, .f32⟩ : BufTy).Contents (Elt F) → (⟨S131072, .f32⟩ : BufTy).Contents (Elt F) → (⟨S131072, .f32⟩ : BufTy).Contents (Elt F)),
    StableHlo.nullary main_c_34 (constantI S_ 32 0#32),
    StableHlo.unary main_c_34 main_v122 (broadcastInDim S131072 ![] bcast_S_S131072 : (⟨S_, .i32⟩ : BufTy).Contents (Elt F) → (⟨S131072, .i32⟩ : BufTy).Contents (Elt F)),
    StableHlo.binary main_v1 main_v122 main_v123 (cmpi .slt : (⟨S131072, .i32⟩ : BufTy).Contents (Elt F) → (⟨S131072, .i32⟩ : BufTy).Contents (Elt F) → (⟨S131072, .i1⟩ : BufTy).Contents (Elt F)),
    StableHlo.nullary main_c_35 (constantI S_ 32 8192#32),
    StableHlo.unary main_c_35 main_v124 (broadcastInDim S131072 ![] bcast_S_S131072 : (⟨S_, .i32⟩ : BufTy).Contents (Elt F) → (⟨S131072, .i32⟩ : BufTy).Contents (Elt F)),
    StableHlo.binary main_v1 main_v124 main_v125 (addi : (⟨S131072, .i32⟩ : BufTy).Contents (Elt F) → (⟨S131072, .i32⟩ : BufTy).Contents (Elt F) → (⟨S131072, .i32⟩ : BufTy).Contents (Elt F)),
    StableHlo.ternary main_v123 main_v125 main_v1 main_v126 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v126 main_v127 (broadcastInDim S131072x1 ![0] bcast_S131072_S131072x1_0 : (⟨S131072, .i32⟩ : BufTy).Contents (Elt F) → (⟨S131072x1, .i32⟩ : BufTy).Contents (Elt F)),
    StableHlo.binary main_v95 main_v127 main_v128 ((fun x i => Host.gather gather_S8192x16_S131072x1_S131072x16_1_0_n_n_0_1_116 x i) : (⟨S8192x16, .f32⟩ : BufTy).Contents (Elt F) → (⟨S131072x1, .i32⟩ : BufTy).Contents (Elt F) → (⟨S131072x16, .f32⟩ : BufTy).Contents (Elt F)),
    StableHlo.unary main_v121 main_v129 (broadcastInDim S131072x1 ![0] bcast_S131072_S131072x1_0 : (⟨S131072, .f32⟩ : BufTy).Contents (Elt F) → (⟨S131072x1, .f32⟩ : BufTy).Contents (Elt F)),
    StableHlo.unary main_v129 main_v130 (broadcastInDim S131072x16 ![0, 1] bcast_S131072x1_S131072x16_0_1 : (⟨S131072x1, .f32⟩ : BufTy).Contents (Elt F) → (⟨S131072x16, .f32⟩ : BufTy).Contents (Elt F)),
    StableHlo.binary main_v128 main_v130 main_v131 (mulf : (⟨S131072x16, .f32⟩ : BufTy).Contents (Elt F) → (⟨S131072x16, .f32⟩ : BufTy).Contents (Elt F) → (⟨S131072x16, .f32⟩ : BufTy).Contents (Elt F)),
    StableHlo.nullary main_cst_36 (constant S_ .f32 0x00000000#32),
    StableHlo.unary main_cst_36 main_v132 (broadcastInDim S8192x16 ![] bcast_S_S8192x16 : (⟨S_, .f32⟩ : BufTy).Contents (Elt F) → (⟨S8192x16, .f32⟩ : BufTy).Contents (Elt F)),
    StableHlo.unary main_v3 main_v133 (broadcastInDim S131072x1 ![0] bcast_S131072_S131072x1_0 : (⟨S131072, .i32⟩ : BufTy).Contents (Elt F) → (⟨S131072x1, .i32⟩ : BufTy).Contents (Elt F)),
    StableHlo.ternary main_v132 main_v133 main_v131 main_v134 ((fun x i u => Host.scatterAdd scatter_S8192x16_S131072x1_S131072x16_1_0_0_1 x i u) : (⟨S8192x16, .f32⟩ : BufTy).Contents (Elt F) → (⟨S131072x1, .i32⟩ : BufTy).Contents (Elt F) → (⟨S131072x16, .f32⟩ : BufTy).Contents (Elt F) → (⟨S8192x16, .f32⟩ : BufTy).Contents (Elt F)),
    StableHlo.binary main_v106 main_v106 main_v135 (mulf : (⟨S8192, .f32⟩ : BufTy).Contents (Elt F) → (⟨S8192, .f32⟩ : BufTy).Contents (Elt F) → (⟨S8192, .f32⟩ : BufTy).Contents (Elt F)),
    StableHlo.unary main_v135 main_v136 (broadcastInDim S8192x1 ![0] bcast_S8192_S8192x1_0 : (⟨S8192, .f32⟩ : BufTy).Contents (Elt F) → (⟨S8192x1, .f32⟩ : BufTy).Contents (Elt F)),
    StableHlo.unary main_v136 main_v137 (broadcastInDim S8192x16 ![0, 1] bcast_S8192x1_S8192x16_0_1 : (⟨S8192x1, .f32⟩ : BufTy).Contents (Elt F) → (⟨S8192x16, .f32⟩ : BufTy).Contents (Elt F)),
    StableHlo.binary main_v95 main_v137 main_v138 (mulf : (⟨S8192x16, .f32⟩ : BufTy).Contents (Elt F) → (⟨S8192x16, .f32⟩ : BufTy).Contents (Elt F) → (⟨S8192x16, .f32⟩ : BufTy).Contents (Elt F)),
    StableHlo.binary main_v134 main_v138 main_v139 (addf : (⟨S8192x16, .f32⟩ : BufTy).Contents (Elt F) → (⟨S8192x16, .f32⟩ : BufTy).Contents (Elt F) → (⟨S8192x16, .f32⟩ : BufTy).Contents (Elt F)),
    StableHlo.unary main_v139 main_v140 (Host.exp : (⟨S8192x16, .f32⟩ : BufTy).Contents (Elt F) → (⟨S8192x16, .f32⟩ : BufTy).Contents (Elt F)),
    StableHlo.binary main_arg3 main_v140 main_v141 (mulf : (⟨S8192x16, .f32⟩ : BufTy).Contents (Elt F) → (⟨S8192x16, .f32⟩ : BufTy).Contents (Elt F) → (⟨S8192x16, .f32⟩ : BufTy).Contents (Elt F)),
    StableHlo.binary main_v141 main_v94 main_v142 (addf : (⟨S8192x16, .f32⟩ : BufTy).Contents (Elt F) → (⟨S8192x16, .f32⟩ : BufTy).Contents (Elt F) → (⟨S8192x16, .f32⟩ : BufTy).Contents (Elt F)) ]

/-- From the embedding matrix to the loss total (30 operations). -/
abbrev opsB1 : List (HloOp τ sig (Elt F)) :=
  [ StableHlo.unary main_v142 main_v143 ((transpose S16x8192 [1, 0] · transposes_S8192x16_S16x8192_1_0) : (⟨S8192x16, .f32⟩ : BufTy).Contents (Elt F) → (⟨S16x8192, .f32⟩ : BufTy).Contents (Elt F)),
    StableHlo.binary main_v142 main_v143 main_v144 ((fun l r => Host.dotGeneral dot_S8192x16_S16x8192_S8192x8192_1_0_0_1_n_n none l r) : (⟨S8192x16, .f32⟩ : BufTy).Contents (Elt F) → (⟨S16x8192, .f32⟩ : BufTy).Contents (Elt F) → (⟨S8192x8192, .f32⟩ : BufTy).Contents (Elt F)),
    StableHlo.unary main_arg2 main_v145 (sitofp .f32 : (⟨S8192x8192, .i32⟩ : BufTy).Contents (Elt F) → (⟨S8192x8192, .f32⟩ : BufTy).Contents (Elt F)),
    StableHlo.unary main_v144 main_v146 (Host.negf : (⟨S8192x8192, .f32⟩ : BufTy).Contents (Elt F) → (⟨S8192x8192, .f32⟩ : BufTy).Contents (Elt F)),
    StableHlo.TRef.nullary main_call4.cst (constant S_ .f32 0x00000000#32),
    StableHlo.TRef.unary main_call4.cst main_call4.v0 (broadcastInDim S8192x8192 ![] bcast_S_S8192x8192),
    StableHlo.TRef.binary (.of main_v146 : StableHlo.TRef sig ⟨S8192x8192, .f32⟩) main_call4.v0 main_call4.v1 maximumf,
    StableHlo.TRef.unary main_call4.cst main_call4.v2 (broadcastInDim S8192x8192 ![] bcast_S_S8192x8192),
    StableHlo.TRef.binary (.of main_v146 : StableHlo.TRef sig ⟨S8192x8192, .f32⟩) main_call4.v2 main_call4.v3 subf,
    StableHlo.TRef.binary main_call4.v3 main_call4.v3 main_call4.v4 (cmpf .une),
    StableHlo.TRef.unary main_call4.cst main_call4.v5 (broadcastInDim S8192x8192 ![] bcast_S_S8192x8192),
    StableHlo.TRef.binary (.of main_v146 : StableHlo.TRef sig ⟨S8192x8192, .f32⟩) main_call4.v5 main_call4.v6 addf,
    StableHlo.TRef.unary main_call4.v3 main_call4.v7 Host.absf,
    StableHlo.TRef.unary main_call4.v7 main_call4.v8 Host.negf,
    StableHlo.TRef.unary main_call4.v8 main_call4.v9 Host.exp,
    StableHlo.TRef.unary main_call4.v9 main_call4.v10 Host.log1p,
    StableHlo.TRef.binary main_call4.v1 main_call4.v10 main_call4.v11 addf,
    StableHlo.TRef.ternary main_call4.v4 main_call4.v6 main_call4.v11 main_call4.v12 select,
    StableHlo.nullary main_cst_37 (constant S_ .f32 0x41200000#32),
    StableHlo.unary main_cst_37 main_v148 (broadcastInDim S8192x8192 ![] bcast_S_S8192x8192 : (⟨S_, .f32⟩ : BufTy).Contents (Elt F) → (⟨S8192x8192, .f32⟩ : BufTy).Contents (Elt F)),
    StableHlo.binary main_v148 main_v145 main_v149 (mulf : (⟨S8192x8192, .f32⟩ : BufTy).Contents (Elt F) → (⟨S8192x8192, .f32⟩ : BufTy).Contents (Elt F) → (⟨S8192x8192, .f32⟩ : BufTy).Contents (Elt F)),
    StableHlo.binary main_v149 main_v147 main_v150 (mulf : (⟨S8192x8192, .f32⟩ : BufTy).Contents (Elt F) → (⟨S8192x8192, .f32⟩ : BufTy).Contents (Elt F) → (⟨S8192x8192, .f32⟩ : BufTy).Contents (Elt F)),
    StableHlo.nullary main_cst_38 (constant S_ .f32 0x3F800000#32),
    StableHlo.unary main_cst_38 main_v151 (broadcastInDim S8192x8192 ![] bcast_S_S8192x8192 : (⟨S_, .f32⟩ : BufTy).Contents (Elt F) → (⟨S8192x8192, .f32⟩ : BufTy).Contents (Elt F)),
    StableHlo.binary main_v151 main_v145 main_v152 (subf : (⟨S8192x8192, .f32⟩ : BufTy).Contents (Elt F) → (⟨S8192x8192, .f32⟩ : BufTy).Contents (Elt F) → (⟨S8192x8192, .f32⟩ : BufTy).Contents (Elt F)),
    StableHlo.binary main_v144 main_v147 main_v153 (addf : (⟨S8192x8192, .f32⟩ : BufTy).Contents (Elt F) → (⟨S8192x8192, .f32⟩ : BufTy).Contents (Elt F) → (⟨S8192x8192, .f32⟩ : BufTy).Contents (Elt F)),
    StableHlo.binary main_v152 main_v153 main_v154 (mulf : (⟨S8192x8192, .f32⟩ : BufTy).Contents (Elt F) → (⟨S8192x8192, .f32⟩ : BufTy).Contents (Elt F) → (⟨S8192x8192, .f32⟩ : BufTy).Contents (Elt F)),
    StableHlo.binary main_v150 main_v154 main_v155 (addf : (⟨S8192x8192, .f32⟩ : BufTy).Contents (Elt F) → (⟨S8192x8192, .f32⟩ : BufTy).Contents (Elt F) → (⟨S8192x8192, .f32⟩ : BufTy).Contents (Elt F)),
    StableHlo.nullary main_cst_39 (constant S_ .f32 0x00000000#32),
    StableHlo.binary main_v155 main_cst_39 main_v156 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)) ]

/-- From the loss total to the scalar result (24 operations). -/
abbrev opsB2 : List (HloOp τ sig (Elt F)) :=
  [ StableHlo.nullary main_cst_40 (constant S_ .f32 0x4C800000#32),
    StableHlo.binary main_v156 main_cst_40 main_v157 (Host.divf : (⟨S_, .f32⟩ : BufTy).Contents (Elt F) → (⟨S_, .f32⟩ : BufTy).Contents (Elt F) → (⟨S_, .f32⟩ : BufTy).Contents (Elt F)),
    StableHlo.reshape main_arg4 main_v158 rfl shapeCasts_S1_S_,
    StableHlo.binary main_v158 main_v157 main_v159 (mulf : (⟨S_, .f32⟩ : BufTy).Contents (Elt F) → (⟨S_, .f32⟩ : BufTy).Contents (Elt F) → (⟨S_, .f32⟩ : BufTy).Contents (Elt F)),
    StableHlo.nullary main_cst_41 (constant S_ .f32 0x40000000#32),
    StableHlo.unary main_cst_41 main_v160 (broadcastInDim S8192x16 ![] bcast_S_S8192x16 : (⟨S_, .f32⟩ : BufTy).Contents (Elt F) → (⟨S8192x16, .f32⟩ : BufTy).Contents (Elt F)),
    StableHlo.binary main_v160 main_v139 main_v161 (mulf : (⟨S8192x16, .f32⟩ : BufTy).Contents (Elt F) → (⟨S8192x16, .f32⟩ : BufTy).Contents (Elt F) → (⟨S8192x16, .f32⟩ : BufTy).Contents (Elt F)),
    StableHlo.nullary main_cst_42 (constant S_ .f32 0x3F800000#32),
    StableHlo.unary main_cst_42 main_v162 (broadcastInDim S8192x16 ![] bcast_S_S8192x16 : (⟨S_, .f32⟩ : BufTy).Contents (Elt F) → (⟨S8192x16, .f32⟩ : BufTy).Contents (Elt F)),
    StableHlo.binary main_v162 main_v161 main_v163 (addf : (⟨S8192x16, .f32⟩ : BufTy).Contents (Elt F) → (⟨S8192x16, .f32⟩ : BufTy).Contents (Elt F) → (⟨S8192x16, .f32⟩ : BufTy).Contents (Elt F)),
    StableHlo.binary main_v94 main_v94 main_v164 (mulf : (⟨S8192x16, .f32⟩ : BufTy).Contents (Elt F) → (⟨S8192x16, .f32⟩ : BufTy).Contents (Elt F) → (⟨S8192x16, .f32⟩ : BufTy).Contents (Elt F)),
    StableHlo.binary main_v163 main_v164 main_v165 (subf : (⟨S8192x16, .f32⟩ : BufTy).Contents (Elt F) → (⟨S8192x16, .f32⟩ : BufTy).Contents (Elt F) → (⟨S8192x16, .f32⟩ : BufTy).Contents (Elt F)),
    StableHlo.unary main_v139 main_v166 (Host.exp : (⟨S8192x16, .f32⟩ : BufTy).Contents (Elt F) → (⟨S8192x16, .f32⟩ : BufTy).Contents (Elt F)),
    StableHlo.binary main_v166 main_v166 main_v167 (mulf : (⟨S8192x16, .f32⟩ : BufTy).Contents (Elt F) → (⟨S8192x16, .f32⟩ : BufTy).Contents (Elt F) → (⟨S8192x16, .f32⟩ : BufTy).Contents (Elt F)),
    StableHlo.binary main_v165 main_v167 main_v168 (subf : (⟨S8192x16, .f32⟩ : BufTy).Contents (Elt F) → (⟨S8192x16, .f32⟩ : BufTy).Contents (Elt F) → (⟨S8192x16, .f32⟩ : BufTy).Contents (Elt F)),
    StableHlo.nullary main_cst_43 (constant S_ .f32 0x00000000#32),
    StableHlo.binary main_v168 main_cst_43 main_v169 ((fun x v => Host.reduceAdd x v reducesTo_S8192x16_S8192_d1 h_S_) : (⟨S8192x16, .f32⟩ : BufTy).Contents (Elt F) → (⟨S_, .f32⟩ : BufTy).Contents (Elt F) → (⟨S8192, .f32⟩ : BufTy).Contents (Elt F)),
    StableHlo.nullary main_cst_44 (constant S_ .f32 0x00000000#32),
    StableHlo.binary main_v169 main_cst_44 main_v170 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_45 (constant S_ .f32 0x46000000#32),
    StableHlo.binary main_v170 main_cst_45 main_v171 (Host.divf : (⟨S_, .f32⟩ : BufTy).Contents (Elt F) → (⟨S_, .f32⟩ : BufTy).Contents (Elt F) → (⟨S_, .f32⟩ : BufTy).Contents (Elt F)),
    StableHlo.nullary main_cst_46 (constant S_ .f32 0xB8800000#32),
    StableHlo.binary main_cst_46 main_v171 main_v172 (mulf : (⟨S_, .f32⟩ : BufTy).Contents (Elt F) → (⟨S_, .f32⟩ : BufTy).Contents (Elt F) → (⟨S_, .f32⟩ : BufTy).Contents (Elt F)),
    StableHlo.binary main_v159 main_v172 main_v173 (addf : (⟨S_, .f32⟩ : BufTy).Contents (Elt F) → (⟨S_, .f32⟩ : BufTy).Contents (Elt F) → (⟨S_, .f32⟩ : BufTy).Contents (Elt F)) ]

abbrev ops : List (HloOp τ sig (Elt F)) := opsA ++ (opsB1 ++ opsB2)

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.binary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.binary_bufs_sub ..⟩
theorem opsB1_sub : (opsB1 : List (HloOp τ sig (Elt F))).Forall fun op => op.bufs ⊆ tcRefs τ sig :=
  ⟨StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.binary_bufs_sub ..⟩
theorem opsB2_sub : (opsB2 : List (HloOp τ sig (Elt F))).Forall fun op => op.bufs ⊆ tcRefs τ sig :=
  ⟨StableHlo.nullary_bufs_sub .., StableHlo.binary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub ..⟩
theorem ops_sub : (ops : List (HloOp τ sig (Elt F))).Forall fun op => op.bufs ⊆ tcRefs τ sig :=
  List.forall_iff_forall_mem.mpr fun op h => by
    rcases List.mem_append.mp h with h | h
    · exact List.forall_iff_forall_mem.mp opsA_sub op h
    · rcases List.mem_append.mp h with h | h
      · exact List.forall_iff_forall_mem.mp opsB1_sub op h
      · exact List.forall_iff_forall_mem.mp opsB2_sub op h

/-- Every weakly fair execution of @main terminates, each buffer at the line's result from the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Line

end
-- ==== Proof.Bridge.Tail.lean ====
/-
  The two programs' common ending.

  After the loss total both programs do the same 24 host operations: divide the total by the number of pairs, scale by
  the norm, compute the divergence term from the log-variance and mean matrices, and add. In the kernel's program the
  total first has to be taken out of the output row (a slice of its first lane, recast as a scalar): those two
  operations are set apart. From contents that agree on the total, the norm, the log-variance and the mean the 24
  operations leave the same scalar.
-/
import proofs.«119214_j14955076125211_1_alg».proof.Proof.Gen.KernelIdeal.Launch
import proofs.«119214_j14955076125211_1_alg».proof.Proof.Ref.Line
import Idealize.ShloMosaic.PureOps.Ideal

set_option maxRecDepth 16384

noncomputable section

namespace Cert.Bridge

open Idealize.ShloMosaic Idealize.ShloMosaic.TcCoe Idealize.SL.Sem Idealize.ShloMosaic.StableHlo

/-- The kernel program's lines after the region: the two that take the total out of the output row, -/
abbrev headK : List (HloOp Cert.KernelIdeal.τ Cert.KernelIdeal.sig (Elt Ideal)) := (Cert.KernelIdeal.Gen.hostOps1 (F := Ideal)).take 2
/-- and the 24 it shares with the reference. -/
abbrev tailK : List (HloOp Cert.KernelIdeal.τ Cert.KernelIdeal.sig (Elt Ideal)) := (Cert.KernelIdeal.Gen.hostOps1 (F := Ideal)).drop 2

theorem hostOps1_split (W : Valuation Cert.KernelIdeal.τ Cert.KernelIdeal.sig (Elt Ideal)) :
    after (Cert.KernelIdeal.Gen.hostOps1 (F := Ideal)) W = after tailK (after headK W) := rfl

/-- The two programs' contents agree on what the ending reads. -/
structure TailAgree (WK : Valuation Cert.KernelIdeal.τ Cert.KernelIdeal.sig (Elt Ideal)) (WR : Valuation Cert.ReferenceIdeal.τ Cert.ReferenceIdeal.sig (Elt Ideal)) : Prop where
  total : WR (Proc.devRef .tc Cert.ReferenceIdeal.main_v156) = WK (Proc.devRef .tc Cert.KernelIdeal.main_v145)
  norm : WR (Proc.devRef .tc Cert.ReferenceIdeal.main_arg4) = WK (Proc.devRef .tc Cert.KernelIdeal.main_arg4)
  logvar : WR (Proc.devRef .tc Cert.ReferenceIdeal.main_v139) = WK (Proc.devRef .tc Cert.KernelIdeal.main_v139)
  mean : WR (Proc.devRef .tc Cert.ReferenceIdeal.main_v94) = WK (Proc.devRef .tc Cert.KernelIdeal.main_v94)

set_option maxHeartbeats 4000000 in
theorem tail_agree (WK : Valuation Cert.KernelIdeal.τ Cert.KernelIdeal.sig (Elt Ideal)) (WR : Valuation Cert.ReferenceIdeal.τ Cert.ReferenceIdeal.sig (Elt Ideal)) (h : TailAgree WK WR) :
    (after tailK WK (Proc.devRef .tc Cert.KernelIdeal.main_v162) : FVec Ideal ⟨0, ![]⟩ .f32)
      = after (Cert.ReferenceIdeal.Line.opsB2 (F := Ideal)) WR (Proc.devRef .tc Cert.ReferenceIdeal.main_v173) := by
  simp only [tailK, Cert.KernelIdeal.Gen.hostOps1, List.drop_succ_cons, List.drop_zero, Cert.ReferenceIdeal.Line.opsB2]
  after_results_simp
  simp only [h.total, h.norm, h.logvar, h.mean]
  rfl

end Cert.Bridge

end
-- ==== Proof.KI.Value.lean ====
/-
  What the kernel leaves in its output row, as a chain over the grid's points.

  Each point's body computes, from the point's three blocks, a column of 1024 row totals (the payload of the first
  part), adds them up, and adds that one number to every lane of the output row. So after point 0 the row holds
  (zeros + total 0) and after point n + 1 what it held after point n plus total (n + 1); the one write-back, after the
  last point, copies the row into the result array, of which it is the only block.
-/
import proofs.«119214_j14955076125211_1_alg».proof.Proof.KI.Run
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- CASE B: over the running contents xo the body leaves xo plus the block's total in every lane: its one store's
    payload, whose loads read the whole buffers. -/
theorem outB_eq (c : Dev nD) (i : grid0.Coords)
    (a2 : Memref sig .tc .vmem S1024x16 .f32) (h2 : a2.IsWhole) (a3 : Memref sig .tc .vmem S512x16 .f32) (h3 : a3.IsWhole)
    (a4 : Memref sig .tc .vmem S1024x512 .i32) (h4 : a4.IsWhole) (a5 : Memref sig .tc .vmem S1x128 .f32) (h5 : a5.IsWhole)
    (hc : ¬isFirst i) (x0 : Vec F S1024x16 .f32) (x1 : Vec F S512x16 .f32) (x2 : Vec F S1024x512 .i32) (xo : Vec F S1x128 .f32) :
    outB c i a2 h2 a3 h3 a4 h4 a5 h5 hc x0 x1 x2 xo = k0_pay1 (k0_pay3 x0 x1 x2) xo := by
  unfold outB
  rw [View.read_writes_eq_canon _ _ _ (coverB c i a2 h2 a3 h3 a4 h4 a5 h5 hc x0 x1 x2 xo)]
  unfold runB
  dsimp only
  rw [View.canon_unit_zero hz]
  simp only [View.readAt_eq_ld, h2.read_unread, h3.read_unread, h4.read_unread, h5.read_unread,
    View.ld_unit_zero (S := S1024x16) hz, View.ld_unit_zero (S := S512x16) hz, View.ld_unit_zero (S := S1024x512) hz,
    View.ld_unit_zero (S := S1x128) hz]

/-- CASE A: the body stores the zero row, reads it back, and leaves zeros plus the block's total. -/
theorem outA_eq (c : Dev nD) (i : grid0.Coords)
    (a2 : Memref sig .tc .vmem S1024x16 .f32) (h2 : a2.IsWhole) (a3 : Memref sig .tc .vmem S512x16 .f32) (h3 : a3.IsWhole)
    (a4 : Memref sig .tc .vmem S1024x512 .i32) (h4 : a4.IsWhole) (a5 : Memref sig .tc .vmem S1x128 .f32) (h5 : a5.IsWhole)
    (hc : isFirst i) (x0 : Vec F S1024x16 .f32) (x1 : Vec F S512x16 .f32) (x2 : Vec F S1024x512 .i32) :
    outA c i a2 h2 a3 h3 a4 h4 a5 h5 hc x0 x1 x2 = k0_pay1 (k0_pay3 x0 x1 x2) (k0_pay2 (F := F)) := by
  unfold outA
  rw [View.read_writes_eq_canon _ _ _ (coverA c i a2 h2 a3 h3 a4 h4 a5 h5 hc x0 x1 x2)]
  unfold runA
  dsimp only
  sl_unfold_words
  rw [View.canon_cons_unit_zero (S := S1x128) hz, View.readCov_unit_zero (S := S1x128) _ hz]
  simp only [View.readAt_eq_ld, h2.read_unread, h3.read_unread, h4.read_unread,
    View.ld_unit_zero (S := S1024x16) hz, View.ld_unit_zero (S := S512x16) hz, View.ld_unit_zero (S := S1024x512) hz,
    View.ld_unit_zero (S := S1x128) hz]

/-- The column of row totals the body computes at point t. -/
def rowTotals (c : Dev nD) (t : Fin cfg0.N) : FVec F S1024x1 .f32 :=
  k0_pay3 (iblk m c 0 t) (iblk m c 1 t) (iblk m c 2 t)

/-- The running row after point n. -/
def chain (c : Dev nD) : (n : ℕ) → n < cfg0.N → Vec F S1x128 .f32
  | 0, h => k0_pay1 (rowTotals m c ⟨0, h⟩) (k0_pay2 (F := F))
  | n + 1, h => k0_pay1 (rowTotals m c ⟨n + 1, h⟩) (chain c n (Nat.lt_of_succ_lt h))

theorem accAt_eq (c : Dev nD) : ∀ (n : ℕ) (h : n < cfg0.N), accAt m c n h = chain m c n h
  | 0, h => (accAt_first m c ⟨0, h⟩ rfl).trans (outA_eq ..)
  | n + 1, h => by
    rw [accAt_later m c ⟨n + 1, h⟩ (Nat.succ_ne_zero n), outB_eq]
    show k0_pay1 _ (accAt m c n _) = k0_pay1 _ (chain m c n _)
    rw [accAt_eq c n]
    rfl

theorem lastLt : 127 < cfg0.N := by rw [show cfg0.N = 128 from N_0]; decide

/-- The result row: the running row after the last point. -/
abbrev resultRow (c : Dev nD) : Buf (Elt F) ((c : Thread nD τ).loc main_v143) := chain m c 127 lastLt

/-- The one write-back, at point 127, writes it: block (0, 0) of the [1, 128] array is the array. -/
theorem flushed_eq (c : Dev nD) (t : Fin cfg0.N) (hf : (cfg0.win 3).flush t = true) :
    (dats m 0 c).flushed 3 t = ((cfg0.win 3).blk t).view.read (Elt F) (resultRow m c) := by
  have hN : cfg0.N = 128 := N_0
  have h3 : t.val = 127 := by have := (flush0_3 t).mp hf; have := t.isLt; omega
  obtain rfl : t = ⟨127, lastLt⟩ := Fin.ext h3
  show (cfg0.win 3).cut (grid0.coords ⟨127, lastLt⟩) ((dats m 0 c).after 3 ⟨127, lastLt⟩) = _
  rw [after3, accAt_eq]
  have hz' : (fun a => win0_3.index ⟨127, lastLt⟩ a * main_v143.ty.shape.size a) = fun _ => 0 := funext fun a => by fin_cases a <;> decide
  exact (Memref.read_access_unit_zero (Elt F) main_v143 hz' (fun a => by rw [congrFun hz' a]; simp) (resultRow m c)).symm

/-- So the result array ends holding the running row after the last point. -/
theorem final_out (c : Dev nD) : (dats m 0 c).arrAt 3 cfg0.N = resultRow m c :=
  (dats m 0 c).arrAt_eq_of_cover 3 (resultRow m c) (flushed_eq m c) fun i =>
    ⟨⟨127, lastLt⟩, (flush0_3 ⟨127, lastLt⟩).mpr rfl, by
      show i ∈ ((View.whole main_v143).slice (win0_3.rect ⟨127, lastLt⟩)).set
      rw [View.set_slice_whole, Rect.mem_set_unit]
      intro a
      have h0 : (i 0 : Nat) < 1 := (i 0).isLt
      have h1 : (i 1 : Nat) < 128 := (i 1).isLt
      match a with
      | ⟨0, _⟩ => show win0_3.index ⟨127, lastLt⟩ 0 * win0_3.size 0 ≤ (i 0 : Nat) ∧ (i 0 : Nat) < win0_3.index ⟨127, lastLt⟩ 0 * win0_3.size 0 + win0_3.xsize (grid0.coords ⟨127, lastLt⟩) 0
                  rw [show win0_3.index ⟨127, lastLt⟩ 0 * win0_3.size 0 = 0 from by decide +kernel, show win0_3.xsize (grid0.coords ⟨127, lastLt⟩) 0 = 1 from by decide +kernel]; omega
      | ⟨1, _⟩ => show win0_3.index ⟨127, lastLt⟩ 1 * win0_3.size 1 ≤ (i 1 : Nat) ∧ (i 1 : Nat) < win0_3.index ⟨127, lastLt⟩ 1 * win0_3.size 1 + win0_3.xsize (grid0.coords ⟨127, lastLt⟩) 1
                  rw [show win0_3.index ⟨127, lastLt⟩ 1 * win0_3.size 1 = 0 from by decide +kernel, show win0_3.xsize (grid0.coords ⟨127, lastLt⟩) 1 = 128 from by decide +kernel]; omega⟩

end Cert.KernelIdeal.Fr

end
-- ==== Proof.Spec.lean ====
/-
  The mathematics shared by the two programs, over the extended reals.

  * THE LOSS TERM. At one entry, from the inner product L of two embedding rows (the logit) and the integer label y, both
    programs compute 10 y sp(-L) + (1 - y)(L + sp(-L)), where sp(a) = max(a, 0) + log(1 + exp(-|a - 0|)), guarded by a
    test "a - 0 is not itself" that no extended real meets. The tiled program writes the negations as 0 - x where the
    whole-matrix program writes -x; these agree on every extended real, the infinities included.
  * THE SUM OVER TILES. The 8192 x 8192 index square is cut into an 8 x 16 grid of 1024 x 512 tiles, walked row by row.
    Summing, over the tiles in that order, each tile's double sum gives the double sum over the square: addition of
    extended reals is commutative and associative, so only a re-indexing is needed, and no finiteness.
-/
import Idealize.ShloMosaic.PureOps.Ideal
import Idealize.ShloMosaic.PureOps.Ideal.Laws
import Mathlib.Algebra.BigOperators.Fin
import Mathlib.Logic.Equiv.Fin.Basic

noncomputable section

namespace Cert.Bce

open Idealize.ShloMosaic

/-! ## The loss term at one entry -/

/-- As the whole-matrix program computes it. -/
def lossRef (L : Ideal .f32) (yb : BitVec 32) : Ideal .f32 :=
  let Z : Ideal .f32 := FloatOps.ofBits .f32 0x00000000#32
  let a : Ideal .f32 := FloatOps.hostNegf L
  let d : Ideal .f32 := FloatOps.subf a Z
  let sp : Ideal .f32 := Scalar.select (FloatOps.cmpf .une d d) (FloatOps.addf a Z)
    (FloatOps.addf (FloatOps.maximumf a Z) (FloatOps.hostUnary .log1p (FloatOps.hostUnary .exp (FloatOps.hostNegf (FloatOps.hostAbsf d)))))
  let y : Ideal .f32 := FloatOps.sitofp .f32 yb
  FloatOps.addf (FloatOps.mulf (FloatOps.mulf (FloatOps.ofBits .f32 0x41200000#32) y) sp)
    (FloatOps.mulf (FloatOps.subf (FloatOps.ofBits .f32 0x3F800000#32) y) (FloatOps.addf L sp))

/-- As the tiled program computes it. -/
def lossKer (L : Ideal .f32) (yb : BitVec 32) : Ideal .f32 :=
  let Z : Ideal .f32 := FloatOps.ofBits .f32 0x00000000#32
  let a : Ideal .f32 := FloatOps.subf Z L
  let d : Ideal .f32 := FloatOps.subf a Z
  let sp : Ideal .f32 := Scalar.select (FloatOps.cmpf .one d d) (FloatOps.addf a Z)
    (FloatOps.addf (FloatOps.maximumf a Z) (FloatOps.log1p (FloatOps.exp (FloatOps.subf Z (FloatOps.absf d)))))
  let y : Ideal .f32 := FloatOps.sitofp .f32 yb
  FloatOps.addf (FloatOps.mulf (FloatOps.mulf (FloatOps.ofBits .f32 0x41200000#32) y) sp)
    (FloatOps.mulf (FloatOps.subf (FloatOps.ofBits .f32 0x3F800000#32) y) (FloatOps.addf L sp))

/-- Zero minus x is minus x, on every extended real. -/
theorem zero_sub_ereal (x : EReal) : (0 : EReal) - x = -x := by rw [sub_eq_add_neg, zero_add]

/-- The two are one function: 0 - x = -x, and "ordered and unequal" and "unordered or unequal" are the same test where
    every pair is ordered. -/
theorem lossKer_eq (L : Ideal .f32) (yb : BitVec 32) : lossKer L yb = lossRef L yb := by
  have hZ : (FloatOps.ofBits (F := Ideal) .f32 0x00000000#32 : Ideal .f32) = (0 : EReal) := Ideal.ofBits_zero_f32
  have hcmp : ∀ d : Ideal .f32, FloatOps.cmpf (F := Ideal) .one d d = FloatOps.cmpf (F := Ideal) .une d d := fun _ => rfl
  unfold lossKer lossRef
  simp only [hcmp, hZ, Ideal.subf_def, Ideal.hostNegf_def, Ideal.negf_def, Ideal.hostAbsf_def, Ideal.hostUnary_exp_def,
    Ideal.hostUnary_log1p_def, Ideal.exp_def, Ideal.log1p_def, zero_sub_ereal]

/-! ## The sum over tiles -/

/-- Tile t's row r and column c, as positions in the square: tile t sits at block row t / 16 and block column t % 16. -/
def tileRow (t : Fin 128) (r : Fin 1024) : Fin 8192 := ⟨1024 * (t.val / 16) + r.val, by have := t.isLt; have := r.isLt; omega⟩
def tileCol (t : Fin 128) (c : Fin 512) : Fin 8192 := ⟨512 * (t.val % 16) + c.val, by have := t.isLt; have := c.isLt; omega⟩

/-- Every position of the square lies in exactly one tile, at one place in it. -/
def tileEquiv : (Fin 128 × Fin 1024 × Fin 512) ≃ (Fin 8192 × Fin 8192) where
  toFun x := (tileRow x.1 x.2.1, tileCol x.1 x.2.2)
  invFun y := (⟨16 * (y.1.val / 1024) + y.2.val / 512, by have := y.1.isLt; have := y.2.isLt; omega⟩,
    ⟨y.1.val % 1024, Nat.mod_lt _ (by decide)⟩, ⟨y.2.val % 512, Nat.mod_lt _ (by decide)⟩)
  left_inv x := by
    obtain ⟨t, r, c⟩ := x
    have := t.isLt; have := r.isLt; have := c.isLt
    refine Prod.ext (Fin.ext ?_) (Prod.ext (Fin.ext ?_) (Fin.ext ?_)) <;> simp only [tileRow, tileCol] <;> omega
  right_inv y := by
    obtain ⟨i, j⟩ := y
    have := i.isLt; have := j.isLt
    refine Prod.ext (Fin.ext ?_) (Fin.ext ?_) <;> simp only [tileRow, tileCol] <;> omega

/-- The sum over the tiles of each tile's double sum is the double sum over the square. -/
theorem sum_tiles {M : Type*} [AddCommMonoid M] (f : Fin 8192 → Fin 8192 → M) :
    ∑ t : Fin 128, ∑ r : Fin 1024, ∑ c : Fin 512, f (tileRow t r) (tileCol t c) = ∑ i : Fin 8192, ∑ j : Fin 8192, f i j := by
  rw [← Fintype.sum_prod_type' (f := f)]
  simp_rw [← Fintype.sum_prod_type' (f := fun r c => f (tileRow _ r) (tileCol _ c))]
  rw [← Fintype.sum_prod_type' (f := fun t (x : Fin 1024 × Fin 512) => f (tileRow t x.1) (tileCol t x.2))]
  exact Fintype.sum_equiv tileEquiv _ _ fun _ => rfl

end Cert.Bce

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.KI.Sum.lean ====
/-
  The kernel's result, at the exact extended reals, as one double sum over the whole label matrix.

  * The last payload adds, to every lane of the row it is given, the total of the column of row totals it is given.
  * The first payload's row total at row r is the sum, over the tile's 512 columns c, of the loss term of the logit
    (the inner product of row r of the first block with row c of the second: a matrix product with the second operand
    transposed, accumulated into zero, the change of float format being the identity here) and of the label at (r, c).
  * So after the last point every lane of the row holds zero plus the sum over the 128 tiles of each tile's double sum;
    the tiles' blocks are the entries of the whole arrays at the tile's offsets; and the sum over the tiles is the sum
    over the square.
-/
import proofs.«119214_j14955076125211_1_alg».proof.Proof.KI.Value
import proofs.«119214_j14955076125211_1_alg».proof.Proof.Spec
import proofs.«119214_j14955076125211_1_alg».proof.Proof.LibColumn
import Idealize.ShloMosaic.Lib.ValueIdx
import Idealize.ShloMosaic.PureOps.Ideal.Laws

set_option maxRecDepth 16384

noncomputable section

namespace Cert.KernelIdeal.Sm

open Cert.KernelIdeal Cert.KernelIdeal.Gen Cert.KernelIdeal.Fr
open Idealize.ShloMosaic Idealize.ShloMosaic.TcCoe Idealize.ShloMosaic.ValueIdx Idealize.SL.Sem
open Cert.Bce

/-! ## The last payload at a lane -/

/-- Reading position (0, 0) of a one-entry vector recast as a 1 x 1 matrix gives the entry. -/
theorem extract_cast_one (v : (⟨1, ![1]⟩ : Shape).Idx → EReal) (h5 : (⟨1, ![1]⟩ : Shape).ShapeCasts ⟨2, ![1, 1]⟩)
    (h6 : ∀ a, (![0, 0] : Fin 2 → ℕ) a < (⟨2, ![1, 1]⟩ : Shape).size a) :
    extractAt ![0, 0] (shapeCast ⟨2, ![1, 1]⟩ v h5) h6 = v (ix1 (0 : Fin 1)) := by
  unfold extractAt
  rw [show (fun a => (⟨(![0, 0] : Fin 2 → ℕ) a, h6 a⟩ : Fin ((⟨2, ![1, 1]⟩ : Shape).size a))) = ix2 (0 : Fin 1) (0 : Fin 1) from
    funext fun a => Fin.ext (by match a with | ⟨0, _⟩ => rfl | ⟨1, _⟩ => rfl)]
  exact Cert.LibColumn.shapeCast_a_a1_apply v h5 0 0

/-- The last payload: the given row's lane plus the total of the given column. -/
theorem pay1_apply (v39 : FVec Ideal S1024x1 .f32) (xo : Vec Ideal S1x128 .f32) (l : S1x128.Idx) :
    k0_pay1 (F := Ideal) v39 xo l = xo l + ∑ i : S1024x1.Idx, v39 i := by
  have h1 : ∀ h, shapeCast S1x128 xo h l = xo l := fun h => congrFun (shapeCast_self xo h) l
  have h3 : ∀ j, multiReduction (F := Ideal) .add [0] S1 v39 0x00000000#32 reduces_S1024x1_S1 (.inl rfl) rfl j = ∑ i, v39 i := fun j =>
    Ideal.multiReduction_add_total v39 _ _ (fun b => by match b with | ⟨0, _⟩ => rfl) _ _ j
  unfold k0_pay1
  exact congrArg₂ (· + ·) (h1 _) ((extract_cast_one _ _ _).trans (h3 _))

/-! ## The logits: a product with the second operand transposed -/

theorem lhs0 (i : S1024x512.Idx) (q : dot_S1024x16_S512x16_S1024x512_1_1_0_0_n_n.contr.Idx) :
    (dot_S1024x16_S512x16_S1024x512_1_1_0_0_n_n.lhsIdx i q 0).val = (i 0).val := by
  unfold DotDims.lhsIdx
  rw [dif_neg (show ¬(0 : Fin S1024x16.rank) ∈ dot_S1024x16_S512x16_S1024x512_1_1_0_0_n_n.lhsBatch by decide),
    dif_pos (show (0 : Fin S1024x16.rank) ∈ dot_S1024x16_S512x16_S1024x512_1_1_0_0_n_n.lhsNonContracting by decide)]
  rfl
theorem lhs1 (i : S1024x512.Idx) (q : dot_S1024x16_S512x16_S1024x512_1_1_0_0_n_n.contr.Idx) :
    (dot_S1024x16_S512x16_S1024x512_1_1_0_0_n_n.lhsIdx i q 1).val = (q ⟨0, by decide⟩).val :=
  dot_S1024x16_S512x16_S1024x512_1_1_0_0_n_n.lhsIdx_val_of_single rfl i q
theorem rhs0 (i : S1024x512.Idx) (q : dot_S1024x16_S512x16_S1024x512_1_1_0_0_n_n.contr.Idx) :
    (dot_S1024x16_S512x16_S1024x512_1_1_0_0_n_n.rhsIdx i q 0).val = (i 1).val := by
  unfold DotDims.rhsIdx
  rw [dif_neg (show ¬(0 : Fin S512x16.rank) ∈ dot_S1024x16_S512x16_S1024x512_1_1_0_0_n_n.rhsBatch by decide),
    dif_pos (show (0 : Fin S512x16.rank) ∈ dot_S1024x16_S512x16_S1024x512_1_1_0_0_n_n.rhsNonContracting by decide)]
  rfl
theorem rhs1 (i : S1024x512.Idx) (q : dot_S1024x16_S512x16_S1024x512_1_1_0_0_n_n.contr.Idx) :
    (dot_S1024x16_S512x16_S1024x512_1_1_0_0_n_n.rhsIdx i q 1).val = (q ⟨0, by decide⟩).val :=
  dot_S1024x16_S512x16_S1024x512_1_1_0_0_n_n.rhsIdx_val_of_single rfl i q

/-- Entry (r, c) of the product is the inner product of row r of the first operand and row c of the second. -/
theorem logits_apply (lhs : FVec Ideal S1024x16 .bf16) (rhs : FVec Ideal S512x16 .bf16) (r : Fin 1024) (c : Fin 512) :
    matmul dot_S1024x16_S512x16_S1024x512_1_1_0_0_n_n none lhs rhs (constant S1024x512 .f32 0x00000000#32) (ix2 r c)
      = ∑ h : Fin 16, lhs (ix2 r h) * rhs (ix2 c h) := by
  simp only [matmul]
  rw [Ideal.matmul_constant_zero_apply, ← Equiv.sum_comp (ValueIdx.contrEquiv1 dot_S1024x16_S512x16_S1024x512_1_1_0_0_n_n 16 rfl rfl).symm]
  refine Finset.sum_congr rfl fun k _ => ?_
  have hk := ValueIdx.contrEquiv1_symm_val dot_S1024x16_S512x16_S1024x512_1_1_0_0_n_n 16 rfl rfl k
  have el : dot_S1024x16_S512x16_S1024x512_1_1_0_0_n_n.lhsIdx (ix2 r c) ((ValueIdx.contrEquiv1 dot_S1024x16_S512x16_S1024x512_1_1_0_0_n_n 16 rfl rfl).symm k) = ix2 r k :=
    funext fun a => Fin.ext (by
      match a with
      | ⟨0, _⟩ => exact lhs0 _ _
      | ⟨1, _⟩ => exact (lhs1 _ _).trans hk)
  have er : dot_S1024x16_S512x16_S1024x512_1_1_0_0_n_n.rhsIdx (ix2 r c) ((ValueIdx.contrEquiv1 dot_S1024x16_S512x16_S1024x512_1_1_0_0_n_n 16 rfl rfl).symm k) = ix2 c k :=
    funext fun a => Fin.ext (by
      match a with
      | ⟨0, _⟩ => exact rhs0 _ _
      | ⟨1, _⟩ => exact (rhs1 _ _).trans hk)
  rw [el, er]

/-! ## The first payload at a row -/

/-- The row total at row r: over the tile's columns, the loss term of the logit and of the label. -/
theorem pay3_apply (x0 : Vec Ideal S1024x16 .f32) (x1 : Vec Ideal S512x16 .f32) (x2 : Vec Ideal S1024x512 .i32) (r : Fin 1024) (u : Fin 1) :
    k0_pay3 (F := Ideal) x0 x1 x2 (ix2 r u)
      = ∑ c : Fin 512, lossKer (∑ h : Fin 16, x0 (ix2 r h) * x1 (ix2 c h)) (x2 (ix2 r c)) := by
  unfold k0_pay3
  refine (Cert.LibColumn.shapeCast_a_a1_apply _ _ r u).trans ?_
  refine (Ideal.multiReduction_add_single _ _ _ _ _ _).trans ?_
  refine Finset.sum_congr rfl fun k _ => ?_
  have hl : reduces_S1024x512_S1024.lift (ix1 r) k = ix2 r k :=
    funext fun a => Fin.ext (by match a with | ⟨0, _⟩ => rfl | ⟨1, _⟩ => rfl)
  refine (congrArg _ hl).trans ?_
  have hL := logits_apply (truncf .bf16 (shapeCast S1024x16 x0 shapeCasts_S1024x16_S1024x16) bitsLt_bf16_f32)
    (truncf .bf16 (shapeCast S512x16 x1 shapeCasts_S512x16_S512x16) bitsLt_bf16_f32) r k
  have e0 : (truncf .bf16 (shapeCast S1024x16 x0 shapeCasts_S1024x16_S1024x16) bitsLt_bf16_f32 : FVec Ideal S1024x16 .bf16) = x0 := by
    rw [shapeCast_self]; rfl
  have e1 : (truncf .bf16 (shapeCast S512x16 x1 shapeCasts_S512x16_S512x16) bitsLt_bf16_f32 : FVec Ideal S512x16 .bf16) = x1 := by
    rw [shapeCast_self]; rfl
  exact congrArg (lossKer · (x2 (ix2 r k))) (hL.trans (by rw [e0, e1]))

end Cert.KernelIdeal.Sm

end
-- ==== Proof.KI.Total.lean ====
/-
  The result row as the double sum over the square.

  The chain adds one tile total per grid point, starting from zero, so every lane of the row ends at the sum of the
  128 tile totals. A tile total is the sum of its 1024 row totals; a row total the sum over the tile's 512 columns of
  the loss term; and the tile's blocks are the whole arrays' entries at the tile's offsets: block row t / 16, block
  column t % 16, in units of 1024 rows and 512 columns. Regrouping the tiles gives the sum over all 8192 x 8192 pairs.
-/
import proofs.«119214_j14955076125211_1_alg».proof.Proof.KI.Sum

set_option maxRecDepth 16384

noncomputable section

namespace Cert.KernelIdeal.Sm

open Cert.KernelIdeal Cert.KernelIdeal.Gen Cert.KernelIdeal.Fr
open Idealize.ShloMosaic Idealize.ShloMosaic.TcCoe Idealize.ShloMosaic.ValueIdx Idealize.SL.Sem
open Cert.Bce

variable (m : (ℓ : Loc nD τ sig) → Buf (Elt Ideal) ℓ)

/-! ## The chain is a sum over the points -/

/-- The total the body adds at point t. -/
def ptTotal (c : Dev nD) (t : Fin cfg0.N) : EReal := ∑ i : S1024x1.Idx, rowTotals (F := Ideal) m c t i

theorem pay2_apply (l : S1x128.Idx) : k0_pay2 (F := Ideal) l = (0 : EReal) := by
  show Ideal.ofBits .f32 0x00000000#32 = 0
  exact Ideal.ofBits_zero_f32

theorem chain_zero (c : Dev nD) (h : 0 < cfg0.N) :
    chain (F := Ideal) m c 0 h = k0_pay1 (rowTotals m c ⟨0, h⟩) (k0_pay2 (F := Ideal)) := rfl
theorem chain_succ (c : Dev nD) (n : ℕ) (h : n + 1 < cfg0.N) :
    chain (F := Ideal) m c (n + 1) h = k0_pay1 (rowTotals m c ⟨n + 1, h⟩) (chain m c n (Nat.lt_of_succ_lt h)) := rfl

theorem ptTotal_def (c : Dev nD) (t : Fin cfg0.N) : ptTotal m c t = ∑ i : S1024x1.Idx, rowTotals (F := Ideal) m c t i := rfl

theorem chain_apply (c : Dev nD) (l : S1x128.Idx) : ∀ (n : ℕ) (h : n < cfg0.N),
    chain (F := Ideal) m c n h l = ∑ t : Fin (n + 1), ptTotal m c ⟨t.val, lt_of_lt_of_le t.isLt (Nat.succ_le_of_lt h)⟩
  | 0, h => by
    rw [chain_zero, pay1_apply, pay2_apply, zero_add, Fin.sum_univ_one, ptTotal_def]
    rfl
  | n + 1, h => by
    rw [chain_succ, pay1_apply, chain_apply c l n (Nat.lt_of_succ_lt h), ← ptTotal_def]
    exact (Fin.sum_univ_castSucc (fun t : Fin (n + 1 + 1) => ptTotal m c ⟨t.val, lt_of_lt_of_le t.isLt (Nat.succ_le_of_lt h)⟩)).symm

/-! ## The blocks are the arrays' entries at the tile's offsets -/

/-- The embedding matrix and the label matrix as the region finds them. -/
abbrev Zk (c : Dev nD) : (⟨2, ![8192, 16]⟩ : Shape).Idx → EReal := V m c main_v142
abbrev Yk (c : Dev nD) : (⟨2, ![8192, 8192]⟩ : Shape).Idx → BitVec 32 := V m c main_arg2

/-- The block indices over the grid: window 0 follows the block row, window 1 the block column, window 2 both. -/
theorem idx_facts : ∀ t : Fin cfg0.N,
    win0_0.index t 0 = t.val / 16 ∧ win0_0.index t 1 = 0 ∧ win0_1.index t 0 = t.val % 16 ∧ win0_1.index t 1 = 0
      ∧ win0_2.index t 0 = t.val / 16 ∧ win0_2.index t 1 = t.val % 16 :=
  (by decide +kernel : ∀ t : Fin grid0.N,
    win0_0.index t 0 = t.val / 16 ∧ win0_0.index t 1 = 0 ∧ win0_1.index t 0 = t.val % 16 ∧ win0_1.index t 1 = 0
      ∧ win0_2.index t 0 = t.val / 16 ∧ win0_2.index t 1 = t.val % 16)

theorem blk0 (c : Dev nD) (t : Fin cfg0.N) (r : Fin 1024) (h : Fin 16) (i : Fin 8192) (hi : i.val = 1024 * (t.val / 16) + r.val) :
    (iblk m c 0 t : Vec Ideal S1024x16 .f32) (ix2 r h) = Zk m c (ix2 i h) := by
  unfold iblk
  rw [View.read_apply]
  show V m c main_v142 _ = V m c main_v142 _
  congr 1
  funext a
  apply Fin.ext
  match a with
  | ⟨0, _⟩ => show win0_0.index t 0 * 1024 + 1 * r.val = i.val; rw [(idx_facts t).1, hi]; omega
  | ⟨1, _⟩ => show win0_0.index t 1 * 16 + 1 * h.val = h.val; rw [(idx_facts t).2.1]; omega

theorem blk1 (c : Dev nD) (t : Fin cfg0.N) (cc : Fin 512) (h : Fin 16) (j : Fin 8192) (hj : j.val = 512 * (t.val % 16) + cc.val) :
    (iblk m c 1 t : Vec Ideal S512x16 .f32) (ix2 cc h) = Zk m c (ix2 j h) := by
  unfold iblk
  rw [View.read_apply]
  show V m c main_v142 _ = V m c main_v142 _
  congr 1
  funext a
  apply Fin.ext
  match a with
  | ⟨0, _⟩ => show win0_1.index t 0 * 512 + 1 * cc.val = j.val; rw [(idx_facts t).2.2.1, hj]; omega
  | ⟨1, _⟩ => show win0_1.index t 1 * 16 + 1 * h.val = h.val; rw [(idx_facts t).2.2.2.1]; omega

theorem blk2 (c : Dev nD) (t : Fin cfg0.N) (r : Fin 1024) (cc : Fin 512) (i j : Fin 8192)
    (hi : i.val = 1024 * (t.val / 16) + r.val) (hj : j.val = 512 * (t.val % 16) + cc.val) :
    (iblk m c 2 t : Vec Ideal S1024x512 .i32) (ix2 r cc) = Yk m c (ix2 i j) := by
  unfold iblk
  rw [View.read_apply]
  show V m c main_arg2 _ = V m c main_arg2 _
  congr 1
  funext a
  apply Fin.ext
  match a with
  | ⟨0, _⟩ => show win0_2.index t 0 * 1024 + 1 * r.val = i.val; rw [(idx_facts t).2.2.2.2.1, hi]; omega
  | ⟨1, _⟩ => show win0_2.index t 1 * 512 + 1 * cc.val = j.val; rw [(idx_facts t).2.2.2.2.2, hj]; omega

/-! ## The tile total and the whole sum -/

/-- The loss term at a pair of rows of the embedding matrix. -/
def pairLoss (c : Dev nD) (i j : Fin 8192) : EReal :=
  lossKer (∑ h : Fin 16, Zk m c (ix2 i h) * Zk m c (ix2 j h)) (Yk m c (ix2 i j))

set_option maxHeartbeats 800000 in
theorem ptTotal_eq (c : Dev nD) (t : Fin 128) (ht : t.val < cfg0.N) :
    ptTotal m c ⟨t.val, ht⟩ = ∑ r : Fin 1024, ∑ cc : Fin 512, pairLoss m c (tileRow t r) (tileCol t cc) := by
  rw [ptTotal_def, sum_idx2]
  refine Finset.sum_congr rfl fun r _ => ?_
  rw [Fin.sum_univ_one]
  refine (pay3_apply (iblk m c 0 ⟨t.val, ht⟩) (iblk m c 1 ⟨t.val, ht⟩) (iblk m c 2 ⟨t.val, ht⟩) r 0).trans ?_
  refine Finset.sum_congr rfl fun cc _ => ?_
  unfold pairLoss
  rw [blk2 m c ⟨t.val, ht⟩ r cc (tileRow t r) (tileCol t cc) rfl rfl]
  congr 1
  refine Finset.sum_congr rfl fun h _ => ?_
  rw [blk0 m c ⟨t.val, ht⟩ r h (tileRow t r) rfl, blk1 m c ⟨t.val, ht⟩ cc h (tileCol t cc) rfl]

/-- The result row, as a typed array. -/
abbrev rowK (c : Dev nD) : FVec Ideal S1x128 .f32 := chain (F := Ideal) m c 127 lastLt

/-- Every lane of the result row: the sum, over all pairs of rows, of the pair's loss term. -/
theorem resultRow_apply (c : Dev nD) (l : S1x128.Idx) :
    rowK m c l = ∑ i : Fin 8192, ∑ j : Fin 8192, pairLoss m c i j := by
  unfold rowK
  rw [chain_apply m c l 127 lastLt, ← sum_tiles (pairLoss m c)]
  refine Finset.sum_congr rfl fun t _ => ?_
  exact ptTotal_eq m c t _

end Cert.KernelIdeal.Sm

end
-- ==== Proof.KI.Head.lean ====
/-
  Taking the total out of the output row.

  The first two lines after the region slice lane (0, 0) out of the 1 x 128 output row and recast that 1 x 1 piece as a
  scalar: the scalar is the row's first lane. They write two fresh buffers and leave everything else alone; no line
  after the region writes the mean matrix.
-/
import proofs.«119214_j14955076125211_1_alg».proof.Proof.Bridge.Tail
import proofs.«119214_j14955076125211_1_alg».proof.Proof.KI.Total
import Idealize.ShloMosaic.Lib.Pipeline.Value

set_option maxRecDepth 16384

noncomputable section

namespace Cert.KernelIdeal.Sm

open Cert.KernelIdeal Cert.KernelIdeal.Gen
open Idealize.ShloMosaic Idealize.ShloMosaic.TcCoe Idealize.ShloMosaic.ValueIdx Idealize.SL.Sem Idealize.ShloMosaic.StableHlo

/-- The scalar the two lines leave, and the row they read, as typed arrays. -/
abbrev sK (W : Valuation τ sig (Elt Ideal)) : FVec Ideal S_ .f32 := after Cert.Bridge.headK W (Proc.devRef .tc main_v145)
abbrev oK (W : Valuation τ sig (Elt Ideal)) : FVec Ideal S1x128 .f32 := W (Proc.devRef .tc main_v143)

set_option maxHeartbeats 1600000 in
theorem head_term (W : Valuation τ sig (Elt Ideal)) :
    sK W = shapeCast S_ (extractStridedSlice S1x1 ![0, 0] (oK W) Facts₀.slices_S1x128_S1x1_0_0) Facts₀.shapeCasts_S1x1_S_ := by
  show after Cert.Bridge.headK W (Proc.devRef .tc main_v145) = _
  simp only [Cert.Bridge.headK, hostOps1, List.take_succ_cons, List.take_zero]
  after_results_simp <;> rfl

/-- The scalar is the row's first lane. -/
theorem head_read (W : Valuation τ sig (Elt Ideal)) (i : S_.Idx) : sK W i = oK W (ix2 (0 : Fin 1) (0 : Fin 128)) := by
  rw [head_term]
  refine (shapeCast_apply _ _ i (ix2 (0 : Fin 1) (0 : Fin 1)) rfl).trans ?_
  unfold extractStridedSlice
  exact congrArg (oK W) (funext fun a => Fin.ext (by match a with | ⟨0, _⟩ => rfl | ⟨1, _⟩ => rfl))

theorem headK_keeps_arg4 : ∀ op ∈ Cert.Bridge.headK, Proc.devRef .tc main_arg4 ∉ op.writes :=
  List.forall_iff_forall_mem.mp (by
    simp only [Cert.Bridge.headK, hostOps1, List.take_succ_cons, List.take_zero, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem headK_keeps_v139 : ∀ op ∈ Cert.Bridge.headK, Proc.devRef .tc main_v139 ∉ op.writes :=
  List.forall_iff_forall_mem.mp (by
    simp only [Cert.Bridge.headK, hostOps1, List.take_succ_cons, List.take_zero, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem headK_keeps_v94 : ∀ op ∈ Cert.Bridge.headK, Proc.devRef .tc main_v94 ∉ op.writes :=
  List.forall_iff_forall_mem.mp (by
    simp only [Cert.Bridge.headK, hostOps1, List.take_succ_cons, List.take_zero, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No line after the region writes the mean matrix. -/
theorem hostOps1_keeps_v94 : ∀ op ∈ (hostOps1 : List (HloOp τ sig (Elt Ideal))), Proc.devRef .tc main_v94 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

end Cert.KernelIdeal.Sm

end
-- ==== Proof.Ref.Keeps.lean ====
/-
  Which of the reference's stretches leave which buffers alone, and the line's result read stretch by stretch.

  Every operation writes one fresh buffer of its own. So the first stretch leaves the labels and the norm as launched; the
  second leaves the norm, the log-variance and the mean as it found them; the third leaves the mean. The scalar result is
  what the third stretch computes from what the second leaves from what the first leaves; the mean result is what the
  first stretch leaves.
-/
import proofs.«119214_j14955076125211_1_alg».proof.Proof.Ref.Line
import Idealize.ShloMosaic.Lib.Pipeline.Frame

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

theorem opsA_keeps_arg2 : ∀ op ∈ (opsA : List (HloOp τ sig (Elt F))), Proc.devRef .tc main_arg2 ∉ op.writes :=
  List.forall_iff_forall_mem.mp (by
    simp only [opsA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsA_keeps_arg4 : ∀ op ∈ (opsA : List (HloOp τ sig (Elt F))), Proc.devRef .tc main_arg4 ∉ op.writes :=
  List.forall_iff_forall_mem.mp (by
    simp only [opsA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsB1_keeps_arg4 : ∀ op ∈ (opsB1 : List (HloOp τ sig (Elt F))), Proc.devRef .tc main_arg4 ∉ op.writes :=
  List.forall_iff_forall_mem.mp (by
    simp only [opsB1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsB1_keeps_v139 : ∀ op ∈ (opsB1 : List (HloOp τ sig (Elt F))), Proc.devRef .tc main_v139 ∉ op.writes :=
  List.forall_iff_forall_mem.mp (by
    simp only [opsB1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsB1_keeps_v94 : ∀ op ∈ (opsB1 : List (HloOp τ sig (Elt F))), Proc.devRef .tc main_v94 ∉ op.writes :=
  List.forall_iff_forall_mem.mp (by
    simp only [opsB1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsB2_keeps_v94 : ∀ op ∈ (opsB2 : List (HloOp τ sig (Elt F))), Proc.devRef .tc main_v94 ∉ op.writes :=
  List.forall_iff_forall_mem.mp (by
    simp only [opsB2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- The scalar result, stretch by stretch. -/
theorem ops_read_scalar (W : Valuation τ sig (Elt F)) :
    after ops W (Proc.devRef .tc main_v173) = after opsB2 (after opsB1 (after opsA W)) (Proc.devRef .tc main_v173) := by
  show after (opsA ++ (opsB1 ++ opsB2)) W _ = _
  rw [StableHlo.after_append, StableHlo.after_append]

/-- The mean result is what the first stretch leaves. -/
theorem ops_read_mean (W : Valuation τ sig (Elt F)) :
    after ops W (Proc.devRef .tc main_v94) = after opsA W (Proc.devRef .tc main_v94) := by
  show after (opsA ++ (opsB1 ++ opsB2)) W _ = _
  rw [StableHlo.after_append, StableHlo.after_append, StableHlo.after_of_forall_not_mem _ _ opsB2_keeps_v94,
    StableHlo.after_of_forall_not_mem _ _ opsB1_keeps_v94]

end Cert.ReferenceIdeal.Line

end
-- ==== Proof.Ref.Frame.lean ====
/-
  The reference's frame: no operation of its line writes an argument, so every argument ends as launched.
-/
import proofs.«119214_j14955076125211_1_alg».proof.Proof.Ref.Keeps

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

theorem opsA_keeps_a0 : ∀ op ∈ (opsA : List (HloOp τ sig (Elt F))), Proc.devRef .tc main_arg0 ∉ op.writes :=
  List.forall_iff_forall_mem.mp (by
    simp only [opsA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsB1_keeps_a0 : ∀ op ∈ (opsB1 : List (HloOp τ sig (Elt F))), Proc.devRef .tc main_arg0 ∉ op.writes :=
  List.forall_iff_forall_mem.mp (by
    simp only [opsB1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsB2_keeps_a0 : ∀ op ∈ (opsB2 : List (HloOp τ sig (Elt F))), Proc.devRef .tc main_arg0 ∉ op.writes :=
  List.forall_iff_forall_mem.mp (by
    simp only [opsB2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsA_keeps_a1 : ∀ op ∈ (opsA : List (HloOp τ sig (Elt F))), Proc.devRef .tc main_arg1 ∉ op.writes :=
  List.forall_iff_forall_mem.mp (by
    simp only [opsA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsB1_keeps_a1 : ∀ op ∈ (opsB1 : List (HloOp τ sig (Elt F))), Proc.devRef .tc main_arg1 ∉ op.writes :=
  List.forall_iff_forall_mem.mp (by
    simp only [opsB1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsB2_keeps_a1 : ∀ op ∈ (opsB2 : List (HloOp τ sig (Elt F))), Proc.devRef .tc main_arg1 ∉ op.writes :=
  List.forall_iff_forall_mem.mp (by
    simp only [opsB2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsA_keeps_a2 : ∀ op ∈ (opsA : List (HloOp τ sig (Elt F))), Proc.devRef .tc main_arg2 ∉ op.writes :=
  List.forall_iff_forall_mem.mp (by
    simp only [opsA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsB1_keeps_a2 : ∀ op ∈ (opsB1 : List (HloOp τ sig (Elt F))), Proc.devRef .tc main_arg2 ∉ op.writes :=
  List.forall_iff_forall_mem.mp (by
    simp only [opsB1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsB2_keeps_a2 : ∀ op ∈ (opsB2 : List (HloOp τ sig (Elt F))), Proc.devRef .tc main_arg2 ∉ op.writes :=
  List.forall_iff_forall_mem.mp (by
    simp only [opsB2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsA_keeps_a3 : ∀ op ∈ (opsA : List (HloOp τ sig (Elt F))), Proc.devRef .tc main_arg3 ∉ op.writes :=
  List.forall_iff_forall_mem.mp (by
    simp only [opsA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsB1_keeps_a3 : ∀ op ∈ (opsB1 : List (HloOp τ sig (Elt F))), Proc.devRef .tc main_arg3 ∉ op.writes :=
  List.forall_iff_forall_mem.mp (by
    simp only [opsB1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsB2_keeps_a3 : ∀ op ∈ (opsB2 : List (HloOp τ sig (Elt F))), Proc.devRef .tc main_arg3 ∉ op.writes :=
  List.forall_iff_forall_mem.mp (by
    simp only [opsB2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsA_keeps_a4 : ∀ op ∈ (opsA : List (HloOp τ sig (Elt F))), Proc.devRef .tc main_arg4 ∉ op.writes :=
  List.forall_iff_forall_mem.mp (by
    simp only [opsA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsB1_keeps_a4 : ∀ op ∈ (opsB1 : List (HloOp τ sig (Elt F))), Proc.devRef .tc main_arg4 ∉ op.writes :=
  List.forall_iff_forall_mem.mp (by
    simp only [opsB1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsB2_keeps_a4 : ∀ op ∈ (opsB2 : List (HloOp τ sig (Elt F))), Proc.devRef .tc main_arg4 ∉ op.writes :=
  List.forall_iff_forall_mem.mp (by
    simp only [opsB2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsA_keeps_a5 : ∀ op ∈ (opsA : List (HloOp τ sig (Elt F))), Proc.devRef .tc main_arg5 ∉ op.writes :=
  List.forall_iff_forall_mem.mp (by
    simp only [opsA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsB1_keeps_a5 : ∀ op ∈ (opsB1 : List (HloOp τ sig (Elt F))), Proc.devRef .tc main_arg5 ∉ op.writes :=
  List.forall_iff_forall_mem.mp (by
    simp only [opsB1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsB2_keeps_a5 : ∀ op ∈ (opsB2 : List (HloOp τ sig (Elt F))), Proc.devRef .tc main_arg5 ∉ op.writes :=
  List.forall_iff_forall_mem.mp (by
    simp only [opsB2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsA_keeps_a6 : ∀ op ∈ (opsA : List (HloOp τ sig (Elt F))), Proc.devRef .tc main_arg6 ∉ op.writes :=
  List.forall_iff_forall_mem.mp (by
    simp only [opsA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsB1_keeps_a6 : ∀ op ∈ (opsB1 : List (HloOp τ sig (Elt F))), Proc.devRef .tc main_arg6 ∉ op.writes :=
  List.forall_iff_forall_mem.mp (by
    simp only [opsB1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsB2_keeps_a6 : ∀ op ∈ (opsB2 : List (HloOp τ sig (Elt F))), Proc.devRef .tc main_arg6 ∉ op.writes :=
  List.forall_iff_forall_mem.mp (by
    simp only [opsB2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsA_keeps_a7 : ∀ op ∈ (opsA : List (HloOp τ sig (Elt F))), Proc.devRef .tc main_arg7 ∉ op.writes :=
  List.forall_iff_forall_mem.mp (by
    simp only [opsA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsB1_keeps_a7 : ∀ op ∈ (opsB1 : List (HloOp τ sig (Elt F))), Proc.devRef .tc main_arg7 ∉ op.writes :=
  List.forall_iff_forall_mem.mp (by
    simp only [opsB1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem opsB2_keeps_a7 : ∀ op ∈ (opsB2 : List (HloOp τ sig (Elt F))), Proc.devRef .tc main_arg7 ∉ op.writes :=
  List.forall_iff_forall_mem.mp (by
    simp only [opsB2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- A buffer no stretch writes holds, after the line, what it held at the launch. -/
theorem kept (m : (ℓ : Loc nD τ sig) → Buf (Elt F) ℓ) (c : Dev nD) (r : Ref sig .tc)
    (hA : ∀ op ∈ (opsA : List (HloOp τ sig (Elt F))), Proc.devRef .tc r ∉ op.writes)
    (hB1 : ∀ op ∈ (opsB1 : List (HloOp τ sig (Elt F))), Proc.devRef .tc r ∉ op.writes)
    (hB2 : ∀ op ∈ (opsB2 : List (HloOp τ sig (Elt F))), Proc.devRef .tc r ∉ op.writes) :
    after ops (launchContents m c) (Proc.devRef .tc r) = m ((c.tc : Thread nD τ).loc r) := by
  show after (opsA ++ (opsB1 ++ opsB2)) _ _ = _
  rw [StableHlo.after_append, StableHlo.after_append, StableHlo.after_of_forall_not_mem _ _ hB2,
    StableHlo.after_of_forall_not_mem _ _ hB1, StableHlo.after_of_forall_not_mem _ _ hA]

theorem kept_a0 (m : (ℓ : Loc nD τ sig) → Buf (Elt F) ℓ) (c : Dev nD) :
    after ops (launchContents m c) (Proc.devRef .tc main_arg0) = m ((c.tc : Thread nD τ).loc main_arg0) :=
  kept m c main_arg0 opsA_keeps_a0 opsB1_keeps_a0 opsB2_keeps_a0
theorem kept_a1 (m : (ℓ : Loc nD τ sig) → Buf (Elt F) ℓ) (c : Dev nD) :
    after ops (launchContents m c) (Proc.devRef .tc main_arg1) = m ((c.tc : Thread nD τ).loc main_arg1) :=
  kept m c main_arg1 opsA_keeps_a1 opsB1_keeps_a1 opsB2_keeps_a1
theorem kept_a2 (m : (ℓ : Loc nD τ sig) → Buf (Elt F) ℓ) (c : Dev nD) :
    after ops (launchContents m c) (Proc.devRef .tc main_arg2) = m ((c.tc : Thread nD τ).loc main_arg2) :=
  kept m c main_arg2 opsA_keeps_a2 opsB1_keeps_a2 opsB2_keeps_a2
theorem kept_a3 (m : (ℓ : Loc nD τ sig) → Buf (Elt F) ℓ) (c : Dev nD) :
    after ops (launchContents m c) (Proc.devRef .tc main_arg3) = m ((c.tc : Thread nD τ).loc main_arg3) :=
  kept m c main_arg3 opsA_keeps_a3 opsB1_keeps_a3 opsB2_keeps_a3
theorem kept_a4 (m : (ℓ : Loc nD τ sig) → Buf (Elt F) ℓ) (c : Dev nD) :
    after ops (launchContents m c) (Proc.devRef .tc main_arg4) = m ((c.tc : Thread nD τ).loc main_arg4) :=
  kept m c main_arg4 opsA_keeps_a4 opsB1_keeps_a4 opsB2_keeps_a4
theorem kept_a5 (m : (ℓ : Loc nD τ sig) → Buf (Elt F) ℓ) (c : Dev nD) :
    after ops (launchContents m c) (Proc.devRef .tc main_arg5) = m ((c.tc : Thread nD τ).loc main_arg5) :=
  kept m c main_arg5 opsA_keeps_a5 opsB1_keeps_a5 opsB2_keeps_a5
theorem kept_a6 (m : (ℓ : Loc nD τ sig) → Buf (Elt F) ℓ) (c : Dev nD) :
    after ops (launchContents m c) (Proc.devRef .tc main_arg6) = m ((c.tc : Thread nD τ).loc main_arg6) :=
  kept m c main_arg6 opsA_keeps_a6 opsB1_keeps_a6 opsB2_keeps_a6
theorem kept_a7 (m : (ℓ : Loc nD τ sig) → Buf (Elt F) ℓ) (c : Dev nD) :
    after ops (launchContents m c) (Proc.devRef .tc main_arg7) = m ((c.tc : Thread nD τ).loc main_arg7) :=
  kept m c main_arg7 opsA_keeps_a7 opsB1_keeps_a7 opsB2_keeps_a7

/-- THE FRAME of the reference. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_arg0).trans (kept_a0 m c), (h c main_arg1).trans (kept_a1 m c),
    (h c main_arg2).trans (kept_a2 m c), (h c main_arg3).trans (kept_a3 m c), (h c main_arg4).trans (kept_a4 m c),
    (h c main_arg5).trans (kept_a5 m c), (h c main_arg6).trans (kept_a6 m c), (h c main_arg7).trans (kept_a7 m c)⟩)
    (run_all m ρ)

end Cert.ReferenceIdeal.Line

end
-- ==== Proof.Ref.Bce.lean ====
/-
  The reference's loss total, read.

  The second stretch of the reference's line takes the embedding matrix Z and the integer labels Y, forms the matrix of
  all inner products of two rows of Z (a product of Z with its transpose), and from it, entry by entry, the weighted
  loss term; then it sums every entry, starting from zero. So its result is zero plus the sum over all pairs (a, b) of
  rows of the loss term of the pair's inner product and of the label at (a, b).
-/
import proofs.«119214_j14955076125211_1_alg».proof.Proof.Ref.Line
import proofs.«119214_j14955076125211_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo
open Idealize.ShloMosaic.ValueIdx Cert.Bce

variable {F : FTy → Type} [FloatOps F]

/-- The matrix of loss terms, as the stretch computes it from the embedding matrix and the labels. -/
def lossMatrix (z : (⟨S8192x16, .f32⟩ : BufTy).Contents (Elt F)) (y : (⟨S8192x8192, .i32⟩ : BufTy).Contents (Elt F)) :
    (⟨S8192x8192, .f32⟩ : BufTy).Contents (Elt F) :=
  let D : (⟨S8192x8192, .f32⟩ : BufTy).Contents (Elt F) :=
    Host.dotGeneral dot_S8192x16_S16x8192_S8192x8192_1_0_0_1_n_n none z (transpose S16x8192 [1, 0] z transposes_S8192x16_S16x8192_1_0)
  let a : (⟨S8192x8192, .f32⟩ : BufTy).Contents (Elt F) := Host.negf D
  let c0 : (⟨S8192x8192, .f32⟩ : BufTy).Contents (Elt F) := broadcastInDim S8192x8192 ![] bcast_S_S8192x8192 (constant S_ .f32 0x00000000#32)
  let d : (⟨S8192x8192, .f32⟩ : BufTy).Contents (Elt F) := subf a c0
  let sp : (⟨S8192x8192, .f32⟩ : BufTy).Contents (Elt F) :=
    select (cmpf .une d d) (addf a c0) (addf (maximumf a c0) (Host.log1p (Host.exp (Host.negf (Host.absf d)))))
  let yf : (⟨S8192x8192, .f32⟩ : BufTy).Contents (Elt F) := sitofp .f32 y
  addf (mulf (mulf (broadcastInDim S8192x8192 ![] bcast_S_S8192x8192 (constant S_ .f32 0x41200000#32)) yf) sp)
    (mulf (subf (broadcastInDim S8192x8192 ![] bcast_S_S8192x8192 (constant S_ .f32 0x3F800000#32)) yf) (addf D sp))

set_option maxHeartbeats 1600000 in
/-- The stretch leaves, in the loss total's buffer, the sum of that matrix from zero. -/
theorem lossTotal_read (W : Valuation τ sig (Elt F)) :
    after opsB1 W (main_v156 : DevRef τ sig)
      = Host.reduceAdd (lossMatrix (W (main_v142 : DevRef τ sig)) (W (main_arg2 : DevRef τ sig))) (constant S_ .f32 0x00000000#32)
          reducesTo_S8192x8192_S_d0_1 h_S_ := by
  after_results_simp <;> rfl

/-! ## The product with the transpose, at a pair of rows -/

theorem lhsR0 (i : S8192x8192.Idx) (q : dot_S8192x16_S16x8192_S8192x8192_1_0_0_1_n_n.contr.Idx) : (dot_S8192x16_S16x8192_S8192x8192_1_0_0_1_n_n.lhsIdx i q 0).val = (i 0).val := by
  unfold DotDims.lhsIdx
  rw [dif_neg (show ¬(0 : Fin S8192x16.rank) ∈ dot_S8192x16_S16x8192_S8192x8192_1_0_0_1_n_n.lhsBatch by decide), dif_pos (show (0 : Fin S8192x16.rank) ∈ dot_S8192x16_S16x8192_S8192x8192_1_0_0_1_n_n.lhsNonContracting by decide)]
  rfl
theorem lhsR1 (i : S8192x8192.Idx) (q : dot_S8192x16_S16x8192_S8192x8192_1_0_0_1_n_n.contr.Idx) : (dot_S8192x16_S16x8192_S8192x8192_1_0_0_1_n_n.lhsIdx i q 1).val = (q ⟨0, by decide⟩).val :=
  dot_S8192x16_S16x8192_S8192x8192_1_0_0_1_n_n.lhsIdx_val_of_single rfl i q
theorem rhsR0 (i : S8192x8192.Idx) (q : dot_S8192x16_S16x8192_S8192x8192_1_0_0_1_n_n.contr.Idx) : (dot_S8192x16_S16x8192_S8192x8192_1_0_0_1_n_n.rhsIdx i q 0).val = (q ⟨0, by decide⟩).val :=
  dot_S8192x16_S16x8192_S8192x8192_1_0_0_1_n_n.rhsIdx_val_of_single rfl i q
theorem rhsR1 (i : S8192x8192.Idx) (q : dot_S8192x16_S16x8192_S8192x8192_1_0_0_1_n_n.contr.Idx) : (dot_S8192x16_S16x8192_S8192x8192_1_0_0_1_n_n.rhsIdx i q 1).val = (i 1).val := by
  unfold DotDims.rhsIdx
  rw [dif_neg (show ¬(1 : Fin S16x8192.rank) ∈ dot_S8192x16_S16x8192_S8192x8192_1_0_0_1_n_n.rhsBatch by decide), dif_pos (show (1 : Fin S16x8192.rank) ∈ dot_S8192x16_S16x8192_S8192x8192_1_0_0_1_n_n.rhsNonContracting by decide)]
  rfl

/-- Entry (a, b) of Z times its transpose is the inner product of rows a and b of Z. -/
theorem decode_apply (z : FVec Ideal S8192x16 .f32) (a b : Fin 8192) :
    Host.dotGeneral (F := Ideal) dot_S8192x16_S16x8192_S8192x8192_1_0_0_1_n_n none z (transpose S16x8192 [1, 0] z transposes_S8192x16_S16x8192_1_0) (ix2 a b)
      = ∑ k : Fin 16, z (ix2 a k) * z (ix2 b k) := by
  simp only [Host.dotGeneral]
  rw [Ideal.dotGeneral_apply, ← Equiv.sum_comp (ValueIdx.contrEquiv1 dot_S8192x16_S16x8192_S8192x8192_1_0_0_1_n_n 16 rfl rfl).symm]
  refine Finset.sum_congr rfl fun k _ => ?_
  have hk := ValueIdx.contrEquiv1_symm_val dot_S8192x16_S16x8192_S8192x8192_1_0_0_1_n_n 16 rfl rfl k
  have el : dot_S8192x16_S16x8192_S8192x8192_1_0_0_1_n_n.lhsIdx (ix2 a b) ((ValueIdx.contrEquiv1 dot_S8192x16_S16x8192_S8192x8192_1_0_0_1_n_n 16 rfl rfl).symm k) = ix2 a k :=
    funext fun x => Fin.ext (by
      match x with
      | ⟨0, _⟩ => exact lhsR0 _ _
      | ⟨1, _⟩ => exact (lhsR1 _ _).trans hk)
  have er : dot_S8192x16_S16x8192_S8192x8192_1_0_0_1_n_n.rhsIdx (ix2 a b) ((ValueIdx.contrEquiv1 dot_S8192x16_S16x8192_S8192x8192_1_0_0_1_n_n 16 rfl rfl).symm k) = ix2 k b :=
    funext fun x => Fin.ext (by
      match x with
      | ⟨0, _⟩ => exact (rhsR0 _ _).trans hk
      | ⟨1, _⟩ => exact rhsR1 _ _)
  rw [el, er]
  congr 1
  exact transpose_apply [1, 0] z transposes_S8192x16_S16x8192_1_0 (ix2 k b) (ix2 b k) (fun x => match x with
    | ⟨0, _⟩ => rfl
    | ⟨1, _⟩ => rfl)

/-! ## The loss matrix at a pair, and its sum -/

/-- A scalar constant broadcast to the whole matrix is that constant at every entry. -/
theorem splat_apply (w : BitVec 32) :
    (broadcastInDim S8192x8192 ![] bcast_S_S8192x8192 (constant (F := Ideal) S_ .f32 w) : FVec Ideal S8192x8192 .f32)
      = fun _ => Ideal.ofBits .f32 w :=
  funext fun i => broadcastInDim_apply _ bcast_S_S8192x8192 (constant (F := Ideal) S_ .f32 w) i ix0 (fun a => a.elim0)

theorem lossMatrix_apply (z : FVec Ideal S8192x16 .f32) (y : (⟨S8192x8192, .i32⟩ : BufTy).Contents (Elt Ideal)) (a b : Fin 8192) :
    lossMatrix (F := Ideal) z y (ix2 a b) = lossRef (∑ k : Fin 16, z (ix2 a k) * z (ix2 b k)) (y (ix2 a b)) := by
  unfold lossMatrix
  simp only [splat_apply]
  rw [← decode_apply z a b]
  rfl

/-- The host's sum of a whole matrix from an initial scalar: the scalar plus the sum of every entry. -/
theorem hostSum_apply (x : FVec Ideal S8192x8192 .f32) (v : FVec Ideal S_ .f32) (i : S_.Idx) :
    Host.reduceAdd (F := Ideal) x v reducesTo_S8192x8192_S_d0_1 h_S_ i = v (Shape.Idx.first h_S_) + ∑ j, x j := by
  simp only [Host.reduceAdd, Ideal.hostReduceAdd_def]
  exact Ideal.hostReduceAdd_total reducesTo_S8192x8192_S_d0_1 (fun b => b.elim0) x _ i

/-- What the stretch reads, and what it leaves, as typed arrays. -/
abbrev Zr (W : Valuation τ sig (Elt Ideal)) : FVec Ideal S8192x16 .f32 := W (main_v142 : DevRef τ sig)
abbrev Yr (W : Valuation τ sig (Elt Ideal)) : (⟨S8192x8192, .i32⟩ : BufTy).Contents (Elt Ideal) := W (main_arg2 : DevRef τ sig)
abbrev Sr (W : Valuation τ sig (Elt Ideal)) : FVec Ideal S_ .f32 := after opsB1 W (main_v156 : DevRef τ sig)

/-- THE LOSS TOTAL: the sum over all pairs of rows of the pair's loss term. -/
theorem lossTotal_apply (W : Valuation τ sig (Elt Ideal)) (i : S_.Idx) :
    Sr W i = ∑ a : Fin 8192, ∑ b : Fin 8192, lossRef (∑ k : Fin 16, Zr W (ix2 a k) * Zr W (ix2 b k)) (Yr W (ix2 a b)) := by
  have e : Sr W = Host.reduceAdd (lossMatrix (Zr W) (Yr W)) (constant S_ .f32 0x00000000#32) reducesTo_S8192x8192_S_d0_1 h_S_ :=
    lossTotal_read W
  rw [e, hostSum_apply, sum_idx2]
  rw [show (constant (F := Ideal) S_ .f32 0x00000000#32 : FVec Ideal S_ .f32) (Shape.Idx.first h_S_) = (0 : EReal) from Ideal.ofBits_zero_f32, zero_add]
  refine Finset.sum_congr rfl fun a _ => Finset.sum_congr rfl fun b _ => ?_
  exact lossMatrix_apply _ _ a b

end Cert.ReferenceIdeal.Line

end
-- ==== Proof.Bridge.Prefix.lean ====
/-
  The two programs' common beginning.

  Both programs start with the same 190 host operations (two graph convolutions and the sampled embedding): the same
  operations on the same operands, in the same order. So from launch contents that agree on the eight arguments they
  leave the same embedding matrix, the same log-variance matrix and the same mean matrix.
-/
import proofs.«119214_j14955076125211_1_alg».proof.Proof.KI.Body
import proofs.«119214_j14955076125211_1_alg».proof.Proof.Ref.Line
import Idealize.ShloMosaic.PureOps.Ideal

set_option maxRecDepth 16384

noncomputable section

namespace Cert.Bridge

open Idealize.ShloMosaic Idealize.ShloMosaic.TcCoe Idealize.SL.Sem Idealize.ShloMosaic.StableHlo

/-- The kernel's and the reference's buffer contents agree on the eight arguments. -/
structure ArgsAgree (WK : Valuation Cert.KernelIdeal.τ Cert.KernelIdeal.sig (Elt Ideal)) (WR : Valuation Cert.ReferenceIdeal.τ Cert.ReferenceIdeal.sig (Elt Ideal)) : Prop where
  a0 : WR (Proc.devRef .tc Cert.ReferenceIdeal.main_arg0) = WK (Proc.devRef .tc Cert.KernelIdeal.main_arg0)
  a1 : WR (Proc.devRef .tc Cert.ReferenceIdeal.main_arg1) = WK (Proc.devRef .tc Cert.KernelIdeal.main_arg1)
  a2 : WR (Proc.devRef .tc Cert.ReferenceIdeal.main_arg2) = WK (Proc.devRef .tc Cert.KernelIdeal.main_arg2)
  a3 : WR (Proc.devRef .tc Cert.ReferenceIdeal.main_arg3) = WK (Proc.devRef .tc Cert.KernelIdeal.main_arg3)
  a4 : WR (Proc.devRef .tc Cert.ReferenceIdeal.main_arg4) = WK (Proc.devRef .tc Cert.KernelIdeal.main_arg4)
  a5 : WR (Proc.devRef .tc Cert.ReferenceIdeal.main_arg5) = WK (Proc.devRef .tc Cert.KernelIdeal.main_arg5)
  a6 : WR (Proc.devRef .tc Cert.ReferenceIdeal.main_arg6) = WK (Proc.devRef .tc Cert.KernelIdeal.main_arg6)
  a7 : WR (Proc.devRef .tc Cert.ReferenceIdeal.main_arg7) = WK (Proc.devRef .tc Cert.KernelIdeal.main_arg7)

set_option maxHeartbeats 40000000 in
/-- After the common beginning the two programs hold the same embedding, log-variance and mean matrices. -/
theorem prefix_agree (WK : Valuation Cert.KernelIdeal.τ Cert.KernelIdeal.sig (Elt Ideal)) (WR : Valuation Cert.ReferenceIdeal.τ Cert.ReferenceIdeal.sig (Elt Ideal)) (h : ArgsAgree WK WR) :
    ((after (List.flatten (Cert.KernelIdeal.Fr.linesBefore (F := Ideal))) WK (Proc.devRef .tc Cert.KernelIdeal.main_v142) : FVec Ideal ⟨2, ![8192, 16]⟩ .f32)
        = after (Cert.ReferenceIdeal.Line.opsA (F := Ideal)) WR (Proc.devRef .tc Cert.ReferenceIdeal.main_v142))
    ∧ ((after (List.flatten (Cert.KernelIdeal.Fr.linesBefore (F := Ideal))) WK (Proc.devRef .tc Cert.KernelIdeal.main_v139) : FVec Ideal ⟨2, ![8192, 16]⟩ .f32)
        = after (Cert.ReferenceIdeal.Line.opsA (F := Ideal)) WR (Proc.devRef .tc Cert.ReferenceIdeal.main_v139))
    ∧ ((after (List.flatten (Cert.KernelIdeal.Fr.linesBefore (F := Ideal))) WK (Proc.devRef .tc Cert.KernelIdeal.main_v94) : FVec Ideal ⟨2, ![8192, 16]⟩ .f32)
        = after (Cert.ReferenceIdeal.Line.opsA (F := Ideal)) WR (Proc.devRef .tc Cert.ReferenceIdeal.main_v94)) := by
  simp only [Cert.KernelIdeal.Fr.linesBefore, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, List.flatten_cons, List.flatten_nil, List.append_nil, List.cons_append, List.nil_append,
    Cert.ReferenceIdeal.Line.opsA]
  after_results_simp
  simp only [h.a0, h.a1, h.a3, h.a5, h.a6, h.a7]
  exact ⟨rfl, rfl, rfl⟩

end Cert.Bridge

end
-- ==== Proof.Same.lean ====
/-
  The two idealized programs compute the same results.

  Both begin with the same host operations, so they hold the same embedding matrix Z, the same log-variance and the
  same mean (which is also the second result). The kernel then leaves, in lane 0 of its output row, the sum over the
  128 tiles of each tile's sum of loss terms; regrouped, that is the sum over all pairs of rows of Z of the pair's loss
  term, which is what the reference's whole-matrix sum is (its leading zero added). The loss term is the same function
  in both. Both end with the same host operations on the total, the norm, the log-variance and the mean.
-/
import proofs.«119214_j14955076125211_1_alg».proof.Defs
import proofs.«119214_j14955076125211_1_alg».proof.Proof.KI.Frame
import proofs.«119214_j14955076125211_1_alg».proof.Proof.KI.Head
import proofs.«119214_j14955076125211_1_alg».proof.Proof.Ref.Frame
import proofs.«119214_j14955076125211_1_alg».proof.Proof.Ref.Bce
import proofs.«119214_j14955076125211_1_alg».proof.Proof.Bridge.Prefix

set_option maxRecDepth 16384

noncomputable section

namespace Cert.Proof.Parts

open Idealize.ShloMosaic Idealize.ShloMosaic.TcCoe Idealize.SL.Sem Idealize.ShloMosaic.StableHlo Idealize.ShloMosaic.ValueIdx
open Cert.Bce

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two launch memories agree on the eight arguments (the claim's hypothesis). -/
def Agree : Prop := ∀ c : Dev Cert.KernelIdeal.nD,
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧   m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧   m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧   m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧   m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧   m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧   m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧   m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

/-- The launch contents as valuations. -/
abbrev WK0 (c : Dev Cert.KernelIdeal.nD) : Valuation Cert.KernelIdeal.τ Cert.KernelIdeal.sig (Elt Ideal) := fun b => m (c, b)
abbrev WR0 (c : Dev Cert.ReferenceIdeal.nD) : Valuation Cert.ReferenceIdeal.τ Cert.ReferenceIdeal.sig (Elt Ideal) := launchContents m' c

variable {m m'}

theorem argsAgree (h : Agree m m') (c : Dev Cert.KernelIdeal.nD) : Cert.Bridge.ArgsAgree (WK0 m c) (WR0 m' c) :=
  ⟨(h c).1, (h c).2.1, (h c).2.2.1, (h c).2.2.2.1, (h c).2.2.2.2.1, (h c).2.2.2.2.2.1, (h c).2.2.2.2.2.2.1, (h c).2.2.2.2.2.2.2⟩

/-! ## The common beginning -/

theorem sameZ (h : Agree m m') (c : Dev Cert.KernelIdeal.nD) :
    Cert.ReferenceIdeal.Line.Zr (after Cert.ReferenceIdeal.Line.opsA (WR0 m' c)) = Cert.KernelIdeal.Sm.Zk m c :=
  (Cert.Bridge.prefix_agree (WK0 m c) (WR0 m' c) (argsAgree h c)).1.symm

theorem sameLogvar (h : Agree m m') (c : Dev Cert.KernelIdeal.nD) :
    (after (Cert.ReferenceIdeal.Line.opsA (F := Ideal)) (WR0 m' c) (Proc.devRef .tc Cert.ReferenceIdeal.main_v139) : FVec Ideal ⟨2, ![8192, 16]⟩ .f32)
      = Cert.KernelIdeal.Fr.V0 m c (Proc.devRef .tc Cert.KernelIdeal.main_v139) :=
  (Cert.Bridge.prefix_agree (WK0 m c) (WR0 m' c) (argsAgree h c)).2.1.symm

theorem sameMean (h : Agree m m') (c : Dev Cert.KernelIdeal.nD) :
    (after (Cert.ReferenceIdeal.Line.opsA (F := Ideal)) (WR0 m' c) (Proc.devRef .tc Cert.ReferenceIdeal.main_v94) : FVec Ideal ⟨2, ![8192, 16]⟩ .f32)
      = Cert.KernelIdeal.Fr.V0 m c (Proc.devRef .tc Cert.KernelIdeal.main_v94) :=
  (Cert.Bridge.prefix_agree (WK0 m c) (WR0 m' c) (argsAgree h c)).2.2.symm

theorem sameLabels (h : Agree m m') (c : Dev Cert.KernelIdeal.nD) :
    Cert.ReferenceIdeal.Line.Yr (after Cert.ReferenceIdeal.Line.opsA (WR0 m' c)) = Cert.KernelIdeal.Sm.Yk m c := by
  show after Cert.ReferenceIdeal.Line.opsA (WR0 m' c) (Proc.devRef .tc Cert.ReferenceIdeal.main_arg2) = Cert.KernelIdeal.Fr.V m c Cert.KernelIdeal.main_arg2
  rw [StableHlo.after_of_forall_not_mem _ _ Cert.ReferenceIdeal.Line.opsA_keeps_arg2, Cert.KernelIdeal.Fr.V_kept m c Cert.KernelIdeal.main_arg2 Cert.KernelIdeal.Fr.pre_keeps_arg2]
  exact (h c).2.2.1

/-! ## The totals -/

/-- The kernel's output row after the run is the running row after the last point. -/
theorem outRow (c : Dev Cert.KernelIdeal.nD) : Cert.KernelIdeal.Sm.oK (Cert.KernelIdeal.Fr.Wx m c) = Cert.KernelIdeal.Sm.rowK m c := by
  show Cert.KernelIdeal.Fr.Wx m c (Proc.devRef .tc Cert.KernelIdeal.main_v143) = _
  rw [Cert.KernelIdeal.Fr.Wx_out, Cert.KernelIdeal.Fr.final_out]

/-- The reference's loss total is the kernel's output row's first lane. -/
theorem sameTotal (h : Agree m m') (c : Dev Cert.KernelIdeal.nD) :
    Cert.ReferenceIdeal.Line.Sr (after Cert.ReferenceIdeal.Line.opsA (WR0 m' c)) = Cert.KernelIdeal.Sm.sK (Cert.KernelIdeal.Fr.Wx m c) := by
  funext i
  rw [Cert.ReferenceIdeal.Line.lossTotal_apply, Cert.KernelIdeal.Sm.head_read, outRow, Cert.KernelIdeal.Sm.resultRow_apply, sameZ h c, sameLabels h c]
  refine Finset.sum_congr rfl fun a _ => Finset.sum_congr rfl fun b _ => ?_
  unfold Cert.KernelIdeal.Sm.pairLoss
  rw [lossKer_eq]

/-! ## The common ending -/

theorem tailAgree (h : Agree m m') (c : Dev Cert.KernelIdeal.nD) :
    Cert.Bridge.TailAgree (after Cert.Bridge.headK (Cert.KernelIdeal.Fr.Wx m c)) (after Cert.ReferenceIdeal.Line.opsB1 (after Cert.ReferenceIdeal.Line.opsA (WR0 m' c))) where
  total := sameTotal h c
  norm := by
    rw [StableHlo.after_of_forall_not_mem _ _ Cert.ReferenceIdeal.Line.opsB1_keeps_arg4, StableHlo.after_of_forall_not_mem _ _ Cert.ReferenceIdeal.Line.opsA_keeps_arg4,
      StableHlo.after_of_forall_not_mem _ _ Cert.KernelIdeal.Sm.headK_keeps_arg4, Cert.KernelIdeal.Fr.Wx_of_ne m c Cert.KernelIdeal.main_arg4 (by decide)]
    exact ((h c).2.2.2.2.1).trans (Cert.KernelIdeal.Fr.V_kept m c Cert.KernelIdeal.main_arg4 Cert.KernelIdeal.Fr.pre_keeps_arg4).symm
  logvar := by
    rw [StableHlo.after_of_forall_not_mem _ _ Cert.ReferenceIdeal.Line.opsB1_keeps_v139,
      StableHlo.after_of_forall_not_mem _ _ Cert.KernelIdeal.Sm.headK_keeps_v139, Cert.KernelIdeal.Fr.Wx_of_ne m c Cert.KernelIdeal.main_v139 (by decide)]
    exact sameLogvar h c
  mean := by
    rw [StableHlo.after_of_forall_not_mem _ _ Cert.ReferenceIdeal.Line.opsB1_keeps_v94,
      StableHlo.after_of_forall_not_mem _ _ Cert.KernelIdeal.Sm.headK_keeps_v94, Cert.KernelIdeal.Fr.Wx_of_ne m c Cert.KernelIdeal.main_v94 (by decide)]
    exact sameMean h c

/-- The scalar results agree. -/
theorem sameScalar (h : Agree m m') (c : Dev Cert.KernelIdeal.nD) :
    after Cert.ReferenceIdeal.Line.ops (WR0 m' c) (Proc.devRef .tc Cert.ReferenceIdeal.main_v173) = Cert.KernelIdeal.Fr.V' m c Cert.KernelIdeal.main_v162 := by
  rw [Cert.ReferenceIdeal.Line.ops_read_scalar]
  show _ = after (List.flatten [Cert.KernelIdeal.Gen.hostOps1]) (Cert.KernelIdeal.Fr.Wx m c) (Proc.devRef .tc Cert.KernelIdeal.main_v162)
  rw [show List.flatten [Cert.KernelIdeal.Gen.hostOps1 (F := Ideal)] = Cert.KernelIdeal.Gen.hostOps1 from by simp only [List.flatten_cons, List.flatten_nil, List.append_nil],
    Cert.Bridge.hostOps1_split]
  exact (Cert.Bridge.tail_agree _ _ (tailAgree h c)).symm

/-- The mean results agree. -/
theorem sameMeanResult (h : Agree m m') (c : Dev Cert.KernelIdeal.nD) :
    after Cert.ReferenceIdeal.Line.ops (WR0 m' c) (Proc.devRef .tc Cert.ReferenceIdeal.main_v94) = Cert.KernelIdeal.Fr.V' m c Cert.KernelIdeal.main_v94 := by
  rw [Cert.ReferenceIdeal.Line.ops_read_mean]
  show _ = after (List.flatten [Cert.KernelIdeal.Gen.hostOps1]) (Cert.KernelIdeal.Fr.Wx m c) (Proc.devRef .tc Cert.KernelIdeal.main_v94)
  rw [show List.flatten [Cert.KernelIdeal.Gen.hostOps1 (F := Ideal)] = Cert.KernelIdeal.Gen.hostOps1 from by simp only [List.flatten_cons, List.flatten_nil, List.append_nil],
    StableHlo.after_of_forall_not_mem _ _ Cert.KernelIdeal.Sm.hostOps1_keeps_v94, Cert.KernelIdeal.Fr.Wx_of_ne m c Cert.KernelIdeal.main_v94 (by decide)]
  exact sameMean h c

end Cert.Proof.Parts

end
-- ==== Proof.lean ====
/-
  A variational graph auto-encoder's loss: the tiled kernel against the plain reference.

  Both programs compute, on the host, two graph convolutions of the node features, a mean matrix mu and a log-variance
  matrix, and the sampled embedding Z = eps * exp(logvar) + mu, 8192 rows of 16 numbers. The loss has two parts: the
  divergence term, computed on the host from logvar and mu in both programs, and the reconstruction term
  norm * (1 / 8192^2) * sum over all pairs (i, j) of rows of Z of the weighted logistic loss of the inner product
  <Z_i, Z_j> against the 0/1 label at (i, j).

  The reference forms the whole 8192 x 8192 matrix Z Z^T, the loss term at every entry, and their sum. The kernel walks
  an 8 x 16 grid of 1024 x 512 tiles of that matrix: at each tile it multiplies a block of 1024 rows of Z by the
  transpose of a block of 512 rows of Z, computes the tile's loss terms and their total, and adds the total to a running
  row it keeps between tiles (cleared at the first tile); the host then takes the row's first lane.

  Read at the exact extended reals the two agree: a change of float format is the identity, the product into a zero
  accumulator is the plain sum of products, the loss term is the same function of the inner product and the label (the
  kernel writes 0 - x where the reference writes -x), and the sum over the tiles of the tiles' sums is the sum over the
  whole matrix, addition of extended reals being commutative and associative. No finiteness of the inputs is used.

  The frames: each program's host lines write fresh buffers only, and the kernel's region stages blocks of Z (through
  two windows, the array's buffer dealt between them in halves) and of the labels and writes back only its own output
  row; so every program runs to its end and its eight arguments end as launched.
-/
import proofs.«119214_j14955076125211_1_alg».proof.Defs
import proofs.«119214_j14955076125211_1_alg».proof.Proof.Gen.Kernel
import proofs.«119214_j14955076125211_1_alg».proof.Proof.Gen.Kernel.Skeleton
import proofs.«119214_j14955076125211_1_alg».proof.Proof.Gen.Kernel.Launch
import proofs.«119214_j14955076125211_1_alg».proof.Proof.Gen.Kernel.Points
import proofs.«119214_j14955076125211_1_alg».proof.Proof.Gen.KernelIdeal
import proofs.«119214_j14955076125211_1_alg».proof.Proof.Gen.KernelIdeal.Skeleton
import proofs.«119214_j14955076125211_1_alg».proof.Proof.Gen.KernelIdeal.Launch
import proofs.«119214_j14955076125211_1_alg».proof.Proof.Gen.KernelIdeal.Points
import proofs.«119214_j14955076125211_1_alg».proof.Proof.Gen.ReferenceIdeal
import proofs.«119214_j14955076125211_1_alg».proof.Proof.Gen.Pre_finite_inputs
import proofs.«119214_j14955076125211_1_alg».proof.Proof.K.Frame
import proofs.«119214_j14955076125211_1_alg».proof.Proof.Same
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The kernel as printed runs to its end and leaves its arguments unchanged. -/
theorem frame_k : Cert.frame_Kernel (hKernel := Cert.Kernel.Gen.facts) (hPre_finite_inputs := Cert.Pre_finite_inputs.Gen.facts) :=
  fun m ρ _ => Cert.Kernel.Fr.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- And the reference. -/
theorem frame_ri : Cert.frame_ReferenceIdeal (hReferenceIdeal := Cert.ReferenceIdeal.Gen.facts) (hPre_finite_inputs := Cert.Pre_finite_inputs.Gen.facts) :=
  fun m ρ _ => Cert.ReferenceIdeal.Line.frame m ρ

/-- The idealization rewrote no operation: it is the kernel's own text read at the exact values. -/
theorem preserves : Cert.preserves_Kernel_KernelIdeal := trivial

/-- From memories that agree on the arguments both idealized programs run to their ends with equal results: the scalar
    loss and the mean matrix. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  have h : Cert.Proof.Parts.Agree m m' := hagree
  refine ⟨fun c => Cert.KernelIdeal.Fr.V' m c Cert.KernelIdeal.main_v162, fun c => Cert.KernelIdeal.Fr.V' m c Cert.KernelIdeal.main_v94, ?_, ?_⟩
  · refine (θ_run Cert.KernelIdeal.defs _ _).mono (fun r hr c => ?_) (Cert.KernelIdeal.Fr.run_main (F := Ideal) m ρ)
    exact ⟨(hr c).2 Cert.KernelIdeal.main_v162 (Pipeline.mem_restRefs_of Cert.KernelIdeal.main_v162 rfl (by decide)),
      (hr c).2 Cert.KernelIdeal.main_v94 (Pipeline.mem_restRefs_of Cert.KernelIdeal.main_v94 rfl (by decide)),
      ((hr c).2 Cert.KernelIdeal.main_arg0 (Pipeline.mem_restRefs_of Cert.KernelIdeal.main_arg0 rfl (by decide))).trans (Cert.KernelIdeal.Fr.V'_kept m c Cert.KernelIdeal.main_arg0 (by decide) Cert.KernelIdeal.Fr.pre_keeps_arg0 Cert.KernelIdeal.Fr.tail_keeps_arg0),
      ((hr c).2 Cert.KernelIdeal.main_arg1 (Pipeline.mem_restRefs_of Cert.KernelIdeal.main_arg1 rfl (by decide))).trans (Cert.KernelIdeal.Fr.V'_kept m c Cert.KernelIdeal.main_arg1 (by decide) Cert.KernelIdeal.Fr.pre_keeps_arg1 Cert.KernelIdeal.Fr.tail_keeps_arg1),
      ((hr c).1 2).trans (((Cert.KernelIdeal.Fr.dats m 0 c).arrAt_in 2 rfl _).trans ((Cert.KernelIdeal.Fr.A_eq m c 2).trans (Cert.KernelIdeal.Fr.V_kept m c Cert.KernelIdeal.main_arg2 Cert.KernelIdeal.Fr.pre_keeps_arg2))),
      ((hr c).2 Cert.KernelIdeal.main_arg3 (Pipeline.mem_restRefs_of Cert.KernelIdeal.main_arg3 rfl (by decide))).trans (Cert.KernelIdeal.Fr.V'_kept m c Cert.KernelIdeal.main_arg3 (by decide) Cert.KernelIdeal.Fr.pre_keeps_arg3 Cert.KernelIdeal.Fr.tail_keeps_arg3),
      ((hr c).2 Cert.KernelIdeal.main_arg4 (Pipeline.mem_restRefs_of Cert.KernelIdeal.main_arg4 rfl (by decide))).trans (Cert.KernelIdeal.Fr.V'_kept m c Cert.KernelIdeal.main_arg4 (by decide) Cert.KernelIdeal.Fr.pre_keeps_arg4 Cert.KernelIdeal.Fr.tail_keeps_arg4),
      ((hr c).2 Cert.KernelIdeal.main_arg5 (Pipeline.mem_restRefs_of Cert.KernelIdeal.main_arg5 rfl (by decide))).trans (Cert.KernelIdeal.Fr.V'_kept m c Cert.KernelIdeal.main_arg5 (by decide) Cert.KernelIdeal.Fr.pre_keeps_arg5 Cert.KernelIdeal.Fr.tail_keeps_arg5),
      ((hr c).2 Cert.KernelIdeal.main_arg6 (Pipeline.mem_restRefs_of Cert.KernelIdeal.main_arg6 rfl (by decide))).trans (Cert.KernelIdeal.Fr.V'_kept m c Cert.KernelIdeal.main_arg6 (by decide) Cert.KernelIdeal.Fr.pre_keeps_arg6 Cert.KernelIdeal.Fr.tail_keeps_arg6),
      ((hr c).2 Cert.KernelIdeal.main_arg7 (Pipeline.mem_restRefs_of Cert.KernelIdeal.main_arg7 rfl (by decide))).trans (Cert.KernelIdeal.Fr.V'_kept m c Cert.KernelIdeal.main_arg7 (by decide) Cert.KernelIdeal.Fr.pre_keeps_arg7 Cert.KernelIdeal.Fr.tail_keeps_arg7)⟩
  · refine (θ_run Cert.ReferenceIdeal.defs _ _).mono (fun r hr c => ?_) (Cert.ReferenceIdeal.Line.run_all (F := Ideal) m' ρ')
    exact ⟨(hr c Cert.ReferenceIdeal.main_v173).trans (Cert.Proof.Parts.sameScalar h c), (hr c Cert.ReferenceIdeal.main_v94).trans (Cert.Proof.Parts.sameMeanResult h c),
      (hr c Cert.ReferenceIdeal.main_arg0).trans (Cert.ReferenceIdeal.Line.kept_a0 m' c),
      (hr c Cert.ReferenceIdeal.main_arg1).trans (Cert.ReferenceIdeal.Line.kept_a1 m' c),
      (hr c Cert.ReferenceIdeal.main_arg2).trans (Cert.ReferenceIdeal.Line.kept_a2 m' c),
      (hr c Cert.ReferenceIdeal.main_arg3).trans (Cert.ReferenceIdeal.Line.kept_a3 m' c),
      (hr c Cert.ReferenceIdeal.main_arg4).trans (Cert.ReferenceIdeal.Line.kept_a4 m' c),
      (hr c Cert.ReferenceIdeal.main_arg5).trans (Cert.ReferenceIdeal.Line.kept_a5 m' c),
      (hr c Cert.ReferenceIdeal.main_arg6).trans (Cert.ReferenceIdeal.Line.kept_a6 m' c),
      (hr c Cert.ReferenceIdeal.main_arg7).trans (Cert.ReferenceIdeal.Line.kept_a7 m' c)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
